-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S150000x128 : Shape := ⟨2, ![150000, 128]⟩
abbrev S100000x2 : Shape := ⟨2, ![100000, 2]⟩
abbrev S150000x2 : Shape := ⟨2, ![150000, 2]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S150000x128 : S_.BroadcastsInDim S150000x128 (![] : Fin 0 → Fin S150000x128.rank)
  reducesTo_S150000x128_S_d0_1 : S150000x128.ReducesTo [0, 1] S_
  bcast_S_S100000x2 : S_.BroadcastsInDim S100000x2 (![] : Fin 0 → Fin S100000x2.rank)
  reducesTo_S100000x2_S_d0_1 : S100000x2.ReducesTo [0, 1] S_
  bcast_S_S150000x2 : S_.BroadcastsInDim S150000x2 (![] : Fin 0 → Fin S150000x2.rank)
  reducesTo_S150000x2_S_d0_1 : S150000x2.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_

variable [Facts]

def fn_part6 {F : FTy → Type} [FloatOps F] (main_arg21 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  main_v108

def fn_part5 {F : FTy → Type} [FloatOps F] (main_arg18 : FVec F S128 .f32) (main_arg19 : FVec F S128x128 .f32) (main_arg20 : FVec F S128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S128 .f32) (main_arg15 : FVec F S128x128 .f32) (main_arg16 : FVec F S128x128 .f32) (main_arg17 : FVec F S128 .f32) (main_arg18 : FVec F S128 .f32) (main_arg19 : FVec F S128x128 .f32) (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S128 .f32) (main_arg12 : FVec F S384x128 .f32) (main_arg13 : FVec F S128 .f32) (main_arg14 : FVec F S128 .f32) (main_arg15 : FVec F S128x128 .f32) (main_arg16 : FVec F S128x128 .f32) (main_arg17 : FVec F S128 .f32) (main_arg18 : FVec F S128 .f32) (main_arg19 : FVec F S128x128 .f32) (main_arg20 : FVec F S128 .f32) (main_arg21 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S384x128 .f32 := Host.absf main_arg12
  let main_cst_22 : FVec F S_ .f32 := constant S_ .f32 0x7F800000#32
  let main_v60 : FVec F S384x128 .f32 := broadcastInDim S384x128 ![] bcast_S_S384x128 main_cst_22
  let main_v61 : IVec S384x128 1 := cmpf .olt main_v59 main_v60
  let main_c_23 : IVec S_ 1 := constantI S_ 1 1#1
  let main_v62 : IVec S_ 1 := (fun x v => Host.reduce IntOp.andi x v reducesTo_S384x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128 .f32) (main_arg8 : FVec F S128 .f32) (main_arg9 : FVec F S128x128 .f32) (main_arg10 : FVec F S128 .f32) (main_arg11 : FVec F S128 .f32) (main_arg12 : FVec F S384x128 .f32) (main_arg13 : FVec F S128 .f32) (main_arg14 : FVec F S128 .f32) (main_arg15 : FVec F S128x128 .f32) (main_arg16 : FVec F S128x128 .f32) (main_arg17 : FVec F S128 .f32) (main_arg18 : FVec F S128 .f32) (main_arg19 : FVec F S128x128 .f32) (main_arg20 : FVec F S128 .f32) (main_arg21 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S2x128 .f32) (main_arg5 : FVec F S128 .f32) (main_arg6 : FVec F S128x128 .f32) (main_arg7 : FVec F S128 .f32) (main_arg8 : FVec F S128 .f32) (main_arg9 : FVec F S128x128 .f32) (main_arg10 : FVec F S128 .f32) (main_arg11 : FVec F S128 .f32) (main_arg12 : FVec F S384x128 .f32) (main_arg13 : FVec F S128 .f32) (main_arg14 : FVec F S128 .f32) (main_arg15 : FVec F S128x128 .f32) (main_arg16 : FVec F S128x128 .f32) (main_arg17 : FVec F S128 .f32) (main_arg18 : FVec F S128 .f32) (main_arg19 : FVec F S128x128 .f32) (main_arg20 : FVec F S128 .f32) (main_arg21 : FVec F S128 .f32) (main_v13 : IVec S_ 1) (main_v16 : IVec S150000x2 1) : IVec S_ 1 :=
  let main_c_5 : IVec S_ 1 := constantI S_ 1 1#1
  let main_v17 : IVec S_ 1 := (fun x v => Host.reduce IntOp.andi x v reducesTo_S150000x2_S_d0_1 h_S_) main_v16 main_c_5
  let main_v18 : IVec S_ 1 := andi main_v13 main_v17
  let main_v19 : FVec F S2x128 .f32 := Host.absf main_arg4
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : FVec F S150000x128 .f32) (main_arg2 : FVec F S100000x2 .f32) (main_arg3 : FVec F S150000x2 .f32) (main_arg4 : FVec F S2x128 .f32) (main_arg5 : FVec F S128 .f32) (main_arg6 : FVec F S128x128 .f32) (main_arg7 : FVec F S128 .f32) (main_arg8 : FVec F S128 .f32) (main_arg9 : FVec F S128x128 .f32) (main_arg10 : FVec F S128 .f32) (main_arg11 : FVec F S128 .f32) (main_arg12 : FVec F S384x128 .f32) (main_arg13 : FVec F S128 .f32) (main_arg14 : FVec F S128 .f32) (main_arg15 : FVec F S128x128 .f32) (main_arg16 : FVec F S128x128 .f32) (main_arg17 : FVec F S128 .f32) (main_arg18 : FVec F S128 .f32) (main_arg19 : FVec F S128x128 .f32) (main_arg20 : FVec F S128 .f32) (main_arg21 : FVec F S128 .f32) (main_arg22 : IVec S500000 32) (main_arg23 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S150000x128 .f32 := Host.absf main_arg1
  let main_cst_0 : FVec F S_ .f32 := constant S_ .f32 0x7F800000#32
  let main_v5 : FVec F S150000x128 .f32 := broadcastInDim S150000x128 ![] bcast_S_S150000x128 main_cst_0
  let main_v6 : IVec S150000x128 1 := cmpf .olt main_v4 main_v5
  let main_c_1 : IVec S_ 1 := constantI S_ 1 1#1
  let main_v7 : IVec S_ 1 := (fun x v => Host.reduce IntOp.andi x v reducesTo_S150000x128_S_d0_1 h_S_) main_v6 main_c_1
  let main_v8 : IVec S_ 1 := andi main_v3 main_v7
  let main_v9 : FVec F S100000x2 .f32 := Host.absf main_arg2
  let main_cst_2 : FVec F S_ .f32 := constant S_ .f32 0x7F800000#32
  let main_v10 : FVec F S100000x2 .f32 := broadcastInDim S100000x2 ![] bcast_S_S100000x2 main_cst_2
  let main_v11 : IVec S100000x2 1 := cmpf .olt main_v9 main_v10
  let main_c_3 : IVec S_ 1 := constantI S_ 1 1#1
  let main_v12 : IVec S_ 1 := (fun x v => Host.reduce IntOp.andi x v reducesTo_S100000x2_S_d0_1 h_S_) main_v11 main_c_3
  let main_v13 : IVec S_ 1 := andi main_v8 main_v12
  let main_v14 : FVec F S150000x2 .f32 := Host.absf main_arg3
  let main_cst_4 : FVec F S_ .f32 := constant S_ .f32 0x7F800000#32
  let main_v15 : FVec F S150000x2 .f32 := broadcastInDim S150000x2 ![] bcast_S_S150000x2 main_cst_4
  let main_v16 : IVec S150000x2 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S150000x128 : Shape := ⟨2, ![150000, 128]⟩
abbrev S100000x2 : Shape := ⟨2, ![100000, 2]⟩
abbrev S150000x2 : Shape := ⟨2, ![150000, 2]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x2 : Shape := ⟨2, ![500000, 2]⟩
abbrev S1x128 : Shape := ⟨2, ![1, 128]⟩
abbrev S10000x2 : Shape := ⟨2, ![10000, 2]⟩
abbrev S10000x128 : Shape := ⟨2, ![10000, 128]⟩
abbrev S10000x1 : Shape := ⟨2, ![10000, 1]⟩
abbrev S10000 : Shape := ⟨1, ![10000]⟩
abbrev S10000x384 : Shape := ⟨2, ![10000, 384]⟩

abbrev nBuf : Space → Nat
  | .hbm => 94
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S150000x128, .f32⟩
  | .hbm, ⟨2, _⟩ => ⟨S100000x2, .f32⟩
  | .hbm, ⟨3, _⟩ => ⟨S150000x2, .f32⟩
  | .hbm, ⟨4, _⟩ => ⟨S2x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S384x128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128, .f32⟩
  | .hbm, ⟨22, _⟩ => ⟨S500000, .i32⟩
  | .hbm, ⟨23, _⟩ => ⟨S500000, .i32⟩
  | .hbm, ⟨24, _⟩ => ⟨S100000x128, .bf16⟩
  | .hbm, ⟨25, _⟩ => ⟨S150000x128, .bf16⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .bf16⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x128, .bf16⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x2, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x2, .f32⟩
  | .hbm, ⟨62, _⟩ => ⟨S500000x2, .f32⟩
  | .hbm, ⟨63, _⟩ => ⟨S1x128, .f32⟩
  | .hbm, ⟨64, _⟩ => ⟨S128x128, .bf16⟩
  | .hbm, ⟨65, _⟩ => ⟨S1x128, .f32⟩
  | .hbm, ⟨66, _⟩ => ⟨S1x128, .f32⟩
  | .hbm, ⟨67, _⟩ => ⟨S128x128, .bf16⟩
  | .hbm, ⟨68, _⟩ => ⟨S1x128, .f32⟩
  | .hbm, ⟨69, _⟩ => ⟨S1x128, .f32⟩
  | .hbm, ⟨70, _⟩ => ⟨S384x128, .bf16⟩
  | .hbm, ⟨71, _⟩ => ⟨S1x128, .f32⟩
  | .hbm, ⟨72, _⟩ => ⟨S1x128, .f32⟩
  | .hbm, ⟨73, _⟩ => ⟨S128x128, .bf16⟩
  | .hbm, ⟨74, _⟩ => ⟨S500000x128, .bf16⟩
  | .hbm, ⟨75, _⟩ => ⟨S_, .f32⟩
  | .hbm, ⟨76, _⟩ => ⟨S100000x128, .f32⟩
  | .hbm, ⟨77, _⟩ => ⟨S500000x128, .f32⟩
  | .hbm, ⟨78, _⟩ => ⟨S_, .i32⟩
  | .hbm, ⟨79, _⟩ => ⟨S500000, .i32⟩
  | .hbm, ⟨80, _⟩ => ⟨S500000, .i1⟩
  | .hbm, ⟨81, _⟩ => ⟨S_, .i32⟩
  | .hbm, ⟨82, _⟩ => ⟨S500000, .i32⟩
  | .hbm, ⟨83, _⟩ => ⟨S500000, .i32⟩
  | .hbm, ⟨84, _⟩ => ⟨S500000, .i32⟩
  | .hbm, ⟨85, _⟩ => ⟨S500000x1, .i32⟩
  | .hbm, ⟨86, _⟩ => ⟨S100000x128, .f32⟩
  | .hbm, ⟨87, _⟩ => ⟨S128x128, .bf16⟩
  | .hbm, ⟨88, _⟩ => ⟨S1x128, .f32⟩
  | .hbm, ⟨89, _⟩ => ⟨S1x128, .f32⟩
  | .hbm, ⟨90, _⟩ => ⟨S128x128, .bf16⟩
  | .hbm, ⟨91, _⟩ => ⟨S1x128, .f32⟩
  | .hbm, ⟨92, _⟩ => ⟨S1x128, .f32⟩
  | .hbm, ⟨93, _⟩ => ⟨S100000x128, .f32⟩
  | .local _ .vmem, ⟨0, _⟩ => ⟨S10000x2, .f32⟩
  | .local _ .vmem, ⟨1, _⟩ => ⟨S10000x2, .f32⟩
  | .local _ .vmem, ⟨2, _⟩ => ⟨S10000x128, .bf16⟩
  | .local _ .vmem, ⟨3, _⟩ => ⟨S10000x128, .bf16⟩
  | .local _ .vmem, ⟨4, _⟩ => ⟨S10000x128, .bf16⟩
  | .local _ .vmem, ⟨5, _⟩ => ⟨S10000x128, .bf16⟩
  | .local _ .vmem, ⟨6, _⟩ => ⟨S2x128, .f32⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S384x128, .bf16⟩
  | .local _ .vmem, ⟨15, _⟩ => ⟨S1x128, .f32⟩
  | .local _ .vmem, ⟨16, _⟩ => ⟨S1x128, .f32⟩
  | .local _ .vmem, ⟨17, _⟩ => ⟨S128x128, .bf16⟩
  | .local _ .vmem, ⟨18, _⟩ => ⟨S10000x128, .bf16⟩
  | .local _ .vmem, ⟨19, _⟩ => ⟨S10000x128, .bf16⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S128x128, .bf16⟩
  | .local _ .vmem, ⟨25, _⟩ => ⟨S1x128, .f32⟩
  | .local _ .vmem, ⟨26, _⟩ => ⟨S1x128, .f32⟩
  | .local _ .vmem, ⟨27, _⟩ => ⟨S128x128, .bf16⟩
  | .local _ .vmem, ⟨28, _⟩ => ⟨S1x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_1 : Ref sig .tc := ⟨.hbm, 35, rfl⟩
abbrev main_v9 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_5 : Ref sig .tc := ⟨.hbm, 53, rfl⟩
abbrev main_v23 : Ref sig .tc := ⟨.hbm, 54, rfl⟩
abbrev main_v24 : Ref sig .tc := ⟨.hbm, 55, rfl⟩
abbrev main_c_6 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst : Ref sig .tc := ⟨.hbm, 75, rfl⟩
abbrev main_v43 : Ref sig .tc := ⟨.hbm, 76, rfl⟩
abbrev main_v44 : Ref sig .tc := ⟨.hbm, 77, rfl⟩
abbrev main_c_7 : Ref sig .tc := ⟨.hbm, 78, rfl⟩
abbrev main_v45 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S10000x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  shapeCasts_S128_S1x128 : S128.ShapeCasts S1x128
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  inb_S2x128_S1x128_0_0 : ∀ a, (![0, 0] : Fin 2 → Nat) a + S1x128.size a ≤ S2x128.size a
  h_S1x128 : 0 < S1x128.numel
  inb_S2x128_S1x128_1_0 : ∀ a, (![1, 0] : Fin 2 → Nat) a + S1x128.size a ≤ S2x128.size a
  slices_S10000x2_o0_0_S10000x1 : S10000x2.Slices ![0, 0] S10000x1
  broadcasts_S10000x1_S10000x128 : S10000x1.Broadcasts S10000x128
  broadcasts_S1x128_S10000x128 : S1x128.Broadcasts S10000x128
  slices_S10000x2_o0_1_S10000x1 : S10000x2.Slices ![0, 1] S10000x1
  inb_S1x128_S1x128_0_0 : ∀ a, (![0, 0] : Fin 2 → Nat) a + S1x128.size a ≤ S1x128.size a
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S10000x128_S10000 : S10000x128.Reduces [1] S10000
  shapeCasts_S10000_S10000x1 : S10000.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  concatenates_S10000x128_S10000x128_S10000x128_S10000x384_d1 : Shape.Concatenates [S10000x128, S10000x128, S10000x128] S10000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  packedbf16_S10000x128_S10000x128_0_0 : (Rect.unit (s := S10000x128) ![0, 0] S10000x128.size inb_S10000x128_S10000x128_0_0).PackedRows (EltTy.packing .bf16)
  bcast_S_S100000x128 : S_.BroadcastsInDim S100000x128 (![] : Fin 0 → Fin S100000x128.rank)
  gather_S100000x128_S500000x1_S500000x128_1_0_n_n_0_1_1128_wf : GatherDims.WF S100000x128 S500000x1 S500000x128 [1] [0] [] [0] [] 1 ![1, 128]
  gather_S150000x128_S500000x1_S500000x128_1_0_n_n_0_1_1128_wf : GatherDims.WF S150000x128 S500000x1 S500000x128 [1] [0] [] [0] [] 1 ![1, 128]
  gather_S100000x2_S500000x1_S500000x2_1_0_n_n_0_1_12_wf : GatherDims.WF S100000x2 S500000x1 S500000x2 [1] [0] [] [0] [] 1 ![1, 2]
  gather_S150000x2_S500000x1_S500000x2_1_0_n_n_0_1_12_wf : GatherDims.WF S150000x2 S500000x1 S500000x2 [1] [0] [] [0] [] 1 ![1, 2]
  dot_S10000x128_S128x128_S10000x128_1_0_0_1_n_n_wf : DotDims.WF S10000x128 S128x128 S10000x128 [1] [0] [0] [1] [] []
  dot_S10000x384_S384x128_S10000x128_1_0_0_1_n_n_wf : DotDims.WF S10000x384 S384x128 S10000x128 [1] [0] [0] [1] [] []
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S500000x2.size a
  hwx0_0 : ∀ i : grid0.Coords, EltTy.bits .f32 = 32 ∨ (Rect.block (s := S500000x2) S10000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .bf16 = 32 ∨ (Rect.block (s := S500000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S500000x128.size a
  hwx0_2 : ∀ i : grid0.Coords, EltTy.bits .bf16 = 32 ∨ (Rect.block (s := S500000x128) S10000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S384x128.size a ≤ S384x128.size a
  hwx0_11 : ∀ i : grid0.Coords, EltTy.bits .bf16 = 32 ∨ (Rect.block (s := S384x128) S384x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S10000x128.size a ≤ S500000x128.size a
  hwx0_15 : ∀ i : grid0.Coords, EltTy.bits .bf16 = 32 ∨ (Rect.block (s := S500000x128) S10000x128.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x128.size a ≤ S100000x128.size a
  hwx1_8 : ∀ i : grid1.Coords, EltTy.bits .f32 = 32 ∨ (Rect.block (s := S100000x128) S10000x128.size (cc1_transform_8 i) (hinb1_8 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S150000x128_S500000x1_S500000x128_1_0_n_n_0_1_1128 : GatherDims S150000x128 S500000x1 S500000x128 where
  offsetDims := [1]
  collapsedSliceDims := [0]
  operandBatchingDims := []
  startIndicesBatchingDims := []
  startIndexMap := [0]
  indexVectorDim := 1
  sliceSizes := ![1, 128]
  wf := gather_S150000x128_S500000x1_S500000x128_1_0_n_n_0_1_1128_wf
def gather_S100000x2_S500000x1_S500000x2_1_0_n_n_0_1_12 : GatherDims S100000x2 S500000x1 S500000x2 where
  offsetDims := [1]
  collapsedSliceDims := [0]
  operandBatchingDims := []
  startIndicesBatchingDims := []
  startIndexMap := [0]
  indexVectorDim := 1
  sliceSizes := ![1, 2]
  wf := gather_S100000x2_S500000x1_S500000x2_1_0_n_n_0_1_12_wf
def gather_S150000x2_S500000x1_S500000x2_1_0_n_n_0_1_12 : GatherDims S150000x2 S500000x1 S500000x2 where
  offsetDims := [1]
  collapsedSliceDims := [0]
  operandBatchingDims := []
  startIndicesBatchingDims := []
  startIndexMap := [0]
  indexVectorDim := 1
  sliceSizes := ![1, 2]
  wf := gather_S150000x2_S500000x1_S500000x2_1_0_n_n_0_1_12_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x384_S384x128_S10000x128_1_0_0_1_n_n : DotDims S10000x384 S384x128 S10000x128 where
  lhsContracting := [1]
  rhsContracting := [0]
  lhsNonContracting := [0]
  rhsNonContracting := [1]
  lhsBatch := []
  rhsBatch := []
  wf := dot_S10000x384_S384x128_S10000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v30) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v38) S384x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v39) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v40) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v41) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v42) S10000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v57) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S10000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S150000x128 : Shape := ⟨2, ![150000, 128]⟩
abbrev S100000x2 : Shape := ⟨2, ![100000, 2]⟩
abbrev S150000x2 : Shape := ⟨2, ![150000, 2]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S500000 : Shape := ⟨1, ![500000]⟩
abbrev S_ : Shape := ⟨0, ![]⟩
abbrev S500000x1 : Shape := ⟨2, ![500000, 1]⟩
abbrev S500000x2 : Shape := ⟨2, ![500000, 2]⟩
abbrev S500000x128 : Shape := ⟨2, ![500000, 128]⟩
abbrev S1x128 : Shape := ⟨2, ![1, 128]⟩
abbrev S500000x384 : Shape := ⟨2, ![500000, 384]⟩
abbrev S100000 : Shape := ⟨1, ![100000]⟩
abbrev S100000x1 : Shape := ⟨2, ![100000, 1]⟩

abbrev nBuf : Space → Nat
  | .hbm => 245
  | .vmem => 0
  | .smem => 0
  | _ => 0

abbrev hbmTy0_0 (i : Nat) : BufTy := match i % 128 with
  | 0 => ⟨S100000x128, .f32⟩
  | 1 => ⟨S150000x128, .f32⟩
  | 2 => ⟨S100000x2, .f32⟩
  | 3 => ⟨S150000x2, .f32⟩
  | 4 => ⟨S2x128, .f32⟩
  | 5 => ⟨S128, .f32⟩
  | 6 => ⟨S128x128, .f32⟩
  | 7 => ⟨S128, .f32⟩
  | 8 => ⟨S128, .f32⟩
  | 9 => ⟨S128x128, .f32⟩
  | 10 => ⟨S128, .f32⟩
  | 11 => ⟨S128, .f32⟩
  | 12 => ⟨S384x128, .f32⟩
  | 13 => ⟨S128, .f32⟩
  | 14 => ⟨S128, .f32⟩
  | 15 => ⟨S128x128, .f32⟩
  | 16 => ⟨S128x128, .f32⟩
  | 17 => ⟨S128, .f32⟩
  | 18 => ⟨S128, .f32⟩
  | 19 => ⟨S128x128, .f32⟩
  | 20 => ⟨S128, .f32⟩
  | 21 => ⟨S128, .f32⟩
  | 22 => ⟨S500000, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x2, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x2, .f32⟩
  | 42 => ⟨S500000x2, .f32⟩
  | 43 => ⟨S500000x128, .f32⟩
  | 44 => ⟨S1x128, .f32⟩
  | 45 => ⟨S500000x128, .f32⟩
  | 46 => ⟨S500000x128, .f32⟩
  | 47 => ⟨S_, .f32⟩
  | 48 => ⟨S500000x128, .f32⟩
  | 49 => ⟨S500000x128, .f32⟩
  | 50 => ⟨S500000x128, .f32⟩
  | 51 => ⟨S_, .f32⟩
  | 52 => ⟨S500000, .f32⟩
  | 53 => ⟨S500000x1, .f32⟩
  | 54 => ⟨S_, .f32⟩
  | 55 => ⟨S500000x1, .f32⟩
  | 56 => ⟨S500000x1, .f32⟩
  | 57 => ⟨S500000x128, .f32⟩
  | 58 => ⟨S500000x128, .f32⟩
  | 59 => ⟨S500000x128, .f32⟩
  | 60 => ⟨S_, .f32⟩
  | 61 => ⟨S500000, .f32⟩
  | 62 => ⟨S500000x1, .f32⟩
  | 63 => ⟨S_, .f32⟩
  | 64 => ⟨S500000x1, .f32⟩
  | 65 => ⟨S500000x1, .f32⟩
  | 66 => ⟨S500000x128, .f32⟩
  | 67 => ⟨S500000x128, .f32⟩
  | 68 => ⟨S_, .f32⟩
  | 69 => ⟨S500000x1, .f32⟩
  | 70 => ⟨S500000x1, .f32⟩
  | 71 => ⟨S500000x1, .f32⟩
  | 72 => ⟨S500000x128, .f32⟩
  | 73 => ⟨S500000x128, .f32⟩
  | 74 => ⟨S1x128, .f32⟩
  | 75 => ⟨S500000x128, .f32⟩
  | 76 => ⟨S500000x128, .f32⟩
  | 77 => ⟨S1x128, .f32⟩
  | 78 => ⟨S500000x128, .f32⟩
  | 79 => ⟨S500000x128, .f32⟩
  | 80 => ⟨S_, .f32⟩
  | 81 => ⟨S500000x128, .f32⟩
  | 82 => ⟨S500000x128, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x128, .f32⟩
  | 92 => ⟨S500000x128, .f32⟩
  | 93 => ⟨S_, .f32⟩
  | 94 => ⟨S500000, .f32⟩
  | 95 => ⟨S500000x1, .f32⟩
  | 96 => ⟨S_, .f32⟩
  | 97 => ⟨S500000x1, .f32⟩
  | 98 => ⟨S500000x1, .f32⟩
  | 99 => ⟨S500000x128, .f32⟩
  | 100 => ⟨S500000x128, .f32⟩
  | 101 => ⟨S500000x128, .f32⟩
  | 102 => ⟨S_, .f32⟩
  | 103 => ⟨S500000, .f32⟩
  | 104 => ⟨S500000x1, .f32⟩
  | 105 => ⟨S_, .f32⟩
  | 106 => ⟨S500000x1, .f32⟩
  | 107 => ⟨S500000x1, .f32⟩
  | 108 => ⟨S500000x128, .f32⟩
  | 109 => ⟨S500000x128, .f32⟩
  | 110 => ⟨S_, .f32⟩
  | 111 => ⟨S500000x1, .f32⟩
  | 112 => ⟨S500000x1, .f32⟩
  | 113 => ⟨S500000x1, .f32⟩
  | 114 => ⟨S500000x128, .f32⟩
  | 115 => ⟨S500000x128, .f32⟩
  | 116 => ⟨S1x128, .f32⟩
  | 117 => ⟨S500000x128, .f32⟩
  | 118 => ⟨S500000x128, .f32⟩
  | 119 => ⟨S1x128, .f32⟩
  | 120 => ⟨S500000x128, .f32⟩
  | 121 => ⟨S500000x128, .f32⟩
  | 122 => ⟨S_, .f32⟩
  | 123 => ⟨S500000x128, .f32⟩
  | 124 => ⟨S500000x128, .f32⟩
  | 125 => ⟨S_, .i32⟩
  | 126 => ⟨S500000, .i32⟩
  | 127 => ⟨S500000, .i1⟩
  | _ => ⟨S100000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x128, .f32⟩
  | 6 => ⟨S500000x384, .f32⟩
  | 7 => ⟨S500000x128, .f32⟩
  | 8 => ⟨S_, .f32⟩
  | 9 => ⟨S500000, .f32⟩
  | 10 => ⟨S500000x1, .f32⟩
  | 11 => ⟨S_, .f32⟩
  | 12 => ⟨S500000x1, .f32⟩
  | 13 => ⟨S500000x1, .f32⟩
  | 14 => ⟨S500000x128, .f32⟩
  | 15 => ⟨S500000x128, .f32⟩
  | 16 => ⟨S500000x128, .f32⟩
  | 17 => ⟨S_, .f32⟩
  | 18 => ⟨S500000, .f32⟩
  | 19 => ⟨S500000x1, .f32⟩
  | 20 => ⟨S_, .f32⟩
  | 21 => ⟨S500000x1, .f32⟩
  | 22 => ⟨S500000x1, .f32⟩
  | 23 => ⟨S500000x128, .f32⟩
  | 24 => ⟨S500000x128, .f32⟩
  | 25 => ⟨S_, .f32⟩
  | 26 => ⟨S500000x1, .f32⟩
  | 27 => ⟨S500000x1, .f32⟩
  | 28 => ⟨S500000x1, .f32⟩
  | 29 => ⟨S500000x128, .f32⟩
  | 30 => ⟨S500000x128, .f32⟩
  | 31 => ⟨S1x128, .f32⟩
  | 32 => ⟨S500000x128, .f32⟩
  | 33 => ⟨S500000x128, .f32⟩
  | 34 => ⟨S1x128, .f32⟩
  | 35 => ⟨S500000x128, .f32⟩
  | 36 => ⟨S500000x128, .f32⟩
  | 37 => ⟨S_, .f32⟩
  | 38 => ⟨S500000x128, .f32⟩
  | 39 => ⟨S500000x128, .f32⟩
  | 40 => ⟨S500000x128, .f32⟩
  | 41 => ⟨S100000x128, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S100000x128, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S100000x128, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S_, .f32⟩
  | 69 => ⟨S100000x1, .f32⟩
  | 70 => ⟨S100000x1, .f32⟩
  | 71 => ⟨S100000x1, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S100000x128, .f32⟩
  | 91 => ⟨S100000x128, .f32⟩
  | 92 => ⟨S100000x128, .f32⟩
  | 93 => ⟨S_, .f32⟩
  | 94 => ⟨S100000, .f32⟩
  | 95 => ⟨S100000x1, .f32⟩
  | 96 => ⟨S_, .f32⟩
  | 97 => ⟨S100000x1, .f32⟩
  | 98 => ⟨S100000x1, .f32⟩
  | 99 => ⟨S100000x128, .f32⟩
  | 100 => ⟨S100000x128, .f32⟩
  | 101 => ⟨S_, .f32⟩
  | 102 => ⟨S100000x1, .f32⟩
  | 103 => ⟨S100000x1, .f32⟩
  | 104 => ⟨S100000x1, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S100000x128, .f32⟩
  | 114 => ⟨S_, .f32⟩
  | 115 => ⟨S100000x128, .f32⟩
  | 116 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call0_cst : Ref sig .tc := ⟨.hbm, 47, rfl⟩
abbrev main_call0_v0 : Ref sig .tc := ⟨.hbm, 48, rfl⟩
abbrev main_v19 : Ref sig .tc := ⟨.hbm, 49, rfl⟩
abbrev main_v20 : Ref sig .tc := ⟨.hbm, 50, rfl⟩
abbrev main_cst : Ref sig .tc := ⟨.hbm, 51, rfl⟩
abbrev main_v21 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_call1_cst : Ref sig .tc := ⟨.hbm, 80, rfl⟩
abbrev main_call1_v0 : Ref sig .tc := ⟨.hbm, 81, rfl⟩
abbrev main_v45 : Ref sig .tc := ⟨.hbm, 82, rfl⟩
abbrev main_c_7 : Ref sig .tc := ⟨.hbm, 83, rfl⟩
abbrev main_v46 : Ref sig .tc := ⟨.hbm, 84, rfl⟩
abbrev main_v47 : Ref sig .tc := ⟨.hbm, 85, rfl⟩
abbrev main_c_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_9 : Ref sig .tc := ⟨.hbm, 93, rfl⟩
abbrev main_v54 : Ref sig .tc := ⟨.hbm, 94, rfl⟩
abbrev main_v55 : Ref sig .tc := ⟨.hbm, 95, rfl⟩
abbrev main_cst_10 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_11 : Ref sig .tc := ⟨.hbm, 102, rfl⟩
abbrev main_v61 : Ref sig .tc := ⟨.hbm, 103, rfl⟩
abbrev main_v62 : Ref sig .tc := ⟨.hbm, 104, rfl⟩
abbrev main_cst_12 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_13 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call2_cst : Ref sig .tc := ⟨.hbm, 122, rfl⟩
abbrev main_call2_v0 : Ref sig .tc := ⟨.hbm, 123, rfl⟩
abbrev main_v78 : Ref sig .tc := ⟨.hbm, 124, rfl⟩
abbrev main_c_14 : Ref sig .tc := ⟨.hbm, 125, rfl⟩
abbrev main_v79 : Ref sig .tc := ⟨.hbm, 126, rfl⟩
abbrev main_v80 : Ref sig .tc := ⟨.hbm, 127, rfl⟩
abbrev main_c_15 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_16 : Ref sig .tc := ⟨.hbm, 136, rfl⟩
abbrev main_v88 : Ref sig .tc := ⟨.hbm, 137, rfl⟩
abbrev main_v89 : Ref sig .tc := ⟨.hbm, 138, rfl⟩
abbrev main_cst_17 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_18 : Ref sig .tc := ⟨.hbm, 145, rfl⟩
abbrev main_v95 : Ref sig .tc := ⟨.hbm, 146, rfl⟩
abbrev main_v96 : Ref sig .tc := ⟨.hbm, 147, rfl⟩
abbrev main_cst_19 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_20 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_call3_cst : Ref sig .tc := ⟨.hbm, 165, rfl⟩
abbrev main_call3_v0 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_21 : Ref sig .tc := ⟨.hbm, 170, rfl⟩
abbrev main_v115 : Ref sig .tc := ⟨.hbm, 171, rfl⟩
abbrev main_v116 : Ref sig .tc := ⟨.hbm, 172, rfl⟩
abbrev main_c_22 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_23 : Ref sig .tc := ⟨.hbm, 179, rfl⟩
abbrev main_v122 : Ref sig .tc := ⟨.hbm, 180, rfl⟩
abbrev main_v123 : Ref sig .tc := ⟨.hbm, 181, rfl⟩
abbrev main_cst_24 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_25 : Ref sig .tc := ⟨.hbm, 188, rfl⟩
abbrev main_v129 : Ref sig .tc := ⟨.hbm, 189, rfl⟩
abbrev main_v130 : Ref sig .tc := ⟨.hbm, 190, rfl⟩
abbrev main_cst_26 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_27 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_call4_cst : Ref sig .tc := ⟨.hbm, 208, rfl⟩
abbrev main_call4_v0 : Ref sig .tc := ⟨.hbm, 209, rfl⟩
abbrev main_v146 : Ref sig .tc := ⟨.hbm, 210, rfl⟩
abbrev main_v147 : Ref sig .tc := ⟨.hbm, 211, rfl⟩
abbrev main_cst_28 : Ref sig .tc := ⟨.hbm, 212, rfl⟩
abbrev main_v148 : Ref sig .tc := ⟨.hbm, 213, rfl⟩
abbrev main_v149 : Ref sig .tc := ⟨.hbm, 214, rfl⟩
abbrev main_cst_29 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_30 : Ref sig .tc := ⟨.hbm, 221, rfl⟩
abbrev main_v155 : Ref sig .tc := ⟨.hbm, 222, rfl⟩
abbrev main_v156 : Ref sig .tc := ⟨.hbm, 223, rfl⟩
abbrev main_cst_31 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_32 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_call5_cst : Ref sig .tc := ⟨.hbm, 242, rfl⟩
abbrev main_call5_v0 : Ref sig .tc := ⟨.hbm, 243, rfl⟩
abbrev main_v173 : Ref sig .tc := ⟨.hbm, 244, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  reducesTo_S500000x128_S500000_d1 : S500000x128.ReducesTo [1] S500000
  h_S_ : 0 < S_.numel
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  concatenates_S500000x128_S500000x128_S500000x128_S500000x384_d1 : Shape.Concatenates [S500000x128, S500000x128, S500000x128] S500000x384 1
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x2_S500000x1_S500000x2_1_0_n_n_0_1_12_wf : GatherDims.WF S100000x2 S500000x1 S500000x2 [1] [0] [] [0] [] 1 ![1, 2]
  gather_S150000x2_S500000x1_S500000x2_1_0_n_n_0_1_12_wf : GatherDims.WF S150000x2 S500000x1 S500000x2 [1] [0] [] [0] [] 1 ![1, 2]
  dot_S500000x2_S2x128_S500000x128_1_0_0_1_n_n_wf : DotDims.WF S500000x2 S2x128 S500000x128 [1] [0] [0] [1] [] []
  dot_S500000x128_S128x128_S500000x128_1_0_0_1_n_n_wf : DotDims.WF S500000x128 S128x128 S500000x128 [1] [0] [0] [1] [] []
  gather_S100000x128_S500000x1_S500000x128_1_0_n_n_0_1_1128_wf : GatherDims.WF S100000x128 S500000x1 S500000x128 [1] [0] [] [0] [] 1 ![1, 128]
  gather_S150000x128_S500000x1_S500000x128_1_0_n_n_0_1_1128_wf : GatherDims.WF S150000x128 S500000x1 S500000x128 [1] [0] [] [0] [] 1 ![1, 128]
  dot_S500000x384_S384x128_S500000x128_1_0_0_1_n_n_wf : DotDims.WF S500000x384 S384x128 S500000x128 [1] [0] [0] [1] [] []
  dot_S100000x128_S128x128_S100000x128_1_0_0_1_n_n_wf : DotDims.WF S100000x128 S128x128 S100000x128 [1] [0] [0] [1] [] []
  scatter_S100000x128_S500000x1_S500000x128_1_0_0_1_wf : ScatterDims.WF S100000x128 S500000x1 S500000x128 [1] [0] [0] 1

variable [Facts₀]

def gather_S100000x2_S500000x1_S500000x2_1_0_n_n_0_1_12 : GatherDims S100000x2 S500000x1 S500000x2 where
  offsetDims := [1]
  collapsedSliceDims := [0]
  operandBatchingDims := []
  startIndicesBatchingDims := []
  startIndexMap := [0]
  indexVectorDim := 1
  sliceSizes := ![1, 2]
  wf := gather_S100000x2_S500000x1_S500000x2_1_0_n_n_0_1_12_wf
def gather_S150000x2_S500000x1_S500000x2_1_0_n_n_0_1_12 : GatherDims S150000x2 S500000x1 S500000x2 where
  offsetDims := [1]
  collapsedSliceDims := [0]
  operandBatchingDims := []
  startIndicesBatchingDims := []
  startIndexMap := [0]
  indexVectorDim := 1
  sliceSizes := ![1, 2]
  wf := gather_S150000x2_S500000x1_S500000x2_1_0_n_n_0_1_12_wf
def dot_S500000x2_S2x128_S500000x128_1_0_0_1_n_n : DotDims S500000x2 S2x128 S500000x128 where
  lhsContracting := [1]
  rhsContracting := [0]
  lhsNonContracting := [0]
  rhsNonContracting := [1]
  lhsBatch := []
  rhsBatch := []
  wf := dot_S500000x2_S2x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S150000x128_S500000x1_S500000x128_1_0_n_n_0_1_1128 : GatherDims S150000x128 S500000x1 S500000x128 where
  offsetDims := [1]
  collapsedSliceDims := [0]
  operandBatchingDims := []
  startIndicesBatchingDims := []
  startIndexMap := [0]
  indexVectorDim := 1
  sliceSizes := ![1, 128]
  wf := gather_S150000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.KernelRun.lean ====
/- The idealized kernel's run with EVERY buffer named.

   @main is four segments: the host operations before the first kernel call (gathers of rows by the two index
   lists, the displacement, reshapes), the per-edge kernel over 50 blocks of 10000 edges, the host operations
   between the calls (the scatter-add of the messages into a zero array), and the per-agent kernel over 10 blocks
   of 10000 agents. The generated frame certificate proves that this run terminates and leaves the arguments
   unchanged; on the way it knows the contents of every buffer at every segment boundary. This module states the
   same run with that knowledge kept: at the end every buffer that outlives the kernels holds the last boundary's
   contents, in particular the result buffer holds what the second kernel's write-backs leave. -/
import proofs.«101233_j87411174408394_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final memory every buffer that is
    not scoped to a kernel call holds the contents the last segment boundary assigns to it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The result buffer at the end: what the second kernel's write-backs leave in it. -/
theorem result_at (r : PUnit × MemSt nD τ sig (Elt F)) (h : ∀ c : Dev nD, ∀ b ∈ Pipeline.ucRefs τ sig, r.2.mem (((c : Thread nD τ)).1, b) = W4 m ρ c b)
    (c : Dev nD) : r.2.mem ((c.tc : Thread nD τ).loc main_v58) = W4 m ρ c (Proc.devRef .tc main_v58) :=
  h c _ (mem_uc main_v58 (by decide))

end Cert.KernelIdeal.RunAll

end
-- ==== Proof.RowMath.lean ====
/- The mathematics both programs compute, row by row, over the extended reals.

   One edge of the bipartite agent-context graph carries a message built from three rows: the displacement of
   the two centres (2 numbers), the agent's features (128 numbers) and the context's features (128 numbers).
   Every layer is a row operation: a matrix product, a normalisation of the row to mean 0 and variance 1 (with
   a small constant under the root) followed by a per-channel scale and shift, and the positive part. An
   agent's new features are such a chain applied to its own projected row plus the sum of the messages of the
   edges that end at it, with the agent's old features added back before the last positive part.

   Nothing here mentions either program: the two value proofs and the bridge between them import this file. -/
import Idealize.ShloMosaic.PureOps.Ideal
import Idealize.ShloMosaic.Lib.ValueIdx

noncomputable section

namespace Cert.RowMath

open Idealize.ShloMosaic

/-- The three float words the programs spell: zero, the row width 128 and the constant under the root. They are
    kept as words: both programs spell the same ones, so they are never evaluated. -/
def zeroWord : EReal := Ideal.ofBits .f32 0x00000000#32
def widthWord : EReal := Ideal.ofBits .f32 0x43000000#32
def epsWord : EReal := Ideal.ofBits .f32 0x3727C5AC#32

/-- The positive part. -/
def pos (x : EReal) : EReal := max x zeroWord

/-- A row's mean: the sum of its 128 entries divided by the width. -/
def rowMean (x : Fin 128 → EReal) : EReal := Ideal.div (∑ k, x k) widthWord

/-- A row's variance: the mean of the squared deviations from the mean. -/
def rowVar (x : Fin 128 → EReal) : EReal := rowMean fun k => (x k - rowMean x) * (x k - rowMean x)

/-- The normalised row, scaled by g and shifted by b, channel by channel. -/
def rowNorm (x g b : Fin 128 → EReal) (j : Fin 128) : EReal :=
  (x j - rowMean x) * Ideal.rsqrt (rowVar x + epsWord) * g j + b j

/-- A row times a matrix with 128 columns. -/
def rowMat {K : ℕ} (x : Fin K → EReal) (W : Fin K → Fin 128 → EReal) (j : Fin 128) : EReal := ∑ k, x k * W k j

/-- Three rows of 128 laid end to end. -/
def joined (d q c : Fin 128 → EReal) (k : Fin 384) : EReal :=
  if h : k.val < 128 then d ⟨k.val, h⟩
  else if h2 : k.val < 256 then q ⟨k.val - 128, by omega⟩
  else c ⟨k.val - 256, by omega⟩

/-- The displacement's hidden layer: an affine map of the two coordinates, then the positive part. -/
def dispHidden (dr : Fin 2 → EReal) (W1 : Fin 2 → Fin 128 → EReal) (b1 : Fin 128 → EReal) (j : Fin 128) : EReal :=
  pos (rowMat dr W1 j + b1 j)

/-- The displacement's features: the hidden layer through a second matrix, normalised, positive part. -/
def dispFeat (dr : Fin 2 → EReal) (W1 : Fin 2 → Fin 128 → EReal) (b1 : Fin 128 → EReal)
    (W2 : Fin 128 → Fin 128 → EReal) (gd bd : Fin 128 → EReal) (j : Fin 128) : EReal :=
  pos (rowNorm (rowMat (dispHidden dr W1 b1) W2) gd bd j)

/-- The query: the agent's row through a matrix, normalised, positive part. -/
def queryFeat (ah : Fin 128 → EReal) (Wq : Fin 128 → Fin 128 → EReal) (gq bq : Fin 128 → EReal) (j : Fin 128) : EReal :=
  pos (rowNorm (rowMat ah Wq) gq bq j)

/-- One edge's message: displacement features, query and context row joined, through the first matrix,
    normalised, positive part, through the second matrix. -/
def edgeMsg (dr : Fin 2 → EReal) (ah cw : Fin 128 → EReal)
    (W1 : Fin 2 → Fin 128 → EReal) (b1 : Fin 128 → EReal)
    (W2 : Fin 128 → Fin 128 → EReal) (gd bd : Fin 128 → EReal)
    (Wq : Fin 128 → Fin 128 → EReal) (gq bq : Fin 128 → EReal)
    (Wc1 : Fin 384 → Fin 128 → EReal) (gc bc : Fin 128 → EReal)
    (Wc2 : Fin 128 → Fin 128 → EReal) : Fin 128 → EReal :=
  rowMat (fun j => pos (rowNorm (rowMat (joined (dispFeat dr W1 b1 W2 gd bd) (queryFeat ah Wq gq bq) cw) Wc1) gc bc j)) Wc2

/-- One agent's new row from its old row ag and the sum ms of the messages that reach it. -/
def agentOut (ag ms : Fin 128 → EReal) (Wa : Fin 128 → Fin 128 → EReal) (gn bn : Fin 128 → EReal)
    (Wl : Fin 128 → Fin 128 → EReal) (gl bl : Fin 128 → EReal) (j : Fin 128) : EReal :=
  pos (rowNorm (rowMat (fun i => pos (rowNorm (fun i' => rowMat ag Wa i' + ms i') gn bn i)) Wl) gl bl j + ag j)

end Cert.RowMath

end
-- ==== Proof.KernelOps.lean ====
/- The row operations of the two kernel bodies, read at one entry.

   Each body works on a block of 10000 rows at once: a matrix product, a row sum spread back over the row, a
   normalisation, a positive part, three blocks laid side by side. Read at row r and column j, every such operation
   is the corresponding operation on row r alone. -/
import proofs.«101233_j87411174408394_2_alg».proof.Proof.RowMath
import proofs.«101233_j87411174408394_2_alg».proof.Proof.Gen.KernelIdeal.Skeleton
import Idealize.ShloMosaic.Lib.ValueLayout
import Idealize.ShloMosaic.PureOps.Ideal.Laws

noncomputable section

namespace Cert.KernelRows

open Idealize.ShloMosaic Idealize.ShloMosaic.ValueIdx Cert.KernelIdeal Cert.KernelIdeal.Gen

/-- The offsets of a whole-block rectangle are all zero. -/
theorem zeroOffsets : (![0, 0] : Fin 2 → ℕ) = fun _ => 0 := by
  funext a
  match a with
  | ⟨0, _⟩ => rfl
  | ⟨1, _⟩ => rfl

/-- A vector of row values read as a one-column matrix. -/
theorem colCast_apply {α : Type} (v : S10000.Idx → α) (h : S10000.ShapeCasts S10000x1) (r : Fin 10000) (u : Fin 1) :
    shapeCast S10000x1 v h (ix2 r u) = v (ix1 r) :=
  shapeCast_apply v h _ _ (by
    have hu : u.val = 0 := by omega
    rw [Shape.rowMajor_val_one, Shape.rowMajor_val_two]
    show r.val = r.val * 1 + u.val
    omega)

/-- A one-column matrix spread over 128 columns reads its row's entry. -/
theorem colBroadcast_apply {α : Type} (v : S10000x1.Idx → α) (h : S10000x1.Broadcasts S10000x128) (r : Fin 10000) (j : Fin 128) :
    broadcastTo S10000x128 v h (ix2 r j) = v (ix2 r (0 : Fin 1)) := by
  refine broadcastTo_apply v h (ix2 r j) (ix2 r (0 : Fin 1)) fun ax => ?_
  match ax with
  | ⟨0, _⟩ =>
    show r.val = if (10000 : ℕ) = 1 then 0 else r.val
    rw [if_neg (by decide)]
  | ⟨1, _⟩ => rfl

/-- The sum of each row's 128 entries. -/
def rowSumVec (x : FVec Ideal S10000x128 .f32) : FVec Ideal S10000 .f32 :=
  multiReduction .add [1] S10000 x 0x00000000#32 reduces_S10000x128_S10000 (.inl rfl) rfl

theorem rowSumVec_apply (x : FVec Ideal S10000x128 .f32) (r : Fin 10000) :
    rowSumVec x (ix1 r) = ∑ k : Fin 128, x (ix2 r k) :=
  (Ideal.multiReduction_add_single x _ reduces_S10000x128_S10000 (.inl rfl) rfl (ix1 r)).trans
    (Finset.sum_congr rfl fun k _ => congrArg x (funext fun a => Fin.ext (by
      match a with
      | ⟨0, _⟩ => rfl
      | ⟨1, _⟩ => rfl)))

theorem rsqrt_apply {s : Shape} {φ : FTy} (a : FVec Ideal s φ) (i : s.Idx) : rsqrt a i = Ideal.rsqrt (a i) := rfl

/-- The two contractions of the programs: 128 and 384 terms. -/
abbrev dot128 : DotDims S10000x128 S128x128 S10000x128 := dot_S10000x128_S128x128_S10000x128_1_0_0_1_n_n
abbrev dot384 : DotDims S10000x384 S384x128 S10000x128 := dot_S10000x384_S384x128_S10000x128_1_0_0_1_n_n

theorem lhs128_0 (i : S10000x128.Idx) (q : dot128.contr.Idx) : (dot128.lhsIdx i q 0).val = (i 0).val := by
  unfold DotDims.lhsIdx
  rw [dif_neg (show ¬(0 : Fin S10000x128.rank) ∈ dot128.lhsBatch by decide),
    dif_pos (show (0 : Fin S10000x128.rank) ∈ dot128.lhsNonContracting by decide)]
  rfl
theorem rhs128_1 (i : S10000x128.Idx) (q : dot128.contr.Idx) : (dot128.rhsIdx i q 1).val = (i 1).val := by
  unfold DotDims.rhsIdx
  rw [dif_neg (show ¬(1 : Fin S128x128.rank) ∈ dot128.rhsBatch by decide),
    dif_pos (show (1 : Fin S128x128.rank) ∈ dot128.rhsNonContracting by decide)]
  rfl
theorem lhs384_0 (i : S10000x128.Idx) (q : dot384.contr.Idx) : (dot384.lhsIdx i q 0).val = (i 0).val := by
  unfold DotDims.lhsIdx
  rw [dif_neg (show ¬(0 : Fin S10000x384.rank) ∈ dot384.lhsBatch by decide),
    dif_pos (show (0 : Fin S10000x384.rank) ∈ dot384.lhsNonContracting by decide)]
  rfl
theorem rhs384_1 (i : S10000x128.Idx) (q : dot384.contr.Idx) : (dot384.rhsIdx i q 1).val = (i 1).val := by
  unfold DotDims.rhsIdx
  rw [dif_neg (show ¬(1 : Fin S384x128.rank) ∈ dot384.rhsBatch by decide),
    dif_pos (show (1 : Fin S384x128.rank) ∈ dot384.rhsNonContracting by decide)]
  rfl

/-- A block of 10000 rows of 128 times a 128 by 128 matrix, from the zero accumulator. -/
def matmul128 (A : FVec Ideal S10000x128 .bf16) (B : FVec Ideal S128x128 .bf16) : FVec Ideal S10000x128 .f32 :=
  matmul dot_S10000x128_S128x128_S10000x128_1_0_0_1_n_n none A B (constant S10000x128 .f32 0x00000000#32)

/-- Its entry (r, j) is the sum over k of A (r, k) * B (k, j). -/
theorem matmul128_sum (A : FVec Ideal S10000x128 .bf16) (B : FVec Ideal S128x128 .bf16) (r : Fin 10000) (j : Fin 128) :
    matmul128 A B (ix2 r j) = ∑ k : Fin 128, A (ix2 r k) * B (ix2 k j) := by
  unfold matmul128
  simp only [matmul]
  rw [Ideal.matmul_constant_zero_apply, ← Equiv.sum_comp (contrEquiv1 dot128 128 rfl rfl).symm]
  refine Finset.sum_congr rfl fun k _ => ?_
  have hk := contrEquiv1_symm_val dot128 128 rfl rfl k
  have el : dot128.lhsIdx (ix2 r j) ((contrEquiv1 dot128 128 rfl rfl).symm k) = ix2 r k := funext fun a => Fin.ext (by
    match a with
    | ⟨0, _⟩ => exact lhs128_0 _ _
    | ⟨1, _⟩ => exact (dot128.lhsIdx_val_of_single rfl _ _).trans hk)
  have er : dot128.rhsIdx (ix2 r j) ((contrEquiv1 dot128 128 rfl rfl).symm k) = ix2 k j := funext fun a => Fin.ext (by
    match a with
    | ⟨0, _⟩ => exact (dot128.rhsIdx_val_of_single rfl _ _).trans hk
    | ⟨1, _⟩ => exact rhs128_1 _ _)
  rw [el, er]

/-- A block of 10000 rows of 384 times a 384 by 128 matrix, from the zero accumulator. -/
def matmul384 (A : FVec Ideal S10000x384 .bf16) (B : FVec Ideal S384x128 .bf16) : FVec Ideal S10000x128 .f32 :=
  matmul dot_S10000x384_S384x128_S10000x128_1_0_0_1_n_n none A B (constant S10000x128 .f32 0x00000000#32)

theorem matmul384_sum (A : FVec Ideal S10000x384 .bf16) (B : FVec Ideal S384x128 .bf16) (r : Fin 10000) (j : Fin 128) :
    matmul384 A B (ix2 r j) = ∑ k : Fin 384, A (ix2 r k) * B (ix2 k j) := by
  unfold matmul384
  simp only [matmul]
  rw [Ideal.matmul_constant_zero_apply, ← Equiv.sum_comp (contrEquiv1 dot384 384 rfl rfl).symm]
  refine Finset.sum_congr rfl fun k _ => ?_
  have hk := contrEquiv1_symm_val dot384 384 rfl rfl k
  have el : dot384.lhsIdx (ix2 r j) ((contrEquiv1 dot384 384 rfl rfl).symm k) = ix2 r k := funext fun a => Fin.ext (by
    match a with
    | ⟨0, _⟩ => exact lhs384_0 _ _
    | ⟨1, _⟩ => exact (dot384.lhsIdx_val_of_single rfl _ _).trans hk)
  have er : dot384.rhsIdx (ix2 r j) ((contrEquiv1 dot384 384 rfl rfl).symm k) = ix2 k j := funext fun a => Fin.ext (by
    match a with
    | ⟨0, _⟩ => exact (dot384.rhsIdx_val_of_single rfl _ _).trans hk
    | ⟨1, _⟩ => exact rhs384_1 _ _)
  rw [el, er]

/-- Three blocks of 128 columns laid side by side. -/
def concat3 (a b c : FVec Ideal S10000x128 .bf16) : FVec Ideal S10000x384 .bf16 :=
  concatenate S10000x384 1 [⟨S10000x128, a⟩, ⟨S10000x128, b⟩, ⟨S10000x128, c⟩] concatenates_S10000x128_S10000x128_S10000x128_S10000x384_d1

theorem concat3_left (a b c : FVec Ideal S10000x128 .bf16) (r : Fin 10000) (k : Fin 384) (h : k.val < 128) :
    concat3 a b c (ix2 r k) = a (ix2 r ⟨k.val, h⟩) :=
  concatenate_apply_piece (t := S10000x384) (1 : Fin 2) ([⟨S10000x128, a⟩, ⟨S10000x128, b⟩, ⟨S10000x128, c⟩] : List ((s : Shape) × (s.Idx → Ideal .bf16)))
    concatenates_S10000x128_S10000x128_S10000x128_S10000x384_d1 (ix2 r k)
    0 (by show (0 : ℕ) < 3; omega) S10000x128 a rfl rfl 0 rfl (ix2 r ⟨k.val, h⟩)
    (fun b hb => by
      match b with
      | ⟨0, _⟩ => rfl
      | ⟨1, _⟩ => exact absurd rfl hb)
    (Nat.zero_add _)

theorem concat3_mid (a b c : FVec Ideal S10000x128 .bf16) (r : Fin 10000) (k : Fin 384) (h1 : ¬ k.val < 128) (h2 : k.val < 256) :
    concat3 a b c (ix2 r k) = b (ix2 r ⟨k.val - 128, by omega⟩) :=
  concatenate_apply_piece (t := S10000x384) (1 : Fin 2) ([⟨S10000x128, a⟩, ⟨S10000x128, b⟩, ⟨S10000x128, c⟩] : List ((s : Shape) × (s.Idx → Ideal .bf16)))
    concatenates_S10000x128_S10000x128_S10000x128_S10000x384_d1 (ix2 r k)
    1 (by show (1 : ℕ) < 3; omega) S10000x128 b rfl rfl 128 rfl (ix2 r ⟨k.val - 128, by omega⟩)
    (fun b hb => by
      match b with
      | ⟨0, _⟩ => rfl
      | ⟨1, _⟩ => exact absurd rfl hb)
    (by show 128 + (k.val - 128) = k.val; omega)

theorem concat3_right (a b c : FVec Ideal S10000x128 .bf16) (r : Fin 10000) (k : Fin 384) (h2 : ¬ k.val < 256) :
    concat3 a b c (ix2 r k) = c (ix2 r ⟨k.val - 256, by omega⟩) :=
  concatenate_apply_piece (t := S10000x384) (1 : Fin 2) ([⟨S10000x128, a⟩, ⟨S10000x128, b⟩, ⟨S10000x128, c⟩] : List ((s : Shape) × (s.Idx → Ideal .bf16)))
    concatenates_S10000x128_S10000x128_S10000x128_S10000x384_d1 (ix2 r k)
    2 (by show (2 : ℕ) < 3; omega) S10000x128 c rfl rfl 256 rfl (ix2 r ⟨k.val - 256, by omega⟩)
    (fun b hb => by
      match b with
      | ⟨0, _⟩ => rfl
      | ⟨1, _⟩ => exact absurd rfl hb)
    (by have := k.isLt; show 256 + (k.val - 256) = k.val; omega)

/-- The positive part of every entry. -/
def posVec (x : FVec Ideal S10000x128 .f32) : FVec Ideal S10000x128 .f32 :=
  maximumf x (broadcast S10000x128 (Scalar.ofBits .f32 0x00000000#32))

/-- Every row normalised to mean 0 and variance 1 (a small constant under the root), then scaled by the row g and
    shifted by the row b. -/
def normVec (x : FVec Ideal S10000x128 .f32) (g b : FVec Ideal S1x128 .f32) : FVec Ideal S10000x128 .f32 :=
  have w : FVec Ideal S10000x1 .f32 := broadcast S10000x1 (Scalar.ofBits .f32 0x43000000#32)
  have mean : FVec Ideal S10000x1 .f32 := divf (shapeCast S10000x1 (rowSumVec x) shapeCasts_S10000_S10000x1) w
  have d : FVec Ideal S10000x128 .f32 := subf x (broadcastTo S10000x128 mean broadcasts_S10000x1_S10000x128)
  have var : FVec Ideal S10000x1 .f32 := divf (shapeCast S10000x1 (rowSumVec (mulf d d)) shapeCasts_S10000_S10000x1) w
  have rs : FVec Ideal S10000x1 .f32 := rsqrt (addf var (broadcast S10000x1 (Scalar.ofBits .f32 0x3727C5AC#32)))
  addf (mulf (mulf d (broadcastTo S10000x128 rs broadcasts_S10000x1_S10000x128)) (broadcastTo S10000x128 g broadcasts_S1x128_S10000x128))
    (broadcastTo S10000x128 b broadcasts_S1x128_S10000x128)

/-- The displacement's hidden layer on every row: the two coordinates times the two rows of weights, plus the bias
    row, positive part. -/
def hidVec (x0 : FVec Ideal S10000x2 .f32) (w0 w1 b1 : FVec Ideal S1x128 .f32) : FVec Ideal S10000x128 .f32 :=
  posVec (addf (addf
    (mulf (broadcastTo S10000x128 (extractStridedSlice S10000x1 ![0, 0] x0 slices_S10000x2_o0_0_S10000x1) broadcasts_S10000x1_S10000x128)
      (broadcastTo S10000x128 w0 broadcasts_S1x128_S10000x128))
    (mulf (broadcastTo S10000x128 (extractStridedSlice S10000x1 ![0, 1] x0 slices_S10000x2_o0_1_S10000x1) broadcasts_S10000x1_S10000x128)
      (broadcastTo S10000x128 w1 broadcasts_S1x128_S10000x128)))
    (broadcastTo S10000x128 b1 broadcasts_S1x128_S10000x128))

/-! The row operations read at an entry. -/

theorem posVec_apply (x : FVec Ideal S10000x128 .f32) (i : S10000x128.Idx) : posVec x i = RowMath.pos (x i) := rfl

theorem slice0_apply (x0 : FVec Ideal S10000x2 .f32) (h : S10000x2.Slices ![0, 0] S10000x1) (r : Fin 10000) (u : Fin 1) :
    extractStridedSlice S10000x1 ![0, 0] x0 h (ix2 r u) = x0 (ix2 r (0 : Fin 2)) :=
  slice2_axis1_apply 0 x0 h r u (0 : Fin 2) (by have := u.isLt; show (0 : ℕ) = 0 + u.val; omega)

theorem slice1_apply (x0 : FVec Ideal S10000x2 .f32) (h : S10000x2.Slices ![0, 1] S10000x1) (r : Fin 10000) (u : Fin 1) :
    extractStridedSlice S10000x1 ![0, 1] x0 h (ix2 r u) = x0 (ix2 r (1 : Fin 2)) :=
  slice2_axis1_apply 1 x0 h r u (1 : Fin 2) (by have := u.isLt; show (1 : ℕ) = 1 + u.val; omega)

theorem normVec_apply (x : FVec Ideal S10000x128 .f32) (g b : FVec Ideal S1x128 .f32) (r : Fin 10000) (j : Fin 128) :
    normVec x g b (ix2 r j)
      = RowMath.rowNorm (fun k => x (ix2 r k)) (fun k => g (ix2 (0 : Fin 1) k)) (fun k => b (ix2 (0 : Fin 1) k)) j := by
  unfold normVec
  simp only [addf_apply, mulf_apply, subf_apply, divf_apply, rsqrt_apply, broadcast_apply, colBroadcast_apply,
    broadcastTo_1b_ab_apply, colCast_apply, rowSumVec_apply]
  rfl

theorem hidVec_apply (x0 : FVec Ideal S10000x2 .f32) (w0 w1 b1 : FVec Ideal S1x128 .f32) (r : Fin 10000) (j : Fin 128) :
    hidVec x0 w0 w1 b1 (ix2 r j)
      = RowMath.pos (x0 (ix2 r (0 : Fin 2)) * w0 (ix2 (0 : Fin 1) j) + x0 (ix2 r (1 : Fin 2)) * w1 (ix2 (0 : Fin 1) j)
          + b1 (ix2 (0 : Fin 1) j)) := by
  unfold hidVec
  rw [posVec_apply]
  simp only [addf_apply, mulf_apply, colBroadcast_apply, broadcastTo_1b_ab_apply, slice0_apply, slice1_apply]

theorem matmul128_apply (A : FVec Ideal S10000x128 .bf16) (B : FVec Ideal S128x128 .bf16) (r : Fin 10000) (j : Fin 128) :
    matmul128 A B (ix2 r j) = RowMath.rowMat (fun k => A (ix2 r k)) (fun k j => B (ix2 k j)) j :=
  matmul128_sum A B r j

theorem matmul384_apply (A : FVec Ideal S10000x384 .bf16) (B : FVec Ideal S384x128 .bf16) (r : Fin 10000) (j : Fin 128) :
    matmul384 A B (ix2 r j) = RowMath.rowMat (fun k => A (ix2 r k)) (fun k j => B (ix2 k j)) j :=
  matmul384_sum A B r j

theorem concat3_apply (a b c : FVec Ideal S10000x128 .bf16) (r : Fin 10000) (k : Fin 384) :
    concat3 a b c (ix2 r k) = RowMath.joined (fun k => a (ix2 r k)) (fun k => b (ix2 r k)) (fun k => c (ix2 r k)) k := by
  unfold RowMath.joined
  by_cases h1 : k.val < 128
  · rw [dif_pos h1]; exact concat3_left a b c r k h1
  · rw [dif_neg h1]
    by_cases h2 : k.val < 256
    · rw [dif_pos h2]; exact concat3_mid a b c r k h1 h2
    · rw [dif_neg h2]; exact concat3_right a b c r k h2

end Cert.KernelRows

end
-- ==== Proof.KernelEdge.lean ====
/- The edge kernel's body at one entry of its output block: the message of one edge.

   The body's stored value is a chain of the row operations: the displacement's two layers, the query's layer, the
   three rows joined, and the two layers of the message. Each link is read at row r; the chain is then the edge
   message of row r's three input rows. -/
import proofs.«101233_j87411174408394_2_alg».proof.Proof.KernelOps
import proofs.«101233_j87411174408394_2_alg».proof.Proof.Gen.KernelIdeal.Frame

noncomputable section

namespace Cert.KernelRows

open Idealize.ShloMosaic Idealize.ShloMosaic.ValueIdx Cert.KernelIdeal Cert.KernelIdeal.Gen

/-! The payloads as compositions of the row operations. -/

theorem pay2_eq (v0 : Vec Ideal S10000x2 .f32) (v2 v3 v13 : Vec Ideal S1x128 .f32) (v20 : Vec Ideal S128x128 .bf16) :
    k0_pay2 (F := Ideal) v0 v2 v3 v13 v20
      = matmul128 (truncf .bf16 (hidVec (shapeCast S10000x2 v0 shapeCasts_S10000x2_S10000x2) v2 v3 (shapeCast S1x128 v13 shapeCasts_S1x128_S1x128)) bitsLt_bf16_f32)
          (shapeCast S128x128 v20 shapeCasts_S128x128_S128x128) := rfl

theorem pay8_eq (v0 : Vec Ideal S10000x2 .f32) (v2 v3 v13 : Vec Ideal S1x128 .f32) (v20 : Vec Ideal S128x128 .bf16)
    (g b : FVec Ideal S1x128 .f32) :
    k0_pay8 (F := Ideal) (k0_pay2 v0 v2 v3 v13 v20) g b (k0_pay6 v0 v2 v3 v13 v20) (k0_pay7 v0 v2 v3 v13 v20)
      = truncf .bf16 (posVec (normVec (k0_pay2 v0 v2 v3 v13 v20) g b)) bitsLt_bf16_f32 := rfl

theorem pay9_eq (v52 : Vec Ideal S10000x128 .bf16) (v54 : Vec Ideal S128x128 .bf16) (v57 v59 : Vec Ideal S1x128 .f32) :
    k0_pay9 (F := Ideal) v52 v54 v57 v59
      = normVec (matmul128 (shapeCast S10000x128 v52 shapeCasts_S10000x128_S10000x128) (shapeCast S128x128 v54 shapeCasts_S128x128_S128x128))
          (shapeCast S1x128 v57 shapeCasts_S1x128_S1x128) (shapeCast S1x128 v59 shapeCasts_S1x128_S1x128) := rfl

theorem pay10_eq (v51 : FVec Ideal S10000x128 .bf16) (v82 : FVec Ideal S10000x128 .f32) (v86 : Vec Ideal S10000x128 .bf16)
    (v89 : Vec Ideal S384x128 .bf16) (v92 v94 : Vec Ideal S1x128 .f32) (v121 : Vec Ideal S128x128 .bf16) :
    k0_pay10 (F := Ideal) v51 v82 v86 v89 v92 v94 v121
      = matmul128 (truncf .bf16 (posVec (normVec
            (matmul384 (concat3 v51 (truncf .bf16 (posVec v82) bitsLt_bf16_f32) (shapeCast S10000x128 v86 shapeCasts_S10000x128_S10000x128))
              (shapeCast S384x128 v89 shapeCasts_S384x128_S384x128))
            (shapeCast S1x128 v92 shapeCasts_S1x128_S1x128) (shapeCast S1x128 v94 shapeCasts_S1x128_S1x128))) bitsLt_bf16_f32)
          (shapeCast S128x128 v121 shapeCasts_S128x128_S128x128) := rfl

/-! The payloads read at an entry. -/

theorem pay1_apply (v123 : FVec Ideal S10000x128 .f32) (i : S10000x128.Idx) : k0_pay1 (F := Ideal) v123 i = v123 i := rfl

theorem pay3_eq (v : Vec Ideal S1x128 .f32) : k0_pay3 (F := Ideal) v = v := shapeCast_self v _
theorem pay4_eq (v : Vec Ideal S1x128 .f32) : k0_pay4 (F := Ideal) v = v := shapeCast_self v _

theorem pay2_apply (v0 : Vec Ideal S10000x2 .f32) (v2 v3 v13 : Vec Ideal S1x128 .f32) (v20 : Vec Ideal S128x128 .bf16)
    (r : Fin 10000) (j : Fin 128) :
    k0_pay2 (F := Ideal) v0 v2 v3 v13 v20 (ix2 r j)
      = RowMath.rowMat (fun k => RowMath.pos (v0 (ix2 r (0 : Fin 2)) * v2 (ix2 (0 : Fin 1) k)
            + v0 (ix2 r (1 : Fin 2)) * v3 (ix2 (0 : Fin 1) k) + v13 (ix2 (0 : Fin 1) k)))
          (fun k j => v20 (ix2 k j)) j := by
  rw [pay2_eq, matmul128_apply]
  simp only [truncf_apply, hidVec_apply, shapeCast_self]

theorem pay8_apply (v0 : Vec Ideal S10000x2 .f32) (v2 v3 v13 : Vec Ideal S1x128 .f32) (v20 : Vec Ideal S128x128 .bf16)
    (g b : FVec Ideal S1x128 .f32) (r : Fin 10000) (j : Fin 128) :
    k0_pay8 (F := Ideal) (k0_pay2 v0 v2 v3 v13 v20) g b (k0_pay6 v0 v2 v3 v13 v20) (k0_pay7 v0 v2 v3 v13 v20) (ix2 r j)
      = RowMath.pos (RowMath.rowNorm (fun k => k0_pay2 (F := Ideal) v0 v2 v3 v13 v20 (ix2 r k))
          (fun k => g (ix2 (0 : Fin 1) k)) (fun k => b (ix2 (0 : Fin 1) k)) j) := by
  rw [pay8_eq, truncf_apply, posVec_apply, normVec_apply]

theorem pay9_apply (v52 : Vec Ideal S10000x128 .bf16) (v54 : Vec Ideal S128x128 .bf16) (v57 v59 : Vec Ideal S1x128 .f32)
    (r : Fin 10000) (j : Fin 128) :
    k0_pay9 (F := Ideal) v52 v54 v57 v59 (ix2 r j)
      = RowMath.rowNorm (RowMath.rowMat (fun k => v52 (ix2 r k)) (fun k j => v54 (ix2 k j)))
          (fun k => v57 (ix2 (0 : Fin 1) k)) (fun k => v59 (ix2 (0 : Fin 1) k)) j := by
  rw [pay9_eq, normVec_apply]
  simp only [matmul128_apply, shapeCast_self]

theorem pay10_apply (v51 : FVec Ideal S10000x128 .bf16) (v82 : FVec Ideal S10000x128 .f32) (v86 : Vec Ideal S10000x128 .bf16)
    (v89 : Vec Ideal S384x128 .bf16) (v92 v94 : Vec Ideal S1x128 .f32) (v121 : Vec Ideal S128x128 .bf16)
    (r : Fin 10000) (j : Fin 128) :
    k0_pay10 (F := Ideal) v51 v82 v86 v89 v92 v94 v121 (ix2 r j)
      = RowMath.rowMat (fun i => RowMath.pos (RowMath.rowNorm
            (RowMath.rowMat (RowMath.joined (fun k => v51 (ix2 r k)) (fun k => RowMath.pos (v82 (ix2 r k))) (fun k => v86 (ix2 r k)))
              (fun k j => v89 (ix2 k j)))
            (fun k => v92 (ix2 (0 : Fin 1) k)) (fun k => v94 (ix2 (0 : Fin 1) k)) i))
          (fun k j => v121 (ix2 k j)) j := by
  rw [pay10_eq, matmul128_apply]
  simp only [truncf_apply, posVec_apply, normVec_apply, matmul384_apply, concat3_apply, shapeCast_self]

/-! The two bodies. -/

/-- The first row of the 2 by 128 block, read through its rectangle. -/
theorem ld_row0 (x3 : Vec Ideal S2x128 .f32) (j : Fin 128) : View.ld x3 r0_1 (ix2 (0 : Fin 1) j) = x3 (ix2 (0 : Fin 2) j) :=
  congrArg x3 (funext fun a => Fin.ext (by
    match a with
    | ⟨0, _⟩ => rfl
    | ⟨1, _⟩ => show 0 + 1 * j.val = j.val; omega))

/-- The second row. -/
theorem ld_row1 (x3 : Vec Ideal S2x128 .f32) (j : Fin 128) : View.ld x3 r0_2 (ix2 (0 : Fin 1) j) = x3 (ix2 (1 : Fin 2) j) :=
  congrArg x3 (funext fun a => Fin.ext (by
    match a with
    | ⟨0, _⟩ => rfl
    | ⟨1, _⟩ => show 0 + 1 * j.val = j.val; omega))

/-- A product of a row of two with a 2 by 128 matrix is its two terms. -/
theorem dispHidden_eq (dr : Fin 2 → EReal) (W1 : Fin 2 → Fin 128 → EReal) (b1 : Fin 128 → EReal) (j : Fin 128) :
    RowMath.dispHidden dr W1 b1 j = RowMath.pos (dr 0 * W1 0 j + dr 1 * W1 1 j + b1 j) := by
  unfold RowMath.dispHidden RowMath.rowMat
  rw [Fin.sum_univ_two]

theorem edge_core (x0 : Vec Ideal S10000x2 .f32) (x1 x2 : Vec Ideal S10000x128 .bf16) (x3 : Vec Ideal S2x128 .f32)
    (w0 w1 : Vec Ideal S1x128 .f32) (x4 : Vec Ideal S1x128 .f32) (x5 : Vec Ideal S128x128 .bf16) (x6 x7 : Vec Ideal S1x128 .f32)
    (x8 : Vec Ideal S128x128 .bf16) (x9 x10 : Vec Ideal S1x128 .f32) (x11 : Vec Ideal S384x128 .bf16)
    (x12 x13 : Vec Ideal S1x128 .f32) (x14 : Vec Ideal S128x128 .bf16)
    (hw0 : ∀ j : Fin 128, w0 (ix2 (0 : Fin 1) j) = x3 (ix2 (0 : Fin 2) j))
    (hw1 : ∀ j : Fin 128, w1 (ix2 (0 : Fin 1) j) = x3 (ix2 (1 : Fin 2) j)) (r : Fin 10000) (j : Fin 128) :
    k0_pay1 (F := Ideal) (k0_pay10 (k0_pay8 (k0_pay2 x0 w0 w1 x4 x5) (k0_pay3 x6) (k0_pay4 x7) (k0_pay6 x0 w0 w1 x4 x5)
          (k0_pay7 x0 w0 w1 x4 x5)) (k0_pay9 x1 x8 x9 x10) x2 x11 x12 x13 x14) (ix2 r j)
      = RowMath.edgeMsg (fun k => x0 (ix2 r k)) (fun k => x1 (ix2 r k)) (fun k => x2 (ix2 r k)) (fun k j => x3 (ix2 k j))
          (fun j => x4 (ix2 0 j)) (fun k j => x5 (ix2 k j)) (fun j => x6 (ix2 0 j)) (fun j => x7 (ix2 0 j)) (fun k j => x8 (ix2 k j))
          (fun j => x9 (ix2 0 j)) (fun j => x10 (ix2 0 j)) (fun k j => x11 (ix2 k j)) (fun j => x12 (ix2 0 j)) (fun j => x13 (ix2 0 j))
          (fun k j => x14 (ix2 k j)) j := by
  have hH : (fun k => k0_pay2 (F := Ideal) x0 w0 w1 x4 x5 (ix2 r k))
      = RowMath.rowMat (RowMath.dispHidden (fun k => x0 (ix2 r k)) (fun k j => x3 (ix2 k j)) (fun j => x4 (ix2 (0 : Fin 1) j)))
          (fun k j => x5 (ix2 k j)) := by
    funext k
    rw [pay2_apply]
    refine congrArg (fun f => RowMath.rowMat f (fun k j => x5 (ix2 k j)) k) (funext fun i => ?_)
    rw [dispHidden_eq, hw0, hw1]
  have hD : (fun k => k0_pay8 (F := Ideal) (k0_pay2 x0 w0 w1 x4 x5) (k0_pay3 x6) (k0_pay4 x7) (k0_pay6 x0 w0 w1 x4 x5)
        (k0_pay7 x0 w0 w1 x4 x5) (ix2 r k))
      = RowMath.dispFeat (fun k => x0 (ix2 r k)) (fun k j => x3 (ix2 k j)) (fun j => x4 (ix2 (0 : Fin 1) j)) (fun k j => x5 (ix2 k j))
          (fun j => x6 (ix2 (0 : Fin 1) j)) (fun j => x7 (ix2 (0 : Fin 1) j)) := by
    funext k
    rw [pay8_apply, hH, pay3_eq, pay4_eq]
    rfl
  have hQ : (fun k => RowMath.pos (k0_pay9 (F := Ideal) x1 x8 x9 x10 (ix2 r k)))
      = RowMath.queryFeat (fun k => x1 (ix2 r k)) (fun k j => x8 (ix2 k j)) (fun j => x9 (ix2 (0 : Fin 1) j))
          (fun j => x10 (ix2 (0 : Fin 1) j)) := by
    funext k
    rw [pay9_apply]
    rfl
  rw [pay1_apply, pay10_apply, hD, hQ]
  rfl

/-- What the edge kernel's body leaves at row r, column j of its output block: the edge message of the row's three
    input rows. -/
theorem edge_rows (x0 : Vec Ideal S10000x2 .f32) (x1 x2 : Vec Ideal S10000x128 .bf16) (x3 : Vec Ideal S2x128 .f32)
    (x4 : Vec Ideal S1x128 .f32) (x5 : Vec Ideal S128x128 .bf16) (x6 x7 : Vec Ideal S1x128 .f32) (x8 : Vec Ideal S128x128 .bf16)
    (x9 x10 : Vec Ideal S1x128 .f32) (x11 : Vec Ideal S384x128 .bf16) (x12 x13 : Vec Ideal S1x128 .f32)
    (x14 : Vec Ideal S128x128 .bf16) (r : Fin 10000) (j : Fin 128) :
    Cert.KernelIdeal.Gen.out0_15 (F := Ideal) x0 x1 x2 x3 x4 x5 x6 x7 x8 x9 x10 x11 x12 x13 x14 (ix2 r j)
      = RowMath.edgeMsg (fun k => x0 (ix2 r k)) (fun k => x1 (ix2 r k)) (fun k => x2 (ix2 r k)) (fun k j => x3 (ix2 k j))
          (fun j => x4 (ix2 0 j)) (fun k j => x5 (ix2 k j)) (fun j => x6 (ix2 0 j)) (fun j => x7 (ix2 0 j)) (fun k j => x8 (ix2 k j))
          (fun j => x9 (ix2 0 j)) (fun j => x10 (ix2 0 j)) (fun k j => x11 (ix2 k j)) (fun j => x12 (ix2 0 j)) (fun j => x13 (ix2 0 j))
          (fun k j => x14 (ix2 k j)) j := by
  unfold out0_15
  rw [View.canon_unit_zero zeroOffsets]
  simp only [View.ld_unit_zero (S := S10000x2) zeroOffsets, View.ld_unit_zero (S := S10000x128) zeroOffsets,
    View.ld_unit_zero (S := S1x128) zeroOffsets, View.ld_unit_zero (S := S128x128) zeroOffsets,
    View.ld_unit_zero (S := S384x128) zeroOffsets]
  exact edge_core x0 x1 x2 x3 (View.ld x3 r0_1) (View.ld x3 r0_2) x4 x5 x6 x7 x8 x9 x10 x11 x12 x13 x14 (ld_row0 x3) (ld_row1 x3) r j

end Cert.KernelRows

end
-- ==== Proof.EdgeArray.lean ====
/- From the per-edge kernel's blocks to its whole output array.

   The per-edge kernel runs over 50 grid points. At point t its three moving input windows hold rows
   10000 t … 10000 t + 9999 of the displacement array, of the gathered agent rows and of the gathered context rows;
   its twelve parameter windows hold their whole (small) arrays at every point; it writes back rows
   10000 t … 10000 t + 9999 of the message array. Row r of what it writes is the edge message of row 10000 t + r,
   so the 50 write-backs tile the message array and it ends holding, at (e, j), entry j of edge e's message. -/
import proofs.«101233_j87411174408394_2_alg».proof.Proof.Gen.KernelIdeal.Frame
import proofs.«101233_j87411174408394_2_alg».proof.Proof.RowMath
import proofs.«101233_j87411174408394_2_alg».proof.Proof.KernelEdge
import Idealize.ShloMosaic.Lib.Pipeline.Value
import Idealize.ShloMosaic.Lib.ValueIdx

set_option maxRecDepth 16384

noncomputable section

namespace Cert.EdgeArray

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The message array as a function of the contents the first kernel call finds: at (e, j), entry j of the message
    of edge e, built from row e of the displacement, of the gathered agent rows and of the gathered context rows. -/
def msgOf (c : Dev nD) : S500000x128.Idx → EReal := fun u =>
  RowMath.edgeMsg
    (fun k => (V c main_v30 : S500000x2.Idx → EReal) (ix2 (u 0) k))
    (fun k => (V c main_v8 : S500000x128.Idx → EReal) (ix2 (u 0) k))
    (fun k => (V c main_v15 : S500000x128.Idx → EReal) (ix2 (u 0) k))
    (fun k j => (V c main_arg4 : S2x128.Idx → EReal) (ix2 k j))
    (fun j => (V c main_v31 : S1x128.Idx → EReal) (ix2 0 j))
    (fun k j => (V c main_v32 : S128x128.Idx → EReal) (ix2 k j))
    (fun j => (V c main_v33 : S1x128.Idx → EReal) (ix2 0 j))
    (fun j => (V c main_v34 : S1x128.Idx → EReal) (ix2 0 j))
    (fun k j => (V c main_v35 : S128x128.Idx → EReal) (ix2 k j))
    (fun j => (V c main_v36 : S1x128.Idx → EReal) (ix2 0 j))
    (fun j => (V c main_v37 : S1x128.Idx → EReal) (ix2 0 j))
    (fun k j => (V c main_v38 : S384x128.Idx → EReal) (ix2 k j))
    (fun j => (V c main_v39 : S1x128.Idx → EReal) (ix2 0 j))
    (fun j => (V c main_v40 : S1x128.Idx → EReal) (ix2 0 j))
    (fun k j => (V c main_v41 : S128x128.Idx → EReal) (ix2 k j))
    (u 1)

/-- The printed index maps over the grid: the three moving inputs and the output sit at block (t, 0), the twelve
    parameters at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0 :=
  (by decide +kernel : ∀ t : Fin grid0.N, _)

theorem idx_params : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

theorem hz : (![0, 0] : Fin 2 → Nat) = fun _ => 0 := funext fun a => by fin_cases a <;> rfl

/-- Row r of the displacement window's block at point t is row 10000 t + r of the displacement array. -/
theorem blk_disp (c : Dev nD) (t : Fin cfg0.N) (r : Fin 10000) (k : Fin 2) (e : Fin 500000) (he : e.val = t.val * 10000 + r.val) :
    (iblk0 V c 0 t : Vec Ideal S10000x2 .f32) (ix2 r k) = (V c main_v30 : S500000x2.Idx → EReal) (ix2 e k) := by
  obtain ⟨e0, e1, -⟩ := idx_facts t
  unfold iblk0
  rw [View.read_apply]
  show (V c main_v30 : S500000x2.Idx → EReal) _ = (V c main_v30 : S500000x2.Idx → EReal) _
  refine congrArg _ ?_
  funext a; apply Fin.ext
  match a with
  | ⟨0, _⟩ => show win0_0.index t (0 : Fin 2) * 10000 + 1 * r.val = e.val; rw [e0, he]; omega
  | ⟨1, _⟩ => show win0_0.index t (1 : Fin 2) * 2 + 1 * k.val = k.val; rw [e1]; omega

/-- Row r of the gathered agent rows' block at point t is row 10000 t + r of that array. -/
theorem blk_agent (c : Dev nD) (t : Fin cfg0.N) (r : Fin 10000) (k : Fin 128) (e : Fin 500000) (he : e.val = t.val * 10000 + r.val) :
    (iblk0 V c 1 t : Vec Ideal S10000x128 .bf16) (ix2 r k) = (V c main_v8 : S500000x128.Idx → EReal) (ix2 e k) := by
  obtain ⟨-, -, e0, e1, -⟩ := idx_facts t
  unfold iblk0
  rw [View.read_apply]
  show (V c main_v8 : S500000x128.Idx → EReal) _ = (V c main_v8 : S500000x128.Idx → EReal) _
  refine congrArg _ ?_
  funext a; apply Fin.ext
  match a with
  | ⟨0, _⟩ => show win0_1.index t (0 : Fin 2) * 10000 + 1 * r.val = e.val; rw [e0, he]; omega
  | ⟨1, _⟩ => show win0_1.index t (1 : Fin 2) * 128 + 1 * k.val = k.val; rw [e1]; omega

/-- Row r of the gathered context rows' block at point t is row 10000 t + r of that array. -/
theorem blk_ctx (c : Dev nD) (t : Fin cfg0.N) (r : Fin 10000) (k : Fin 128) (e : Fin 500000) (he : e.val = t.val * 10000 + r.val) :
    (iblk0 V c 2 t : Vec Ideal S10000x128 .bf16) (ix2 r k) = (V c main_v15 : S500000x128.Idx → EReal) (ix2 e k) := by
  obtain ⟨-, -, -, -, e0, e1, -⟩ := idx_facts t
  unfold iblk0
  rw [View.read_apply]
  show (V c main_v15 : S500000x128.Idx → EReal) _ = (V c main_v15 : S500000x128.Idx → EReal) _
  refine congrArg _ ?_
  funext a; apply Fin.ext
  match a with
  | ⟨0, _⟩ => show win0_2.index t (0 : Fin 2) * 10000 + 1 * r.val = e.val; rw [e0, he]; omega
  | ⟨1, _⟩ => show win0_2.index t (1 : Fin 2) * 128 + 1 * k.val = k.val; rw [e1]; omega

/-- Parameter window 3 holds its whole array at every point. -/
theorem blk_p3 (c : Dev nD) (t : Fin cfg0.N) (k : Fin 2) (j : Fin 128) :
    (iblk0 V c 3 t : Vec Ideal S2x128 .f32) (ix2 k j) = (V c main_arg4 : S2x128.Idx → EReal) (ix2 k j) := by
  obtain ⟨⟨e0, e1⟩, -⟩ := idx_params t
  unfold iblk0
  rw [View.read_apply]
  show (V c main_arg4 : S2x128.Idx → EReal) _ = (V c main_arg4 : S2x128.Idx → EReal) _
  refine congrArg _ ?_
  funext a; apply Fin.ext
  match a with
  | ⟨0, _⟩ => show win0_3.index t (0 : Fin 2) * 2 + 1 * k.val = k.val; rw [e0]; omega
  | ⟨1, _⟩ => show win0_3.index t (1 : Fin 2) * 128 + 1 * j.val = j.val; rw [e1]; omega

/-- Parameter window 4 holds its whole array at every point. -/
theorem blk_p4 (c : Dev nD) (t : Fin cfg0.N) (k : Fin 1) (j : Fin 128) :
    (iblk0 V c 4 t : Vec Ideal S1x128 .f32) (ix2 k j) = (V c main_v31 : S1x128.Idx → EReal) (ix2 k j) := by
  obtain ⟨-, ⟨e0, e1⟩, -⟩ := idx_params t
  unfold iblk0
  rw [View.read_apply]
  show (V c main_v31 : S1x128.Idx → EReal) _ = (V c main_v31 : S1x128.Idx → EReal) _
  refine congrArg _ ?_
  funext a; apply Fin.ext
  match a with
  | ⟨0, _⟩ => show win0_4.index t (0 : Fin 2) * 1 + 1 * k.val = k.val; rw [e0]; omega
  | ⟨1, _⟩ => show win0_4.index t (1 : Fin 2) * 128 + 1 * j.val = j.val; rw [e1]; omega

/-- Parameter window 5 holds its whole array at every point. -/
theorem blk_p5 (c : Dev nD) (t : Fin cfg0.N) (k : Fin 128) (j : Fin 128) :
    (iblk0 V c 5 t : Vec Ideal S128x128 .bf16) (ix2 k j) = (V c main_v32 : S128x128.Idx → EReal) (ix2 k j) := by
  obtain ⟨-, -, ⟨e0, e1⟩, -⟩ := idx_params t
  unfold iblk0
  rw [View.read_apply]
  show (V c main_v32 : S128x128.Idx → EReal) _ = (V c main_v32 : S128x128.Idx → EReal) _
  refine congrArg _ ?_
  funext a; apply Fin.ext
  match a with
  | ⟨0, _⟩ => show win0_5.index t (0 : Fin 2) * 128 + 1 * k.val = k.val; rw [e0]; omega
  | ⟨1, _⟩ => show win0_5.index t (1 : Fin 2) * 128 + 1 * j.val = j.val; rw [e1]; omega

/-- Parameter window 6 holds its whole array at every point. -/
theorem blk_p6 (c : Dev nD) (t : Fin cfg0.N) (k : Fin 1) (j : Fin 128) :
    (iblk0 V c 6 t : Vec Ideal S1x128 .f32) (ix2 k j) = (V c main_v33 : S1x128.Idx → EReal) (ix2 k j) := by
  obtain ⟨-, -, -, ⟨e0, e1⟩, -⟩ := idx_params t
  unfold iblk0
  rw [View.read_apply]
  show (V c main_v33 : S1x128.Idx → EReal) _ = (V c main_v33 : S1x128.Idx → EReal) _
  refine congrArg _ ?_
  funext a; apply Fin.ext
  match a with
  | ⟨0, _⟩ => show win0_6.index t (0 : Fin 2) * 1 + 1 * k.val = k.val; rw [e0]; omega
  | ⟨1, _⟩ => show win0_6.index t (1 : Fin 2) * 128 + 1 * j.val = j.val; rw [e1]; omega

/-- Parameter window 7 holds its whole array at every point. -/
theorem blk_p7 (c : Dev nD) (t : Fin cfg0.N) (k : Fin 1) (j : Fin 128) :
    (iblk0 V c 7 t : Vec Ideal S1x128 .f32) (ix2 k j) = (V c main_v34 : S1x128.Idx → EReal) (ix2 k j) := by
  obtain ⟨-, -, -, -, ⟨e0, e1⟩, -⟩ := idx_params t
  unfold iblk0
  rw [View.read_apply]
  show (V c main_v34 : S1x128.Idx → EReal) _ = (V c main_v34 : S1x128.Idx → EReal) _
  refine congrArg _ ?_
  funext a; apply Fin.ext
  match a with
  | ⟨0, _⟩ => show win0_7.index t (0 : Fin 2) * 1 + 1 * k.val = k.val; rw [e0]; omega
  | ⟨1, _⟩ => show win0_7.index t (1 : Fin 2) * 128 + 1 * j.val = j.val; rw [e1]; omega

/-- Parameter window 8 holds its whole array at every point. -/
theorem blk_p8 (c : Dev nD) (t : Fin cfg0.N) (k : Fin 128) (j : Fin 128) :
    (iblk0 V c 8 t : Vec Ideal S128x128 .bf16) (ix2 k j) = (V c main_v35 : S128x128.Idx → EReal) (ix2 k j) := by
  obtain ⟨-, -, -, -, -, ⟨e0, e1⟩, -⟩ := idx_params t
  unfold iblk0
  rw [View.read_apply]
  show (V c main_v35 : S128x128.Idx → EReal) _ = (V c main_v35 : S128x128.Idx → EReal) _
  refine congrArg _ ?_
  funext a; apply Fin.ext
  match a with
  | ⟨0, _⟩ => show win0_8.index t (0 : Fin 2) * 128 + 1 * k.val = k.val; rw [e0]; omega
  | ⟨1, _⟩ => show win0_8.index t (1 : Fin 2) * 128 + 1 * j.val = j.val; rw [e1]; omega

/-- Parameter window 9 holds its whole array at every point. -/
theorem blk_p9 (c : Dev nD) (t : Fin cfg0.N) (k : Fin 1) (j : Fin 128) :
    (iblk0 V c 9 t : Vec Ideal S1x128 .f32) (ix2 k j) = (V c main_v36 : S1x128.Idx → EReal) (ix2 k j) := by
  obtain ⟨-, -, -, -, -, -, ⟨e0, e1⟩, -⟩ := idx_params t
  unfold iblk0
  rw [View.read_apply]
  show (V c main_v36 : S1x128.Idx → EReal) _ = (V c main_v36 : S1x128.Idx → EReal) _
  refine congrArg _ ?_
  funext a; apply Fin.ext
  match a with
  | ⟨0, _⟩ => show win0_9.index t (0 : Fin 2) * 1 + 1 * k.val = k.val; rw [e0]; omega
  | ⟨1, _⟩ => show win0_9.index t (1 : Fin 2) * 128 + 1 * j.val = j.val; rw [e1]; omega

/-- Parameter window 10 holds its whole array at every point. -/
theorem blk_p10 (c : Dev nD) (t : Fin cfg0.N) (k : Fin 1) (j : Fin 128) :
    (iblk0 V c 10 t : Vec Ideal S1x128 .f32) (ix2 k j) = (V c main_v37 : S1x128.Idx → EReal) (ix2 k j) := by
  obtain ⟨-, -, -, -, -, -, -, ⟨e0, e1⟩, -⟩ := idx_params t
  unfold iblk0
  rw [View.read_apply]
  show (V c main_v37 : S1x128.Idx → EReal) _ = (V c main_v37 : S1x128.Idx → EReal) _
  refine congrArg _ ?_
  funext a; apply Fin.ext
  match a with
  | ⟨0, _⟩ => show win0_10.index t (0 : Fin 2) * 1 + 1 * k.val = k.val; rw [e0]; omega
  | ⟨1, _⟩ => show win0_10.index t (1 : Fin 2) * 128 + 1 * j.val = j.val; rw [e1]; omega

/-- Parameter window 11 holds its whole array at every point. -/
theorem blk_p11 (c : Dev nD) (t : Fin cfg0.N) (k : Fin 384) (j : Fin 128) :
    (iblk0 V c 11 t : Vec Ideal S384x128 .bf16) (ix2 k j) = (V c main_v38 : S384x128.Idx → EReal) (ix2 k j) := by
  obtain ⟨-, -, -, -, -, -, -, -, ⟨e0, e1⟩, -⟩ := idx_params t
  unfold iblk0
  rw [View.read_apply]
  show (V c main_v38 : S384x128.Idx → EReal) _ = (V c main_v38 : S384x128.Idx → EReal) _
  refine congrArg _ ?_
  funext a; apply Fin.ext
  match a with
  | ⟨0, _⟩ => show win0_11.index t (0 : Fin 2) * 384 + 1 * k.val = k.val; rw [e0]; omega
  | ⟨1, _⟩ => show win0_11.index t (1 : Fin 2) * 128 + 1 * j.val = j.val; rw [e1]; omega

/-- Parameter window 12 holds its whole array at every point. -/
theorem blk_p12 (c : Dev nD) (t : Fin cfg0.N) (k : Fin 1) (j : Fin 128) :
    (iblk0 V c 12 t : Vec Ideal S1x128 .f32) (ix2 k j) = (V c main_v39 : S1x128.Idx → EReal) (ix2 k j) := by
  obtain ⟨-, -, -, -, -, -, -, -, -, ⟨e0, e1⟩, -⟩ := idx_params t
  unfold iblk0
  rw [View.read_apply]
  show (V c main_v39 : S1x128.Idx → EReal) _ = (V c main_v39 : S1x128.Idx → EReal) _
  refine congrArg _ ?_
  funext a; apply Fin.ext
  match a with
  | ⟨0, _⟩ => show win0_12.index t (0 : Fin 2) * 1 + 1 * k.val = k.val; rw [e0]; omega
  | ⟨1, _⟩ => show win0_12.index t (1 : Fin 2) * 128 + 1 * j.val = j.val; rw [e1]; omega

/-- Parameter window 13 holds its whole array at every point. -/
theorem blk_p13 (c : Dev nD) (t : Fin cfg0.N) (k : Fin 1) (j : Fin 128) :
    (iblk0 V c 13 t : Vec Ideal S1x128 .f32) (ix2 k j) = (V c main_v40 : S1x128.Idx → EReal) (ix2 k j) := by
  obtain ⟨-, -, -, -, -, -, -, -, -, -, ⟨e0, e1⟩, -⟩ := idx_params t
  unfold iblk0
  rw [View.read_apply]
  show (V c main_v40 : S1x128.Idx → EReal) _ = (V c main_v40 : S1x128.Idx → EReal) _
  refine congrArg _ ?_
  funext a; apply Fin.ext
  match a with
  | ⟨0, _⟩ => show win0_13.index t (0 : Fin 2) * 1 + 1 * k.val = k.val; rw [e0]; omega
  | ⟨1, _⟩ => show win0_13.index t (1 : Fin 2) * 128 + 1 * j.val = j.val; rw [e1]; omega

/-- Parameter window 14 holds its whole array at every point. -/
theorem blk_p14 (c : Dev nD) (t : Fin cfg0.N) (k : Fin 128) (j : Fin 128) :
    (iblk0 V c 14 t : Vec Ideal S128x128 .bf16) (ix2 k j) = (V c main_v41 : S128x128.Idx → EReal) (ix2 k j) := by
  obtain ⟨-, -, -, -, -, -, -, -, -, -, -, ⟨e0, e1⟩⟩ := idx_params t
  unfold iblk0
  rw [View.read_apply]
  show (V c main_v41 : S128x128.Idx → EReal) _ = (V c main_v41 : S128x128.Idx → EReal) _
  refine congrArg _ ?_
  funext a; apply Fin.ext
  match a with
  | ⟨0, _⟩ => show win0_14.index t (0 : Fin 2) * 128 + 1 * k.val = k.val; rw [e0]; omega
  | ⟨1, _⟩ => show win0_14.index t (1 : Fin 2) * 128 + 1 * j.val = j.val; rw [e1]; omega

/-- An index of the message array is in point t's block iff each coordinate is in the block's range. -/
theorem mem_blk (t : Fin cfg0.N) (i : S500000x128.Idx) :
    i ∈ ((cfg0.win 15).blk t).view.set ↔ ∀ a : Fin 2, win0_15.index t a * S10000x128.size a ≤ (i a).val ∧ (i a).val < win0_15.index t a * S10000x128.size a + S10000x128.size a := by
  show i ∈ ((View.whole main_v42).slice (win0_15.rect t)).set ↔ _
  rw [View.set_slice_whole, Rect.mem_set_unit]
  exact Iff.rfl

/-- Row e of the message array lies in the block written at point e / 10000. -/
theorem cover (i : S500000x128.Idx) : ∃ t : Fin cfg0.N, (cfg0.win 15).flush t = true ∧ i ∈ ((cfg0.win 15).blk t).view.set := by
  have hN : cfg0.N = 50 := N_0
  have hi0 : (i 0).val < 500000 := (i 0).isLt
  have hi1 : (i 1).val < 128 := (i 1).isLt
  have ht : (i 0).val / 10000 < cfg0.N := by rw [hN]; omega
  obtain ⟨-, -, -, -, -, -, e0, e1⟩ := idx_facts ⟨(i 0).val / 10000, ht⟩
  refine ⟨⟨(i 0).val / 10000, ht⟩, flush0_15 _, ?_⟩
  rw [mem_blk]
  intro a
  match a with
  | ⟨0, _⟩ =>
    show win0_15.index ⟨(i 0).val / 10000, ht⟩ (0 : Fin 2) * 10000 ≤ (i 0).val ∧ (i 0).val < win0_15.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_15.index ⟨(i 0).val / 10000, ht⟩ (1 : Fin 2) * 128 ≤ (i 1).val ∧ (i 1).val < win0_15.index ⟨(i 0).val / 10000, ht⟩ (1 : Fin 2) * 128 + 128
    rw [e1]; omega

/-- What point t writes back is block t of the message array. -/
theorem flushed_eq (c : Dev nD) (t : Fin cfg0.N) :
    (dat0 V c).flushed 15 t = ((cfg0.win 15).blk t).view.read (Elt Ideal) (msgOf V c) := by
  show (cfg0.win 15).cut (grid0.coords t) ((dat0 V c).after 15 t) = _
  rw [after0_15]
  funext y
  obtain ⟨r, j, rfl⟩ : ∃ (r : Fin 10000) (j : Fin 128), y = ix2 r j := ⟨y 0, y 1, eq_ix2 y⟩
  have hN : cfg0.N = 50 := N_0
  have ht : t.val < 50 := hN ▸ t.isLt
  obtain ⟨-, -, -, -, -, -, e0, e1⟩ := idx_facts t
  have he : t.val * 10000 + r.val < 500000 := by have := r.isLt; omega
  have hemb : ((cfg0.win 15).blk t).view.emb (ix2 r j) = ix2 (⟨t.val * 10000 + r.val, he⟩ : Fin 500000) j := by
    funext a; apply Fin.ext
    match a with
    | ⟨0, _⟩ => show win0_15.index t (0 : Fin 2) * 10000 + 1 * r.val = t.val * 10000 + r.val; rw [e0]; omega
    | ⟨1, _⟩ => show win0_15.index t (1 : Fin 2) * 128 + 1 * j.val = j.val; rw [e1]; omega
  rw [View.read_apply, hemb]
  refine (Cert.KernelRows.edge_rows (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) r j).trans ?_
  unfold msgOf
  simp only [blk_disp V c t r _ ⟨t.val * 10000 + r.val, he⟩ rfl, blk_agent V c t r _ ⟨t.val * 10000 + r.val, he⟩ rfl, blk_ctx V c t r _ ⟨t.val * 10000 + r.val, he⟩ rfl,
    blk_p3, blk_p4, blk_p5, blk_p6, blk_p7, blk_p8, blk_p9, blk_p10, blk_p11, blk_p12, blk_p13, blk_p14]
  rfl

/-- The message array after the first kernel call: every edge's message. -/
theorem final0 (c : Dev nD) : (dat0 V c).arrAt 15 cfg0.N = msgOf V c :=
  (dat0 V c).arrAt_eq_of_cover 15 (msgOf V c) (fun t _ => flushed_eq V c t) cover

end Cert.EdgeArray

end
-- ==== Proof.KernelAgent.lean ====
/- The agent kernel's body at one entry of its output block: one agent's new row.

   The stored value is the agent's projected row plus its summed messages, normalised, positive part, through a second
   matrix, normalised, the old row added back, positive part. -/
import proofs.«101233_j87411174408394_2_alg».proof.Proof.KernelOps
import proofs.«101233_j87411174408394_2_alg».proof.Proof.Gen.KernelIdeal.Frame

noncomputable section

namespace Cert.KernelRows

open Idealize.ShloMosaic Idealize.ShloMosaic.ValueIdx Cert.KernelIdeal Cert.KernelIdeal.Gen

/-! The payloads as compositions of the row operations. -/

theorem k1pay2_eq (v0 : Vec Ideal S10000x128 .f32) (v2 : Vec Ideal S128x128 .bf16) (v5 : Vec Ideal S10000x128 .f32) (v8 v10 : Vec Ideal S1x128 .f32) :
    k1_pay2 (F := Ideal) v0 v2 v5 v8 v10
      = truncf .bf16 (posVec (normVec
          (addf (matmul128 (truncf .bf16 v0 bitsLt_bf16_f32) (shapeCast S128x128 v2 shapeCasts_S128x128_S128x128))
            (shapeCast S10000x128 v5 shapeCasts_S10000x128_S10000x128))
          (shapeCast S1x128 v8 shapeCasts_S1x128_S1x128) (shapeCast S1x128 v10 shapeCasts_S1x128_S1x128))) bitsLt_bf16_f32 := rfl

theorem k1pay1_eq (v0 : Vec Ideal S10000x128 .f32) (v36 : FVec Ideal S10000x128 .bf16) (v38 : FVec Ideal S128x128 .bf16) (v40 v42 : Vec Ideal S1x128 .f32) :
    k1_pay1 (F := Ideal) v0 v36 v38 (constant S10000x128 .f32 0x00000000#32) v40 v42
      = posVec (addf (normVec (matmul128 v36 v38) (shapeCast S1x128 v40 shapeCasts_S1x128_S1x128) (shapeCast S1x128 v42 shapeCasts_S1x128_S1x128)) v0) := rfl

/-! The payloads read at an entry. -/

theorem k1pay3_eq (v : Vec Ideal S128x128 .bf16) : k1_pay3 (F := Ideal) v = v := shapeCast_self v _

theorem k1pay2_apply (v0 : Vec Ideal S10000x128 .f32) (v2 : Vec Ideal S128x128 .bf16) (v5 : Vec Ideal S10000x128 .f32)
    (v8 v10 : Vec Ideal S1x128 .f32) (r : Fin 10000) (j : Fin 128) :
    k1_pay2 (F := Ideal) v0 v2 v5 v8 v10 (ix2 r j)
      = RowMath.pos (RowMath.rowNorm
          (fun i => RowMath.rowMat (fun k => v0 (ix2 r k)) (fun k j => v2 (ix2 k j)) i + v5 (ix2 r i))
          (fun k => v8 (ix2 (0 : Fin 1) k)) (fun k => v10 (ix2 (0 : Fin 1) k)) j) := by
  rw [k1pay2_eq, truncf_apply, posVec_apply, normVec_apply]
  simp only [addf_apply, matmul128_apply, truncf_apply, shapeCast_self]

theorem k1pay1_apply (v0 : Vec Ideal S10000x128 .f32) (v36 : FVec Ideal S10000x128 .bf16) (v38 : FVec Ideal S128x128 .bf16)
    (v40 v42 : Vec Ideal S1x128 .f32) (r : Fin 10000) (j : Fin 128) :
    k1_pay1 (F := Ideal) v0 v36 v38 (constant S10000x128 .f32 0x00000000#32) v40 v42 (ix2 r j)
      = RowMath.pos (RowMath.rowNorm (RowMath.rowMat (fun k => v36 (ix2 r k)) (fun k j => v38 (ix2 k j)))
          (fun k => v40 (ix2 (0 : Fin 1) k)) (fun k => v42 (ix2 (0 : Fin 1) k)) j + v0 (ix2 r j)) := by
  rw [k1pay1_eq, posVec_apply, addf_apply, normVec_apply]
  simp only [matmul128_apply, shapeCast_self]

/-! The body. -/

theorem agent_core (x0 x1 : Vec Ideal S10000x128 .f32) (x2 : Vec Ideal S128x128 .bf16) (x3 x4 : Vec Ideal S1x128 .f32)
    (x5 : Vec Ideal S128x128 .bf16) (x6 x7 : Vec Ideal S1x128 .f32) (r : Fin 10000) (j : Fin 128) :
    k1_pay1 (F := Ideal) x0 (k1_pay2 x0 x2 x1 x3 x4) (k1_pay3 x5) (constant S10000x128 .f32 0x00000000#32) x6 x7 (ix2 r j)
      = RowMath.agentOut (fun k => x0 (ix2 r k)) (fun k => x1 (ix2 r k)) (fun k j => x2 (ix2 k j)) (fun j => x3 (ix2 0 j))
          (fun j => x4 (ix2 0 j)) (fun k j => x5 (ix2 k j)) (fun j => x6 (ix2 0 j)) (fun j => x7 (ix2 0 j)) j := by
  rw [k1pay1_apply, k1pay3_eq]
  simp only [k1pay2_apply]
  rfl

/-- What the agent kernel's body leaves at row r, column j of its output block: the agent's new row from its old
    row and its summed messages. -/
theorem agent_rows (x0 x1 : Vec Ideal S10000x128 .f32) (x2 : Vec Ideal S128x128 .bf16) (x3 x4 : Vec Ideal S1x128 .f32)
    (x5 : Vec Ideal S128x128 .bf16) (x6 x7 : Vec Ideal S1x128 .f32) (r : Fin 10000) (j : Fin 128) :
    Cert.KernelIdeal.Gen.out1_8 (F := Ideal) x0 x1 x2 x3 x4 x5 x6 x7 (ix2 r j)
      = RowMath.agentOut (fun k => x0 (ix2 r k)) (fun k => x1 (ix2 r k)) (fun k j => x2 (ix2 k j)) (fun j => x3 (ix2 0 j))
          (fun j => x4 (ix2 0 j)) (fun k j => x5 (ix2 k j)) (fun j => x6 (ix2 0 j)) (fun j => x7 (ix2 0 j)) j := by
  unfold out1_8
  rw [View.canon_unit_zero zeroOffsets]
  simp only [View.ld_unit_zero (S := S10000x128) zeroOffsets, View.ld_unit_zero (S := S1x128) zeroOffsets,
    View.ld_unit_zero (S := S128x128) zeroOffsets]
  exact agent_core x0 x1 x2 x3 x4 x5 x6 x7 r j

end Cert.KernelRows

end
-- ==== Proof.AgentArray.lean ====
/- From the per-agent kernel's blocks to the result array.

   The per-agent kernel runs over 10 grid points. At point t its two moving input windows hold rows
   10000 t … 10000 t + 9999 of the agents' features and of the summed messages; its six parameter windows hold their
   whole arrays at every point; it writes back rows 10000 t … 10000 t + 9999 of the result. Row r of what it writes is
   the new row of agent 10000 t + r, so the 10 write-backs tile the result array. -/
import proofs.«101233_j87411174408394_2_alg».proof.Proof.Gen.KernelIdeal.Frame
import proofs.«101233_j87411174408394_2_alg».proof.Proof.RowMath
import proofs.«101233_j87411174408394_2_alg».proof.Proof.KernelAgent
import Idealize.ShloMosaic.Lib.Pipeline.Value
import Idealize.ShloMosaic.Lib.ValueIdx

set_option maxRecDepth 16384

noncomputable section

namespace Cert.AgentArray

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The result array as a function of the contents the second kernel call finds: at (n, j), entry j of agent n's
    new row, built from row n of the agents' features and row n of the summed messages. -/
def outOf (c : Dev nD) : S100000x128.Idx → EReal := fun i =>
  RowMath.agentOut
    (fun k => (V c main_arg0 : S100000x128.Idx → EReal) (ix2 (i 0) k))
    (fun k => (V c main_v51 : S100000x128.Idx → EReal) (ix2 (i 0) k))
    (fun k j => (V c main_v52 : S128x128.Idx → EReal) (ix2 k j))
    (fun j => (V c main_v53 : S1x128.Idx → EReal) (ix2 0 j))
    (fun j => (V c main_v54 : S1x128.Idx → EReal) (ix2 0 j))
    (fun k j => (V c main_v55 : S128x128.Idx → EReal) (ix2 k j))
    (fun j => (V c main_v56 : S1x128.Idx → EReal) (ix2 0 j))
    (fun j => (V c main_v57 : S1x128.Idx → EReal) (ix2 0 j))
    (i 1)

/-- The printed index maps over the grid: the two moving inputs and the output sit at block (t, 0), the six
    parameters at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0 :=
  (by decide +kernel : ∀ t : Fin grid1.N, _)

theorem idx_params : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Row r of the agents' block at point t is row 10000 t + r of the agents' features. -/
theorem blk_agents (c : Dev nD) (t : Fin cfg1.N) (r : Fin 10000) (k : Fin 128) (n : Fin 100000) (hn : n.val = t.val * 10000 + r.val) :
    (iblk1 V c 0 t : Vec Ideal S10000x128 .f32) (ix2 r k) = (V c main_arg0 : S100000x128.Idx → EReal) (ix2 n k) := by
  obtain ⟨e0, e1, -⟩ := idx_facts t
  unfold iblk1
  rw [View.read_apply]
  show (V c main_arg0 : S100000x128.Idx → EReal) _ = (V c main_arg0 : S100000x128.Idx → EReal) _
  refine congrArg _ ?_
  funext a; apply Fin.ext
  match a with
  | ⟨0, _⟩ => show win1_0.index t (0 : Fin 2) * 10000 + 1 * r.val = n.val; rw [e0, hn]; omega
  | ⟨1, _⟩ => show win1_0.index t (1 : Fin 2) * 128 + 1 * k.val = k.val; rw [e1]; omega

/-- Row r of the summed messages' block at point t is row 10000 t + r of the summed messages. -/
theorem blk_sums (c : Dev nD) (t : Fin cfg1.N) (r : Fin 10000) (k : Fin 128) (n : Fin 100000) (hn : n.val = t.val * 10000 + r.val) :
    (iblk1 V c 1 t : Vec Ideal S10000x128 .f32) (ix2 r k) = (V c main_v51 : S100000x128.Idx → EReal) (ix2 n k) := by
  obtain ⟨-, -, e0, e1, -⟩ := idx_facts t
  unfold iblk1
  rw [View.read_apply]
  show (V c main_v51 : S100000x128.Idx → EReal) _ = (V c main_v51 : S100000x128.Idx → EReal) _
  refine congrArg _ ?_
  funext a; apply Fin.ext
  match a with
  | ⟨0, _⟩ => show win1_1.index t (0 : Fin 2) * 10000 + 1 * r.val = n.val; rw [e0, hn]; omega
  | ⟨1, _⟩ => show win1_1.index t (1 : Fin 2) * 128 + 1 * k.val = k.val; rw [e1]; omega

/-- Parameter window 2 holds its whole array at every point. -/
theorem blk_p2 (c : Dev nD) (t : Fin cfg1.N) (k : Fin 128) (j : Fin 128) :
    (iblk1 V c 2 t : Vec Ideal S128x128 .bf16) (ix2 k j) = (V c main_v52 : S128x128.Idx → EReal) (ix2 k j) := by
  obtain ⟨⟨e0, e1⟩, -⟩ := idx_params t
  unfold iblk1
  rw [View.read_apply]
  show (V c main_v52 : S128x128.Idx → EReal) _ = (V c main_v52 : S128x128.Idx → EReal) _
  refine congrArg _ ?_
  funext a; apply Fin.ext
  match a with
  | ⟨0, _⟩ => show win1_2.index t (0 : Fin 2) * 128 + 1 * k.val = k.val; rw [e0]; omega
  | ⟨1, _⟩ => show win1_2.index t (1 : Fin 2) * 128 + 1 * j.val = j.val; rw [e1]; omega

/-- Parameter window 3 holds its whole array at every point. -/
theorem blk_p3 (c : Dev nD) (t : Fin cfg1.N) (k : Fin 1) (j : Fin 128) :
    (iblk1 V c 3 t : Vec Ideal S1x128 .f32) (ix2 k j) = (V c main_v53 : S1x128.Idx → EReal) (ix2 k j) := by
  obtain ⟨-, ⟨e0, e1⟩, -⟩ := idx_params t
  unfold iblk1
  rw [View.read_apply]
  show (V c main_v53 : S1x128.Idx → EReal) _ = (V c main_v53 : S1x128.Idx → EReal) _
  refine congrArg _ ?_
  funext a; apply Fin.ext
  match a with
  | ⟨0, _⟩ => show win1_3.index t (0 : Fin 2) * 1 + 1 * k.val = k.val; rw [e0]; omega
  | ⟨1, _⟩ => show win1_3.index t (1 : Fin 2) * 128 + 1 * j.val = j.val; rw [e1]; omega

/-- Parameter window 4 holds its whole array at every point. -/
theorem blk_p4 (c : Dev nD) (t : Fin cfg1.N) (k : Fin 1) (j : Fin 128) :
    (iblk1 V c 4 t : Vec Ideal S1x128 .f32) (ix2 k j) = (V c main_v54 : S1x128.Idx → EReal) (ix2 k j) := by
  obtain ⟨-, -, ⟨e0, e1⟩, -⟩ := idx_params t
  unfold iblk1
  rw [View.read_apply]
  show (V c main_v54 : S1x128.Idx → EReal) _ = (V c main_v54 : S1x128.Idx → EReal) _
  refine congrArg _ ?_
  funext a; apply Fin.ext
  match a with
  | ⟨0, _⟩ => show win1_4.index t (0 : Fin 2) * 1 + 1 * k.val = k.val; rw [e0]; omega
  | ⟨1, _⟩ => show win1_4.index t (1 : Fin 2) * 128 + 1 * j.val = j.val; rw [e1]; omega

/-- Parameter window 5 holds its whole array at every point. -/
theorem blk_p5 (c : Dev nD) (t : Fin cfg1.N) (k : Fin 128) (j : Fin 128) :
    (iblk1 V c 5 t : Vec Ideal S128x128 .bf16) (ix2 k j) = (V c main_v55 : S128x128.Idx → EReal) (ix2 k j) := by
  obtain ⟨-, -, -, ⟨e0, e1⟩, -⟩ := idx_params t
  unfold iblk1
  rw [View.read_apply]
  show (V c main_v55 : S128x128.Idx → EReal) _ = (V c main_v55 : S128x128.Idx → EReal) _
  refine congrArg _ ?_
  funext a; apply Fin.ext
  match a with
  | ⟨0, _⟩ => show win1_5.index t (0 : Fin 2) * 128 + 1 * k.val = k.val; rw [e0]; omega
  | ⟨1, _⟩ => show win1_5.index t (1 : Fin 2) * 128 + 1 * j.val = j.val; rw [e1]; omega

/-- Parameter window 6 holds its whole array at every point. -/
theorem blk_p6 (c : Dev nD) (t : Fin cfg1.N) (k : Fin 1) (j : Fin 128) :
    (iblk1 V c 6 t : Vec Ideal S1x128 .f32) (ix2 k j) = (V c main_v56 : S1x128.Idx → EReal) (ix2 k j) := by
  obtain ⟨-, -, -, -, ⟨e0, e1⟩, -⟩ := idx_params t
  unfold iblk1
  rw [View.read_apply]
  show (V c main_v56 : S1x128.Idx → EReal) _ = (V c main_v56 : S1x128.Idx → EReal) _
  refine congrArg _ ?_
  funext a; apply Fin.ext
  match a with
  | ⟨0, _⟩ => show win1_6.index t (0 : Fin 2) * 1 + 1 * k.val = k.val; rw [e0]; omega
  | ⟨1, _⟩ => show win1_6.index t (1 : Fin 2) * 128 + 1 * j.val = j.val; rw [e1]; omega

/-- Parameter window 7 holds its whole array at every point. -/
theorem blk_p7 (c : Dev nD) (t : Fin cfg1.N) (k : Fin 1) (j : Fin 128) :
    (iblk1 V c 7 t : Vec Ideal S1x128 .f32) (ix2 k j) = (V c main_v57 : S1x128.Idx → EReal) (ix2 k j) := by
  obtain ⟨-, -, -, -, -, ⟨e0, e1⟩⟩ := idx_params t
  unfold iblk1
  rw [View.read_apply]
  show (V c main_v57 : S1x128.Idx → EReal) _ = (V c main_v57 : S1x128.Idx → EReal) _
  refine congrArg _ ?_
  funext a; apply Fin.ext
  match a with
  | ⟨0, _⟩ => show win1_7.index t (0 : Fin 2) * 1 + 1 * k.val = k.val; rw [e0]; omega
  | ⟨1, _⟩ => show win1_7.index t (1 : Fin 2) * 128 + 1 * j.val = j.val; rw [e1]; omega

/-- An index of the result array is in point t's block iff each coordinate is in the block's range. -/
theorem mem_blk (t : Fin cfg1.N) (i : S100000x128.Idx) :
    i ∈ ((cfg1.win 8).blk t).view.set ↔ ∀ a : Fin 2, win1_8.index t a * S10000x128.size a ≤ (i a).val ∧ (i a).val < win1_8.index t a * S10000x128.size a + S10000x128.size a := by
  show i ∈ ((View.whole main_v58).slice (win1_8.rect t)).set ↔ _
  rw [View.set_slice_whole, Rect.mem_set_unit]
  exact Iff.rfl

/-- Row n of the result lies in the block written at point n / 10000. -/
theorem cover (i : S100000x128.Idx) : ∃ t : Fin cfg1.N, (cfg1.win 8).flush t = true ∧ i ∈ ((cfg1.win 8).blk t).view.set := by
  have hN : cfg1.N = 10 := N_1
  have hi0 : (i 0).val < 100000 := (i 0).isLt
  have hi1 : (i 1).val < 128 := (i 1).isLt
  have ht : (i 0).val / 10000 < cfg1.N := by rw [hN]; omega
  obtain ⟨-, -, -, -, e0, e1⟩ := idx_facts ⟨(i 0).val / 10000, ht⟩
  refine ⟨⟨(i 0).val / 10000, ht⟩, flush1_8 _, ?_⟩
  rw [mem_blk]
  intro a
  match a with
  | ⟨0, _⟩ =>
    show win1_8.index ⟨(i 0).val / 10000, ht⟩ (0 : Fin 2) * 10000 ≤ (i 0).val ∧ (i 0).val < win1_8.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_8.index ⟨(i 0).val / 10000, ht⟩ (1 : Fin 2) * 128 ≤ (i 1).val ∧ (i 1).val < win1_8.index ⟨(i 0).val / 10000, ht⟩ (1 : Fin 2) * 128 + 128
    rw [e1]; omega

/-- What point t writes back is block t of the result array. -/
theorem flushed_eq (c : Dev nD) (t : Fin cfg1.N) :
    (dat1 V c).flushed 8 t = ((cfg1.win 8).blk t).view.read (Elt Ideal) (outOf V c) := by
  show (cfg1.win 8).cut (grid1.coords t) ((dat1 V c).after 8 t) = _
  rw [after1_8]
  funext y
  obtain ⟨r, j, rfl⟩ : ∃ (r : Fin 10000) (j : Fin 128), y = ix2 r j := ⟨y 0, y 1, eq_ix2 y⟩
  have hN : cfg1.N = 10 := N_1
  have ht : t.val < 10 := hN ▸ t.isLt
  obtain ⟨-, -, -, -, e0, e1⟩ := idx_facts t
  have he : t.val * 10000 + r.val < 100000 := by have := r.isLt; omega
  have hemb : ((cfg1.win 8).blk t).view.emb (ix2 r j) = ix2 (⟨t.val * 10000 + r.val, he⟩ : Fin 100000) j := by
    funext a; apply Fin.ext
    match a with
    | ⟨0, _⟩ => show win1_8.index t (0 : Fin 2) * 10000 + 1 * r.val = t.val * 10000 + r.val; rw [e0]; omega
    | ⟨1, _⟩ => show win1_8.index t (1 : Fin 2) * 128 + 1 * j.val = j.val; rw [e1]; omega
  rw [View.read_apply, hemb]
  refine (Cert.KernelRows.agent_rows (iblk1 V c 0 t) (iblk1 V c 1 t) (iblk1 V c 2 t) (iblk1 V c 3 t) (iblk1 V c 4 t) (iblk1 V c 5 t) (iblk1 V c 6 t) (iblk1 V c 7 t) r j).trans ?_
  unfold outOf
  simp only [blk_agents V c t r _ ⟨t.val * 10000 + r.val, he⟩ rfl, blk_sums V c t r _ ⟨t.val * 10000 + r.val, he⟩ rfl,
    blk_p2, blk_p3, blk_p4, blk_p5, blk_p6, blk_p7]
  rfl

/-- The result array after the run: every agent's new row. -/
theorem final1 (c : Dev nD) : (dat1 V c).arrAt 8 cfg1.N = outOf V c :=
  (dat1 V c).arrAt_eq_of_cover 8 (outOf V c) (fun t _ => flushed_eq V c t) cover

end Cert.AgentArray

end
-- ==== Proof.KernelHost.lean ====
/- What the host operations of the idealized kernel's @main leave in the buffers the two kernel calls read.

   Before the first call: the index lists are normalised (a negative index has the axis length added), rows of the
   agents' features, of the contexts' features and of both centre arrays are gathered by them, the two gathered centre
   arrays are subtracted; each vector parameter is recast as a one-row matrix; a change of float format is the
   identity on extended reals. Between the calls: the messages are scatter-added by the normalised agent index into
   an array of zeros. -/
import proofs.«101233_j87411174408394_2_alg».proof.Proof.Gen.KernelIdeal.Frame
import proofs.«101233_j87411174408394_2_alg».proof.Proof.RowMath
import proofs.«101233_j87411174408394_2_alg».proof.Proof.EdgeArray
import proofs.«101233_j87411174408394_2_alg».proof.Proof.AgentArray
import Idealize.ShloMosaic.PureOps.Ideal.Laws
import Idealize.ShloMosaic.Lib.StableHlo.Run
import Idealize.ShloMosaic.Lib.Pipeline.Value
import Idealize.ShloMosaic.Lib.ValueIdx

set_option maxRecDepth 16384

noncomputable section

namespace Cert.KernelHost

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- An index list with the axis length N added to its negative entries, as a column. -/
def normIdx (N : BitVec 32) (x : S500000.Idx → BitVec 32) : S500000x1.Idx → BitVec 32 :=
  broadcastInDim S500000x1 ![0] bcast_S500000_S500000x1_0
    (select (cmpi CmpIPredicate.slt x (broadcastInDim S500000 ![] bcast_S_S500000 (constantI S_ 32 0#32)))
      (addi x (broadcastInDim S500000 ![] bcast_S_S500000 (constantI S_ 32 N))) x)

/-- The displacement of each edge: the agent's centre minus the context's centre. -/
def disp (a2 : S100000x2.Idx → EReal) (a3 : S150000x2.Idx → EReal) (hi wi : S500000.Idx → BitVec 32) : S500000x2.Idx → EReal :=
  subf (F := Ideal) (φ := .f32) (Host.gather gather_S100000x2_S500000x1_S500000x2_1_0_n_n_0_1_12 a2 (normIdx 100000#32 hi))
    (Host.gather gather_S150000x2_S500000x1_S500000x2_1_0_n_n_0_1_12 a3 (normIdx 150000#32 wi))

/-- Each edge's agent row. -/
def agtRows (a0 : S100000x128.Idx → EReal) (hi : S500000.Idx → BitVec 32) : S500000x128.Idx → EReal :=
  Host.gather gather_S100000x128_S500000x1_S500000x128_1_0_n_n_0_1_1128 a0 (normIdx 100000#32 hi)

/-- Each edge's context row. -/
def ctxRows (a1 : S150000x128.Idx → EReal) (wi : S500000.Idx → BitVec 32) : S500000x128.Idx → EReal :=
  Host.gather gather_S150000x128_S500000x1_S500000x128_1_0_n_n_0_1_1128 a1 (normIdx 150000#32 wi)

theorem V1_v30 (c : Dev nD) : (V1 m ρ c main_v30 : S500000x2.Idx → EReal)
    = disp (m ((c : Thread nD τ).loc main_arg2)) (m ((c : Thread nD τ).loc main_arg3)) (m ((c : Thread nD τ).loc main_arg22)) (m ((c : Thread nD τ).loc main_arg23)) := by
  unfold V1 W1
  after_results_simp
  rfl

theorem V1_v8 (c : Dev nD) : (V1 m ρ c main_v8 : S500000x128.Idx → EReal)
    = agtRows (m ((c : Thread nD τ).loc main_arg0)) (m ((c : Thread nD τ).loc main_arg22)) := by
  unfold V1 W1
  after_results_simp
  rfl

theorem V1_v15 (c : Dev nD) : (V1 m ρ c main_v15 : S500000x128.Idx → EReal)
    = ctxRows (m ((c : Thread nD τ).loc main_arg1)) (m ((c : Thread nD τ).loc main_arg23)) := by
  unfold V1 W1
  after_results_simp
  rfl

/-- A vector recast as a one-row matrix, read at (0, j), is the vector at j. -/
theorem row_cast (x : S128.Idx → EReal) (h : S128.ShapeCasts S1x128) (j : Fin 128) :
    shapeCast S1x128 x h (ix2 0 j) = x (ix1 j) :=
  (shapeCast_addUnit_apply (n := 1) ![128] x h (ix2 0 j)).trans
    (congrArg x (funext fun a => by match a with | ⟨0, _⟩ => rfl))

theorem V1_arg4 (c : Dev nD) : (V1 m ρ c main_arg4 : S2x128.Idx → EReal) = (m ((c : Thread nD τ).loc main_arg4)) := by
  unfold V1 W1
  after_results_simp <;> rfl

theorem V1_v31 (c : Dev nD) (j : Fin 128) : (V1 m ρ c main_v31 : S1x128.Idx → EReal) (ix2 0 j) = ((m ((c : Thread nD τ).loc main_arg5)) : S128.Idx → EReal) (ix1 j) := by
  unfold V1 W1
  after_results_simp
  exact row_cast _ _ j

theorem V1_v33 (c : Dev nD) (j : Fin 128) : (V1 m ρ c main_v33 : S1x128.Idx → EReal) (ix2 0 j) = ((m ((c : Thread nD τ).loc main_arg7)) : S128.Idx → EReal) (ix1 j) := by
  unfold V1 W1
  after_results_simp
  exact row_cast _ _ j

theorem V1_v34 (c : Dev nD) (j : Fin 128) : (V1 m ρ c main_v34 : S1x128.Idx → EReal) (ix2 0 j) = ((m ((c : Thread nD τ).loc main_arg8)) : S128.Idx → EReal) (ix1 j) := by
  unfold V1 W1
  after_results_simp
  exact row_cast _ _ j

theorem V1_v36 (c : Dev nD) (j : Fin 128) : (V1 m ρ c main_v36 : S1x128.Idx → EReal) (ix2 0 j) = ((m ((c : Thread nD τ).loc main_arg10)) : S128.Idx → EReal) (ix1 j) := by
  unfold V1 W1
  after_results_simp
  exact row_cast _ _ j

theorem V1_v37 (c : Dev nD) (j : Fin 128) : (V1 m ρ c main_v37 : S1x128.Idx → EReal) (ix2 0 j) = ((m ((c : Thread nD τ).loc main_arg11)) : S128.Idx → EReal) (ix1 j) := by
  unfold V1 W1
  after_results_simp
  exact row_cast _ _ j

theorem V1_v39 (c : Dev nD) (j : Fin 128) : (V1 m ρ c main_v39 : S1x128.Idx → EReal) (ix2 0 j) = ((m ((c : Thread nD τ).loc main_arg13)) : S128.Idx → EReal) (ix1 j) := by
  unfold V1 W1
  after_results_simp
  exact row_cast _ _ j

theorem V1_v40 (c : Dev nD) (j : Fin 128) : (V1 m ρ c main_v40 : S1x128.Idx → EReal) (ix2 0 j) = ((m ((c : Thread nD τ).loc main_arg14)) : S128.Idx → EReal) (ix1 j) := by
  unfold V1 W1
  after_results_simp
  exact row_cast _ _ j

theorem V1_v32 (c : Dev nD) : (V1 m ρ c main_v32 : S128x128.Idx → EReal) = ((m ((c : Thread nD τ).loc main_arg6)) : S128x128.Idx → EReal) := by
  unfold V1 W1
  after_results_simp <;> rfl

theorem V1_v35 (c : Dev nD) : (V1 m ρ c main_v35 : S128x128.Idx → EReal) = ((m ((c : Thread nD τ).loc main_arg9)) : S128x128.Idx → EReal) := by
  unfold V1 W1
  after_results_simp <;> rfl

theorem V1_v38 (c : Dev nD) : (V1 m ρ c main_v38 : S384x128.Idx → EReal) = ((m ((c : Thread nD τ).loc main_arg12)) : S384x128.Idx → EReal) := by
  unfold V1 W1
  after_results_simp <;> rfl

theorem V1_v41 (c : Dev nD) : (V1 m ρ c main_v41 : S128x128.Idx → EReal) = ((m ((c : Thread nD τ).loc main_arg15)) : S128x128.Idx → EReal) := by
  unfold V1 W1
  after_results_simp <;> rfl

/-! ## Between the calls -/

theorem W2_arg0 (c : Dev nD) : W2 m ρ c (Proc.devRef .tc main_arg0) = m ((c : Thread nD τ).loc main_arg0) := by
  refine (W2_of_ne m ρ c main_arg0 (by decide)).trans ?_
  unfold W1
  after_results_simp <;> rfl

theorem W2_arg16 (c : Dev nD) : W2 m ρ c (Proc.devRef .tc main_arg16) = m ((c : Thread nD τ).loc main_arg16) := by
  refine (W2_of_ne m ρ c main_arg16 (by decide)).trans ?_
  unfold W1
  after_results_simp <;> rfl

theorem W2_arg17 (c : Dev nD) : W2 m ρ c (Proc.devRef .tc main_arg17) = m ((c : Thread nD τ).loc main_arg17) := by
  refine (W2_of_ne m ρ c main_arg17 (by decide)).trans ?_
  unfold W1
  after_results_simp <;> rfl

theorem W2_arg18 (c : Dev nD) : W2 m ρ c (Proc.devRef .tc main_arg18) = m ((c : Thread nD τ).loc main_arg18) := by
  refine (W2_of_ne m ρ c main_arg18 (by decide)).trans ?_
  unfold W1
  after_results_simp <;> rfl

theorem W2_arg19 (c : Dev nD) : W2 m ρ c (Proc.devRef .tc main_arg19) = m ((c : Thread nD τ).loc main_arg19) := by
  refine (W2_of_ne m ρ c main_arg19 (by decide)).trans ?_
  unfold W1
  after_results_simp <;> rfl

theorem W2_arg20 (c : Dev nD) : W2 m ρ c (Proc.devRef .tc main_arg20) = m ((c : Thread nD τ).loc main_arg20) := by
  refine (W2_of_ne m ρ c main_arg20 (by decide)).trans ?_
  unfold W1
  after_results_simp <;> rfl

theorem W2_arg21 (c : Dev nD) : W2 m ρ c (Proc.devRef .tc main_arg21) = m ((c : Thread nD τ).loc main_arg21) := by
  refine (W2_of_ne m ρ c main_arg21 (by decide)).trans ?_
  unfold W1
  after_results_simp <;> rfl

theorem W2_arg22 (c : Dev nD) : W2 m ρ c (Proc.devRef .tc main_arg22) = m ((c : Thread nD τ).loc main_arg22) := by
  refine (W2_of_ne m ρ c main_arg22 (by decide)).trans ?_
  unfold W1
  after_results_simp <;> rfl

theorem V3_arg0 (c : Dev nD) : (V3 m ρ c main_arg0 : S100000x128.Idx → EReal) = (m ((c : Thread nD τ).loc main_arg0)) := by
  unfold V3 W3
  after_results_simp
  exact W2_arg0 m ρ c

theorem V3_v52 (c : Dev nD) : (V3 m ρ c main_v52 : S128x128.Idx → EReal) = ((m ((c : Thread nD τ).loc main_arg16)) : S128x128.Idx → EReal) := by
  unfold V3 W3
  after_results_simp
  rw [W2_arg16 m ρ c]
  rfl

theorem V3_v55 (c : Dev nD) : (V3 m ρ c main_v55 : S128x128.Idx → EReal) = ((m ((c : Thread nD τ).loc main_arg19)) : S128x128.Idx → EReal) := by
  unfold V3 W3
  after_results_simp
  rw [W2_arg19 m ρ c]
  rfl

theorem V3_v53 (c : Dev nD) (j : Fin 128) : (V3 m ρ c main_v53 : S1x128.Idx → EReal) (ix2 0 j) = ((m ((c : Thread nD τ).loc main_arg17)) : S128.Idx → EReal) (ix1 j) := by
  unfold V3 W3
  after_results_simp
  rw [W2_arg17 m ρ c]
  exact row_cast _ _ j

theorem V3_v54 (c : Dev nD) (j : Fin 128) : (V3 m ρ c main_v54 : S1x128.Idx → EReal) (ix2 0 j) = ((m ((c : Thread nD τ).loc main_arg18)) : S128.Idx → EReal) (ix1 j) := by
  unfold V3 W3
  after_results_simp
  rw [W2_arg18 m ρ c]
  exact row_cast _ _ j

theorem V3_v56 (c : Dev nD) (j : Fin 128) : (V3 m ρ c main_v56 : S1x128.Idx → EReal) (ix2 0 j) = ((m ((c : Thread nD τ).loc main_arg20)) : S128.Idx → EReal) (ix1 j) := by
  unfold V3 W3
  after_results_simp
  rw [W2_arg20 m ρ c]
  exact row_cast _ _ j

theorem V3_v57 (c : Dev nD) (j : Fin 128) : (V3 m ρ c main_v57 : S1x128.Idx → EReal) (ix2 0 j) = ((m ((c : Thread nD τ).loc main_arg21)) : S128.Idx → EReal) (ix1 j) := by
  unfold V3 W3
  after_results_simp
  rw [W2_arg21 m ρ c]
  exact row_cast _ _ j

/-- The summed messages the second call finds: at (n, k), the sum over the edge-message entries that the normalised
    agent index sends to (n, k) — the scatter starts from zeros, and a zero in front of a sum changes nothing. -/
theorem V3_v51 (c : Dev nD) (i : S100000x128.Idx) : (V3 m ρ c main_v51 : S100000x128.Idx → EReal) i
    = ∑ u ∈ Finset.univ.filter (fun u => scatter_S100000x128_S500000x1_S500000x128_1_0_0_1.resultIdx? u (normIdx 100000#32 (m ((c : Thread nD τ).loc main_arg22))) = some i),
        EdgeArray.msgOf (V1 m ρ) c u := by
  have h : (V3 m ρ c main_v51 : S100000x128.Idx → EReal)
      = Host.scatterAdd (F := Ideal) (φ := .f32) scatter_S100000x128_S500000x1_S500000x128_1_0_0_1
          (broadcastInDim S100000x128 ![] bcast_S_S100000x128 (constant (F := Ideal) S_ .f32 0x00000000#32))
          (normIdx 100000#32 (m ((c : Thread nD τ).loc main_arg22)))
          (EdgeArray.msgOf (V1 m ρ) c) := by
    unfold V3 W3
    after_results_simp
    rw [W2_arg22 m ρ c, show W2 m ρ c (Proc.devRef .tc main_v42) = (dat0 (V1 m ρ) c).arrAt 15 cfg0.N from W2_arr m ρ c 15, EdgeArray.final0 (V1 m ρ) c]
    rfl
  rw [h]
  show Ideal.ofBits .f32 0x00000000#32 + _ = _
  rw [Ideal.ofBits_zero_f32, zero_add]

/-- The message array in terms of the arguments. -/
theorem msgOf_V1 (c : Dev nD) (u : S500000x128.Idx) : EdgeArray.msgOf (V1 m ρ) c u
    = RowMath.edgeMsg
        (fun k => disp (m ((c : Thread nD τ).loc main_arg2)) (m ((c : Thread nD τ).loc main_arg3)) (m ((c : Thread nD τ).loc main_arg22)) (m ((c : Thread nD τ).loc main_arg23)) (ix2 (u 0) k))
        (fun k => agtRows (m ((c : Thread nD τ).loc main_arg0)) (m ((c : Thread nD τ).loc main_arg22)) (ix2 (u 0) k))
        (fun k => ctxRows (m ((c : Thread nD τ).loc main_arg1)) (m ((c : Thread nD τ).loc main_arg23)) (ix2 (u 0) k))
        (fun k j => ((m ((c : Thread nD τ).loc main_arg4)) : S2x128.Idx → EReal) (ix2 k j)) (fun j => ((m ((c : Thread nD τ).loc main_arg5)) : S128.Idx → EReal) (ix1 j))
        (fun k j => ((m ((c : Thread nD τ).loc main_arg6)) : S128x128.Idx → EReal) (ix2 k j)) (fun j => ((m ((c : Thread nD τ).loc main_arg7)) : S128.Idx → EReal) (ix1 j)) (fun j => ((m ((c : Thread nD τ).loc main_arg8)) : S128.Idx → EReal) (ix1 j))
        (fun k j => ((m ((c : Thread nD τ).loc main_arg9)) : S128x128.Idx → EReal) (ix2 k j)) (fun j => ((m ((c : Thread nD τ).loc main_arg10)) : S128.Idx → EReal) (ix1 j)) (fun j => ((m ((c : Thread nD τ).loc main_arg11)) : S128.Idx → EReal) (ix1 j))
        (fun k j => ((m ((c : Thread nD τ).loc main_arg12)) : S384x128.Idx → EReal) (ix2 k j)) (fun j => ((m ((c : Thread nD τ).loc main_arg13)) : S128.Idx → EReal) (ix1 j)) (fun j => ((m ((c : Thread nD τ).loc main_arg14)) : S128.Idx → EReal) (ix1 j))
        (fun k j => ((m ((c : Thread nD τ).loc main_arg15)) : S128x128.Idx → EReal) (ix2 k j)) (u 1) := by
  unfold EdgeArray.msgOf
  simp only [V1_v30 m ρ c, V1_v8 m ρ c, V1_v15 m ρ c, V1_arg4 m ρ c, V1_v31 m ρ c, V1_v32 m ρ c, V1_v33 m ρ c, V1_v34 m ρ c, V1_v35 m ρ c,
    V1_v36 m ρ c, V1_v37 m ρ c, V1_v38 m ρ c, V1_v39 m ρ c, V1_v40 m ρ c, V1_v41 m ρ c]

/-- THE IDEALIZED KERNEL'S RESULT, entry by entry, as a function of its arguments. -/
theorem result_apply (c : Dev nD) (n : Fin 100000) (j : Fin 128) :
    (W4 m ρ c (Proc.devRef .tc main_v58) : S100000x128.Idx → EReal) (ix2 n j)
    = RowMath.agentOut (fun k => ((m ((c : Thread nD τ).loc main_arg0)) : S100000x128.Idx → EReal) (ix2 n k))
        (fun k => ∑ u ∈ Finset.univ.filter (fun u => scatter_S100000x128_S500000x1_S500000x128_1_0_0_1.resultIdx? u (normIdx 100000#32 (m ((c : Thread nD τ).loc main_arg22))) = some (ix2 n k)),
          RowMath.edgeMsg
            (fun k => disp (m ((c : Thread nD τ).loc main_arg2)) (m ((c : Thread nD τ).loc main_arg3)) (m ((c : Thread nD τ).loc main_arg22)) (m ((c : Thread nD τ).loc main_arg23)) (ix2 (u 0) k))
            (fun k => agtRows (m ((c : Thread nD τ).loc main_arg0)) (m ((c : Thread nD τ).loc main_arg22)) (ix2 (u 0) k))
            (fun k => ctxRows (m ((c : Thread nD τ).loc main_arg1)) (m ((c : Thread nD τ).loc main_arg23)) (ix2 (u 0) k))
            (fun k j => ((m ((c : Thread nD τ).loc main_arg4)) : S2x128.Idx → EReal) (ix2 k j)) (fun j => ((m ((c : Thread nD τ).loc main_arg5)) : S128.Idx → EReal) (ix1 j))
            (fun k j => ((m ((c : Thread nD τ).loc main_arg6)) : S128x128.Idx → EReal) (ix2 k j)) (fun j => ((m ((c : Thread nD τ).loc main_arg7)) : S128.Idx → EReal) (ix1 j)) (fun j => ((m ((c : Thread nD τ).loc main_arg8)) : S128.Idx → EReal) (ix1 j))
            (fun k j => ((m ((c : Thread nD τ).loc main_arg9)) : S128x128.Idx → EReal) (ix2 k j)) (fun j => ((m ((c : Thread nD τ).loc main_arg10)) : S128.Idx → EReal) (ix1 j)) (fun j => ((m ((c : Thread nD τ).loc main_arg11)) : S128.Idx → EReal) (ix1 j))
            (fun k j => ((m ((c : Thread nD τ).loc main_arg12)) : S384x128.Idx → EReal) (ix2 k j)) (fun j => ((m ((c : Thread nD τ).loc main_arg13)) : S128.Idx → EReal) (ix1 j)) (fun j => ((m ((c : Thread nD τ).loc main_arg14)) : S128.Idx → EReal) (ix1 j))
            (fun k j => ((m ((c : Thread nD τ).loc main_arg15)) : S128x128.Idx → EReal) (ix2 k j)) (u 1))
        (fun k j => ((m ((c : Thread nD τ).loc main_arg16)) : S128x128.Idx → EReal) (ix2 k j)) (fun j => ((m ((c : Thread nD τ).loc main_arg17)) : S128.Idx → EReal) (ix1 j)) (fun j => ((m ((c : Thread nD τ).loc main_arg18)) : S128.Idx → EReal) (ix1 j))
        (fun k j => ((m ((c : Thread nD τ).loc main_arg19)) : S128x128.Idx → EReal) (ix2 k j)) (fun j => ((m ((c : Thread nD τ).loc main_arg20)) : S128.Idx → EReal) (ix1 j)) (fun j => ((m ((c : Thread nD τ).loc main_arg21)) : S128.Idx → EReal) (ix1 j)) j := by
  rw [show W4 m ρ c (Proc.devRef .tc main_v58) = (dat1 (V3 m ρ) c).arrAt 8 cfg1.N from W4_arr m ρ c 8, AgentArray.final1 (V3 m ρ) c]
  unfold AgentArray.outOf
  simp only [V3_arg0 m ρ c, V3_v51 m ρ c, V3_v52 m ρ c, V3_v53 m ρ c, V3_v54 m ρ c, V3_v55 m ρ c, V3_v56 m ρ c, V3_v57 m ρ c, msgOf_V1 m ρ c]

end Cert.KernelHost

end
-- ==== Proof.RefEdge.lean ====
/- The reference program's edge message, row by row.

   For one edge e the reference computes, in order: the displacement of the two centres (2 numbers) through an
   affine map and the positive part, through a second matrix, normalised and the positive part again (the
   displacement's features); the agent's row through a matrix, normalised, positive part (the query); these two
   rows and the context's row laid end to end (384 numbers) through a matrix, normalised, positive part, and
   through a last matrix. Every stage below reads one operation of the reference at an entry (e, j) and names it
   as the row operation of Cert.RowMath that it is: a matrix product is a sum over the contracted coordinate, a
   normalisation reads the row's mean and variance (each a sum over the row's 128 entries divided by the width),
   and a concatenation along the row reads the piece that holds the coordinate. The last theorem chains them:
   the message at (e, j) is Cert.RowMath.edgeMsg of the edge's three input rows. -/
import proofs.«101233_j87411174408394_2_alg».proof.Proof.RowMath
import proofs.«101233_j87411174408394_2_alg».proof.Proof.RefRead

noncomputable section

namespace Cert.RefRows

open Cert.ReferenceIdeal Cert.ReferenceIdeal.Gen Cert.ReferenceIdeal.Read Cert.RowMath
open Idealize.ShloMosaic Idealize.ShloMosaic.TcCoe Idealize.SL.Sem Idealize.ShloMosaic.StableHlo Idealize.ShloMosaic.ValueIdx

variable (x0 : (⟨S100000x128, .f32⟩ : BufTy).Contents (Elt Ideal))
  (x1 : (⟨S150000x128, .f32⟩ : BufTy).Contents (Elt Ideal))
  (x2 : (⟨S100000x2, .f32⟩ : BufTy).Contents (Elt Ideal))
  (x3 : (⟨S150000x2, .f32⟩ : BufTy).Contents (Elt Ideal))
  (x4 : (⟨S2x128, .f32⟩ : BufTy).Contents (Elt Ideal))
  (x5 : (⟨S128, .f32⟩ : BufTy).Contents (Elt Ideal))
  (x6 : (⟨S128x128, .f32⟩ : BufTy).Contents (Elt Ideal))
  (x7 : (⟨S128, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))
  (x11 : (⟨S128, .f32⟩ : BufTy).Contents (Elt Ideal))
  (x12 : (⟨S384x128, .f32⟩ : BufTy).Contents (Elt Ideal))
  (x13 : (⟨S128, .f32⟩ : BufTy).Contents (Elt Ideal))
  (x14 : (⟨S128, .f32⟩ : BufTy).Contents (Elt Ideal))
  (x15 : (⟨S128x128, .f32⟩ : BufTy).Contents (Elt Ideal))
  (x16 : (⟨S128x128, .f32⟩ : BufTy).Contents (Elt Ideal))
  (x17 : (⟨S128, .f32⟩ : BufTy).Contents (Elt Ideal))
  (x18 : (⟨S128, .f32⟩ : BufTy).Contents (Elt Ideal))
  (x19 : (⟨S128x128, .f32⟩ : BufTy).Contents (Elt Ideal))
  (x20 : (⟨S128, .f32⟩ : BufTy).Contents (Elt Ideal))
  (x21 : (⟨S128, .f32⟩ : BufTy).Contents (Elt Ideal))
  (x22 : (⟨S500000, .i32⟩ : BufTy).Contents (Elt Ideal))
  (x23 : (⟨S500000, .i32⟩ : BufTy).Contents (Elt Ideal))

/-- A rank-2 index with known coordinates is the index built from them. -/
private theorem ix2_of {n0 n1 : Nat} (i : (⟨2, ![n0, n1]⟩ : Shape).Idx) (a : Fin n0) (b : Fin n1) (h0 : i 0 = a) (h1 : i 1 = b) :
    i = ix2 a b := by
  funext d
  match d with
  | ⟨0, _⟩ => exact h0
  | ⟨1, _⟩ => exact h1

/-- A rank-1 index with a known coordinate is the index built from it. -/
private theorem ix1_of {n : Nat} (i : (⟨1, ![n]⟩ : Shape).Idx) (a : Fin n) (h0 : i 0 = a) : i = ix1 a := by
  funext d
  match d with
  | ⟨0, _⟩ => exact h0

/-! ## The displacement's features -/

/-- The displacement's first product at (e, j): the two coordinates times the matrix. -/
theorem mat_v15 (e : Fin 500000) (j : Fin 128) :
    val_main_v15 (F := Ideal) x2 x3 x4 x22 x23 (ix2 e j) = rowMat (fun k => val_main_v14 (F := Ideal) x2 x3 x22 x23 (ix2 e k)) (fun k j => x4 (ix2 k j)) j := by
  rw [val_main_v15_apply]
  exact Finset.sum_congr rfl fun k _ => congrArg₂ (· * ·) (congrArg (val_main_v14 (F := Ideal) x2 x3 x22 x23) (ix2_of _ e k rfl rfl)) (congrArg x4 (ix2_of _ k j rfl rfl))

/-- The positive part, entry by entry. -/
theorem relu_v19 (i : S500000x128.Idx) :
    val_main_v19 (F := Ideal) x2 x3 x4 x5 x22 x23 i = pos (val_main_v18 (F := Ideal) x2 x3 x4 x5 x22 x23 i) := by
  rw [val_main_v19_apply, val_main_call0_v0_apply, val_main_call0_cst_apply]
  rfl

/-- The displacement's hidden layer at (e, j). -/
theorem dispHidden_v19 (e : Fin 500000) (j : Fin 128) :
    val_main_v19 (F := Ideal) x2 x3 x4 x5 x22 x23 (ix2 e j) = dispHidden (fun k => val_main_v14 (F := Ideal) x2 x3 x22 x23 (ix2 e k)) (fun k j => x4 (ix2 k j)) (fun j => x5 (ix1 j)) j := by
  rw [relu_v19 x2 x3 x4 x5 x22 x23, val_main_v18_apply, mat_v15 x2 x3 x4 x22 x23 e j, val_main_v17_apply, val_main_v16_apply,
    ix1_of (idx_main_v16 (idx_main_v17 (ix2 e j))) j rfl]
  rfl

/-- The displacement's second product at (e, j): the hidden row times the matrix. -/
theorem mat_v20 (e : Fin 500000) (j : Fin 128) :
    val_main_v20 (F := Ideal) x2 x3 x4 x5 x6 x22 x23 (ix2 e j) = rowMat (fun k => val_main_v19 (F := Ideal) x2 x3 x4 x5 x22 x23 (ix2 e k)) (fun k j => x6 (ix2 k j)) j := by
  rw [val_main_v20_apply]
  exact Finset.sum_congr rfl fun k _ => congrArg₂ (· * ·) (congrArg (val_main_v19 (F := Ideal) x2 x3 x4 x5 x22 x23) (ix2_of _ e k rfl rfl)) (congrArg x6 (ix2_of _ k j rfl rfl))

/-- The mean of row e of the displacement's second product: the sum of its 128 entries over the width. -/
theorem mean_v20 (e : Fin 500000) (i : S500000x1.Idx) (hi : i 0 = e) :
    val_main_v24 (F := Ideal) x2 x3 x4 x5 x6 x22 x23 i = rowMean (fun k => val_main_v20 (F := Ideal) x2 x3 x4 x5 x6 x22 x23 (ix2 e k)) := by
  rw [val_main_v24_apply, val_main_v22_apply, val_main_v21_apply, val_main_v23_apply, val_main_cst_3_apply,
    val_main_cst_apply]
  simp only [Ideal.hostDivf_def, Ideal.ofBits_def, Ideal.ofBits_zero_f32, zero_add]
  refine congrArg (Ideal.div · _) (Finset.sum_congr rfl fun k _ => ?_)
  exact congrArg (val_main_v20 (F := Ideal) x2 x3 x4 x5 x6 x22 x23) (ix2_of _ e k (by exact hi) rfl)

/-- The variance of row e of the displacement's second product: the mean of the squared deviations from the row's mean. -/
theorem var_v20 (e : Fin 500000) (i : S500000x1.Idx) (hi : i 0 = e) :
    val_main_v31 (F := Ideal) x2 x3 x4 x5 x6 x22 x23 i = rowVar (fun k => val_main_v20 (F := Ideal) x2 x3 x4 x5 x6 x22 x23 (ix2 e k)) := by
  rw [val_main_v31_apply, val_main_v29_apply, val_main_v28_apply, val_main_v30_apply, val_main_cst_5_apply,
    val_main_cst_4_apply]
  simp only [Ideal.hostDivf_def, Ideal.ofBits_def, Ideal.ofBits_zero_f32, zero_add]
  refine congrArg (Ideal.div · _) (Finset.sum_congr rfl fun k _ => ?_)
  rw [val_main_v27_apply, val_main_v26_apply, val_main_v25_apply, mean_v20 x2 x3 x4 x5 x6 x22 x23 e _ (by exact hi)]
  simp only [Ideal.mulf_def, Ideal.subf_def]
  rw [ix2_of (idx_main_v28 (idx_main_v29 i) k) e k (by exact hi) rfl]

/-- Row e of the displacement's second product, normalised, scaled and shifted, at channel j. -/
theorem norm_v20 (e : Fin 500000) (j : Fin 128) :
    val_main_v44 (F := Ideal) x2 x3 x4 x5 x6 x7 x8 x22 x23 (ix2 e j) = rowNorm (fun k => val_main_v20 (F := Ideal) x2 x3 x4 x5 x6 x22 x23 (ix2 e k)) (fun j => x7 (ix1 j)) (fun j => x8 (ix1 j)) j := by
  rw [val_main_v44_apply, val_main_v41_apply, val_main_v38_apply, val_main_v33_apply, val_main_v32_apply, val_main_v37_apply,
    val_main_v36_apply, val_main_v35_apply, val_main_v34_apply, val_main_cst_6_apply, val_main_v40_apply, val_main_v39_apply,
    val_main_v43_apply, val_main_v42_apply, mean_v20 x2 x3 x4 x5 x6 x22 x23 e _ (by exact rfl), var_v20 x2 x3 x4 x5 x6 x22 x23 e _ (by exact rfl),
    ix1_of (idx_main_v39 (idx_main_v40 (ix2 e j))) j rfl, ix1_of (idx_main_v42 (idx_main_v43 (ix2 e j))) j rfl]
  rfl

/-- The positive part, entry by entry. -/
theorem relu_v45 (i : S500000x128.Idx) :
    val_main_v45 (F := Ideal) x2 x3 x4 x5 x6 x7 x8 x22 x23 i = pos (val_main_v44 (F := Ideal) x2 x3 x4 x5 x6 x7 x8 x22 x23 i) := by
  rw [val_main_v45_apply, val_main_call1_v0_apply, val_main_call1_cst_apply]
  rfl

/-- The displacement's features at (e, j). -/
theorem dispFeat_v45 (e : Fin 500000) (j : Fin 128) :
    val_main_v45 (F := Ideal) x2 x3 x4 x5 x6 x7 x8 x22 x23 (ix2 e j) = dispFeat (fun k => val_main_v14 (F := Ideal) x2 x3 x22 x23 (ix2 e k)) (fun k j => x4 (ix2 k j)) (fun j => x5 (ix1 j)) (fun k j => x6 (ix2 k j)) (fun j => x7 (ix1 j)) (fun j => x8 (ix1 j)) j := by
  rw [relu_v45 x2 x3 x4 x5 x6 x7 x8 x22 x23, norm_v20 x2 x3 x4 x5 x6 x7 x8 x22 x23 e j]
  have h : (fun k => val_main_v20 (F := Ideal) x2 x3 x4 x5 x6 x22 x23 (ix2 e k)) = rowMat (dispHidden (fun k => val_main_v14 (F := Ideal) x2 x3 x22 x23 (ix2 e k)) (fun k j => x4 (ix2 k j)) (fun j => x5 (ix1 j))) (fun k j => x6 (ix2 k j)) := funext fun k => by
    rw [mat_v20 x2 x3 x4 x5 x6 x22 x23 e k]
    exact congrArg (fun f => rowMat f (fun k j => x6 (ix2 k j)) k) (funext fun k' => dispHidden_v19 x2 x3 x4 x5 x22 x23 e k')
  exact congrArg (fun x => pos (rowNorm x (fun j => x7 (ix1 j)) (fun j => x8 (ix1 j)) j)) h

/-! ## The query -/

/-- The query's product at (e, j): the agent's row times the matrix. -/
theorem mat_v53 (e : Fin 500000) (j : Fin 128) :
    val_main_v53 (F := Ideal) x0 x9 x22 (ix2 e j) = rowMat (fun k => val_main_v52 (F := Ideal) x0 x22 (ix2 e k)) (fun k j => x9 (ix2 k j)) j := by
  rw [val_main_v53_apply]
  exact Finset.sum_congr rfl fun k _ => congrArg₂ (· * ·) (congrArg (val_main_v52 (F := Ideal) x0 x22) (ix2_of _ e k rfl rfl)) (congrArg x9 (ix2_of _ k j rfl rfl))

/-- The mean of row e of the query's product: the sum of its 128 entries over the width. -/
theorem mean_v53 (e : Fin 500000) (i : S500000x1.Idx) (hi : i 0 = e) :
    val_main_v57 (F := Ideal) x0 x9 x22 i = rowMean (fun k => val_main_v53 (F := Ideal) x0 x9 x22 (ix2 e k)) := by
  rw [val_main_v57_apply, val_main_v55_apply, val_main_v54_apply, val_main_v56_apply, val_main_cst_10_apply,
    val_main_cst_9_apply]
  simp only [Ideal.hostDivf_def, Ideal.ofBits_def, Ideal.ofBits_zero_f32, zero_add]
  refine congrArg (Ideal.div · _) (Finset.sum_congr rfl fun k _ => ?_)
  exact congrArg (val_main_v53 (F := Ideal) x0 x9 x22) (ix2_of _ e k (by exact hi) rfl)

/-- The variance of row e of the query's product: the mean of the squared deviations from the row's mean. -/
theorem var_v53 (e : Fin 500000) (i : S500000x1.Idx) (hi : i 0 = e) :
    val_main_v64 (F := Ideal) x0 x9 x22 i = rowVar (fun k => val_main_v53 (F := Ideal) x0 x9 x22 (ix2 e k)) := by
  rw [val_main_v64_apply, val_main_v62_apply, val_main_v61_apply, val_main_v63_apply, val_main_cst_12_apply,
    val_main_cst_11_apply]
  simp only [Ideal.hostDivf_def, Ideal.ofBits_def, Ideal.ofBits_zero_f32, zero_add]
  refine congrArg (Ideal.div · _) (Finset.sum_congr rfl fun k _ => ?_)
  rw [val_main_v60_apply, val_main_v59_apply, val_main_v58_apply, mean_v53 x0 x9 x22 e _ (by exact hi)]
  simp only [Ideal.mulf_def, Ideal.subf_def]
  rw [ix2_of (idx_main_v61 (idx_main_v62 i) k) e k (by exact hi) rfl]

/-- Row e of the query's product, normalised, scaled and shifted, at channel j. -/
theorem norm_v53 (e : Fin 500000) (j : Fin 128) :
    val_main_v77 (F := Ideal) x0 x9 x10 x11 x22 (ix2 e j) = rowNorm (fun k => val_main_v53 (F := Ideal) x0 x9 x22 (ix2 e k)) (fun j => x10 (ix1 j)) (fun j => x11 (ix1 j)) j := by
  rw [val_main_v77_apply, val_main_v74_apply, val_main_v71_apply, val_main_v66_apply, val_main_v65_apply, val_main_v70_apply,
    val_main_v69_apply, val_main_v68_apply, val_main_v67_apply, val_main_cst_13_apply, val_main_v73_apply, val_main_v72_apply,
    val_main_v76_apply, val_main_v75_apply, mean_v53 x0 x9 x22 e _ (by exact rfl), var_v53 x0 x9 x22 e _ (by exact rfl),
    ix1_of (idx_main_v72 (idx_main_v73 (ix2 e j))) j rfl, ix1_of (idx_main_v75 (idx_main_v76 (ix2 e j))) j rfl]
  rfl

/-- The positive part, entry by entry. -/
theorem relu_v78 (i : S500000x128.Idx) :
    val_main_v78 (F := Ideal) x0 x9 x10 x11 x22 i = pos (val_main_v77 (F := Ideal) x0 x9 x10 x11 x22 i) := by
  rw [val_main_v78_apply, val_main_call2_v0_apply, val_main_call2_cst_apply]
  rfl

/-- The query at (e, j). -/
theorem queryFeat_v78 (e : Fin 500000) (j : Fin 128) :
    val_main_v78 (F := Ideal) x0 x9 x10 x11 x22 (ix2 e j) = queryFeat (fun k => val_main_v52 (F := Ideal) x0 x22 (ix2 e k)) (fun k j => x9 (ix2 k j)) (fun j => x10 (ix1 j)) (fun j => x11 (ix1 j)) j := by
  rw [relu_v78 x0 x9 x10 x11 x22, norm_v53 x0 x9 x10 x11 x22 e j]
  have h : (fun k => val_main_v53 (F := Ideal) x0 x9 x22 (ix2 e k)) = rowMat (fun k => val_main_v52 (F := Ideal) x0 x22 (ix2 e k)) (fun k j => x9 (ix2 k j)) := funext fun k => mat_v53 x0 x9 x22 e k
  exact congrArg (fun x => pos (rowNorm x (fun j => x10 (ix1 j)) (fun j => x11 (ix1 j)) j)) h

/-! ## The three rows joined, and the message -/

/-- The joined row at (e, k): the displacement's features, the query, the context's row, by where k falls. -/
theorem joined_v86 (e : Fin 500000) (k : Fin 384) :
    val_main_v86 (F := Ideal) x0 x1 x2 x3 x4 x5 x6 x7 x8 x9 x10 x11 x22 x23 (ix2 e k) = joined (fun k => val_main_v45 (F := Ideal) x2 x3 x4 x5 x6 x7 x8 x22 x23 (ix2 e k)) (fun k => val_main_v78 (F := Ideal) x0 x9 x10 x11 x22 (ix2 e k)) (fun k => val_main_v85 (F := Ideal) x1 x23 (ix2 e k)) k := by
  unfold val_main_v86 joined
  have hk : k.val < 384 := k.isLt
  by_cases h1 : k.val < 128
  · rw [dif_pos h1]
    exact concatenate_apply_piece (t := S500000x384) 1 _ _ (ix2 e k) 0
      (by show (0 : Nat) < 3; omega) S500000x128 (val_main_v45 (F := Ideal) x2 x3 x4 x5 x6 x7 x8 x22 x23) rfl rfl 0 rfl (ix2 e ⟨k.val, h1⟩)
      (fun b hb => by
        match b with
        | ⟨0, _⟩ => rfl
        | ⟨1, _⟩ => exact absurd rfl hb)
      (by show 0 + k.val = k.val; omega)
  by_cases h2 : k.val < 256
  · rw [dif_neg h1, dif_pos h2]
    exact concatenate_apply_piece (t := S500000x384) 1 _ _ (ix2 e k) 1
      (by show (1 : Nat) < 3; omega) S500000x128 (val_main_v78 (F := Ideal) x0 x9 x10 x11 x22) rfl rfl 128 rfl (ix2 e ⟨k.val - 128, by omega⟩)
      (fun b hb => by
        match b with
        | ⟨0, _⟩ => rfl
        | ⟨1, _⟩ => exact absurd rfl hb)
      (by show 128 + (k.val - 128) = k.val; omega)
  rw [dif_neg h1, dif_neg h2]
  exact concatenate_apply_piece (t := S500000x384) 1 _ _ (ix2 e k) 2
    (by show (2 : Nat) < 3; omega) S500000x128 (val_main_v85 (F := Ideal) x1 x23) rfl rfl 256 rfl (ix2 e ⟨k.val - 256, by omega⟩)
    (fun b hb => by
      match b with
      | ⟨0, _⟩ => rfl
      | ⟨1, _⟩ => exact absurd rfl hb)
    (by show 256 + (k.val - 256) = k.val; omega)

/-- The message's first product at (e, j): the joined row times the matrix. -/
theorem mat_v87 (e : Fin 500000) (j : Fin 128) :
    val_main_v87 (F := Ideal) x0 x1 x2 x3 x4 x5 x6 x7 x8 x9 x10 x11 x12 x22 x23 (ix2 e j) = rowMat (fun k => val_main_v86 (F := Ideal) x0 x1 x2 x3 x4 x5 x6 x7 x8 x9 x10 x11 x22 x23 (ix2 e k)) (fun k j => x12 (ix2 k j)) j := by
  rw [val_main_v87_apply]
  exact Finset.sum_congr rfl fun k _ => congrArg₂ (· * ·) (congrArg (val_main_v86 (F := Ideal) x0 x1 x2 x3 x4 x5 x6 x7 x8 x9 x10 x11 x22 x23) (ix2_of _ e k rfl rfl)) (congrArg x12 (ix2_of _ k j rfl rfl))

/-- The mean of row e of the message's first product: the sum of its 128 entries over the width. -/
theorem mean_v87 (e : Fin 500000) (i : S500000x1.Idx) (hi : i 0 = e) :
    val_main_v91 (F := Ideal) x0 x1 x2 x3 x4 x5 x6 x7 x8 x9 x10 x11 x12 x22 x23 i = rowMean (fun k => val_main_v87 (F := Ideal) x0 x1 x2 x3 x4 x5 x6 x7 x8 x9 x10 x11 x12 x22 x23 (ix2 e k)) := by
  rw [val_main_v91_apply, val_main_v89_apply, val_main_v88_apply, val_main_v90_apply, val_main_cst_17_apply,
    val_main_cst_16_apply]
  simp only [Ideal.hostDivf_def, Ideal.ofBits_def, Ideal.ofBits_zero_f32, zero_add]
  refine congrArg (Ideal.div · _) (Finset.sum_congr rfl fun k _ => ?_)
  exact congrArg (val_main_v87 (F := Ideal) x0 x1 x2 x3 x4 x5 x6 x7 x8 x9 x10 x11 x12 x22 x23) (ix2_of _ e k (by exact hi) rfl)

/-- The variance of row e of the message's first product: the mean of the squared deviations from the row's mean. -/
theorem var_v87 (e : Fin 500000) (i : S500000x1.Idx) (hi : i 0 = e) :
    val_main_v98 (F := Ideal) x0 x1 x2 x3 x4 x5 x6 x7 x8 x9 x10 x11 x12 x22 x23 i = rowVar (fun k => val_main_v87 (F := Ideal) x0 x1 x2 x3 x4 x5 x6 x7 x8 x9 x10 x11 x12 x22 x23 (ix2 e k)) := by
  rw [val_main_v98_apply, val_main_v96_apply, val_main_v95_apply, val_main_v97_apply, val_main_cst_19_apply,
    val_main_cst_18_apply]
  simp only [Ideal.hostDivf_def, Ideal.ofBits_def, Ideal.ofBits_zero_f32, zero_add]
  refine congrArg (Ideal.div · _) (Finset.sum_congr rfl fun k _ => ?_)
  rw [val_main_v94_apply, val_main_v93_apply, val_main_v92_apply, mean_v87 x0 x1 x2 x3 x4 x5 x6 x7 x8 x9 x10 x11 x12 x22 x23 e _ (by exact hi)]
  simp only [Ideal.mulf_def, Ideal.subf_def]
  rw [ix2_of (idx_main_v95 (idx_main_v96 i) k) e k (by exact hi) rfl]

/-- Row e of the message's first product, normalised, scaled and shifted, at channel j. -/
theorem norm_v87 (e : Fin 500000) (j : Fin 128) :
    val_main_v111 (F := Ideal) x0 x1 x2 x3 x4 x5 x6 x7 x8 x9 x10 x11 x12 x13 x14 x22 x23 (ix2 e j) = rowNorm (fun k => val_main_v87 (F := Ideal) x0 x1 x2 x3 x4 x5 x6 x7 x8 x9 x10 x11 x12 x22 x23 (ix2 e k)) (fun j => x13 (ix1 j)) (fun j => x14 (ix1 j)) j := by
  rw [val_main_v111_apply, val_main_v108_apply, val_main_v105_apply, val_main_v100_apply, val_main_v99_apply, val_main_v104_apply,
    val_main_v103_apply, val_main_v102_apply, val_main_v101_apply, val_main_cst_20_apply, val_main_v107_apply, val_main_v106_apply,
    val_main_v110_apply, val_main_v109_apply, mean_v87 x0 x1 x2 x3 x4 x5 x6 x7 x8 x9 x10 x11 x12 x22 x23 e _ (by exact rfl), var_v87 x0 x1 x2 x3 x4 x5 x6 x7 x8 x9 x10 x11 x12 x22 x23 e _ (by exact rfl),
    ix1_of (idx_main_v106 (idx_main_v107 (ix2 e j))) j rfl, ix1_of (idx_main_v109 (idx_main_v110 (ix2 e j))) j rfl]
  rfl

/-- The positive part, entry by entry. -/
theorem relu_v112 (i : S500000x128.Idx) :
    val_main_v112 (F := Ideal) x0 x1 x2 x3 x4 x5 x6 x7 x8 x9 x10 x11 x12 x13 x14 x22 x23 i = pos (val_main_v111 (F := Ideal) x0 x1 x2 x3 x4 x5 x6 x7 x8 x9 x10 x11 x12 x13 x14 x22 x23 i) := by
  rw [val_main_v112_apply, val_main_call3_v0_apply, val_main_call3_cst_apply]
  rfl

/-- The message at (e, j): the last hidden row times the matrix. -/
theorem mat_v113 (e : Fin 500000) (j : Fin 128) :
    val_main_v113 (F := Ideal) x0 x1 x2 x3 x4 x5 x6 x7 x8 x9 x10 x11 x12 x13 x14 x15 x22 x23 (ix2 e j) = rowMat (fun k => val_main_v112 (F := Ideal) x0 x1 x2 x3 x4 x5 x6 x7 x8 x9 x10 x11 x12 x13 x14 x22 x23 (ix2 e k)) (fun k j => x15 (ix2 k j)) j := by
  rw [val_main_v113_apply]
  exact Finset.sum_congr rfl fun k _ => congrArg₂ (· * ·) (congrArg (val_main_v112 (F := Ideal) x0 x1 x2 x3 x4 x5 x6 x7 x8 x9 x10 x11 x12 x13 x14 x22 x23) (ix2_of _ e k rfl rfl)) (congrArg x15 (ix2_of _ k j rfl rfl))

/-- (R1) One edge's message at (e, j), from the edge's displacement, its agent's row and its context's row. -/
theorem edgeMsg_v113 (e : Fin 500000) (j : Fin 128) :
    val_main_v113 (F := Ideal) x0 x1 x2 x3 x4 x5 x6 x7 x8 x9 x10 x11 x12 x13 x14 x15 x22 x23 (ix2 e j) = edgeMsg (fun k => val_main_v14 (F := Ideal) x2 x3 x22 x23 (ix2 e k)) (fun k => val_main_v52 (F := Ideal) x0 x22 (ix2 e k)) (fun k => val_main_v85 (F := Ideal) x1 x23 (ix2 e k)) (fun k j => x4 (ix2 k j)) (fun j => x5 (ix1 j)) (fun k j => x6 (ix2 k j)) (fun j => x7 (ix1 j)) (fun j => x8 (ix1 j)) (fun k j => x9 (ix2 k j)) (fun j => x10 (ix1 j)) (fun j => x11 (ix1 j)) (fun k j => x12 (ix2 k j)) (fun j => x13 (ix1 j)) (fun j => x14 (ix1 j)) (fun k j => x15 (ix2 k j)) j := by
  unfold edgeMsg
  rw [mat_v113 x0 x1 x2 x3 x4 x5 x6 x7 x8 x9 x10 x11 x12 x13 x14 x15 x22 x23 e j]
  refine congrArg (fun f => rowMat f (fun k j => x15 (ix2 k j)) j) (funext fun i => ?_)
  rw [relu_v112 x0 x1 x2 x3 x4 x5 x6 x7 x8 x9 x10 x11 x12 x13 x14 x22 x23, norm_v87 x0 x1 x2 x3 x4 x5 x6 x7 x8 x9 x10 x11 x12 x13 x14 x22 x23 e i]
  refine congrArg (fun x => pos (rowNorm x (fun j => x13 (ix1 j)) (fun j => x14 (ix1 j)) i)) (funext fun k => ?_)
  rw [mat_v87 x0 x1 x2 x3 x4 x5 x6 x7 x8 x9 x10 x11 x12 x22 x23 e k]
  refine congrArg (fun f => rowMat f (fun k j => x12 (ix2 k j)) k) (funext fun m => ?_)
  rw [joined_v86 x0 x1 x2 x3 x4 x5 x6 x7 x8 x9 x10 x11 x22 x23 e m]
  exact congrArg₂ (fun d q => joined d q (fun k => val_main_v85 (F := Ideal) x1 x23 (ix2 e k)) m) (funext fun t => dispFeat_v45 x2 x3 x4 x5 x6 x7 x8 x22 x23 e t) (funext fun t => queryFeat_v78 x0 x9 x10 x11 x22 e t)

end Cert.RefRows

end
-- ==== Proof.RefAgent.lean ====
/- The reference program's new agent rows, row by row.

   For one agent n the reference projects the agent's row through a matrix, adds to each entry the sum of the
   entries of the messages whose edge ends at the agent (an accumulating scatter: the entry plus the sum, over
   the update entries whose target is that entry, of the updates), normalises the row, takes the positive part,
   goes through a second matrix, normalises again, adds the agent's old row back and takes the positive part.
   Every stage below reads one operation of the reference at an entry (n, j) and names it as the row operation
   of Cert.RowMath that it is; the messages themselves stay an unopened term. The last theorem chains the
   stages: the new row at (n, j) is Cert.RowMath.agentOut of the agent's old row and the row of message sums. -/
import proofs.«101233_j87411174408394_2_alg».proof.Proof.RowMath
import proofs.«101233_j87411174408394_2_alg».proof.Proof.RefRead

noncomputable section

namespace Cert.RefRows

open Cert.ReferenceIdeal Cert.ReferenceIdeal.Gen Cert.ReferenceIdeal.Read Cert.RowMath
open Idealize.ShloMosaic Idealize.ShloMosaic.TcCoe Idealize.SL.Sem Idealize.ShloMosaic.StableHlo Idealize.ShloMosaic.ValueIdx

variable (x0 : (⟨S100000x128, .f32⟩ : BufTy).Contents (Elt Ideal))
  (x1 : (⟨S150000x128, .f32⟩ : BufTy).Contents (Elt Ideal))
  (x2 : (⟨S100000x2, .f32⟩ : BufTy).Contents (Elt Ideal))
  (x3 : (⟨S150000x2, .f32⟩ : BufTy).Contents (Elt Ideal))
  (x4 : (⟨S2x128, .f32⟩ : BufTy).Contents (Elt Ideal))
  (x5 : (⟨S128, .f32⟩ : BufTy).Contents (Elt Ideal))
  (x6 : (⟨S128x128, .f32⟩ : BufTy).Contents (Elt Ideal))
  (x7 : (⟨S128, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))
  (x11 : (⟨S128, .f32⟩ : BufTy).Contents (Elt Ideal))
  (x12 : (⟨S384x128, .f32⟩ : BufTy).Contents (Elt Ideal))
  (x13 : (⟨S128, .f32⟩ : BufTy).Contents (Elt Ideal))
  (x14 : (⟨S128, .f32⟩ : BufTy).Contents (Elt Ideal))
  (x15 : (⟨S128x128, .f32⟩ : BufTy).Contents (Elt Ideal))
  (x16 : (⟨S128x128, .f32⟩ : BufTy).Contents (Elt Ideal))
  (x17 : (⟨S128, .f32⟩ : BufTy).Contents (Elt Ideal))
  (x18 : (⟨S128, .f32⟩ : BufTy).Contents (Elt Ideal))
  (x19 : (⟨S128x128, .f32⟩ : BufTy).Contents (Elt Ideal))
  (x20 : (⟨S128, .f32⟩ : BufTy).Contents (Elt Ideal))
  (x21 : (⟨S128, .f32⟩ : BufTy).Contents (Elt Ideal))
  (x22 : (⟨S500000, .i32⟩ : BufTy).Contents (Elt Ideal))
  (x23 : (⟨S500000, .i32⟩ : BufTy).Contents (Elt Ideal))

/-- A rank-2 index with known coordinates is the index built from them. -/
private theorem ix2_of {n0 n1 : Nat} (i : (⟨2, ![n0, n1]⟩ : Shape).Idx) (a : Fin n0) (b : Fin n1) (h0 : i 0 = a) (h1 : i 1 = b) :
    i = ix2 a b := by
  funext d
  match d with
  | ⟨0, _⟩ => exact h0
  | ⟨1, _⟩ => exact h1

/-- A rank-1 index with a known coordinate is the index built from it. -/
private theorem ix1_of {n : Nat} (i : (⟨1, ![n]⟩ : Shape).Idx) (a : Fin n) (h0 : i 0 = a) : i = ix1 a := by
  funext d
  match d with
  | ⟨0, _⟩ => exact h0

/-- The agents' projected rows at (n, j): the agent's row times the matrix. -/
theorem mat_v114 (e : Fin 100000) (j : Fin 128) :
    val_main_v114 (F := Ideal) x0 x16 (ix2 e j) = rowMat (fun k => x0 (ix2 e k)) (fun k j => x16 (ix2 k j)) j := by
  rw [val_main_v114_apply]
  exact Finset.sum_congr rfl fun k _ => congrArg₂ (· * ·) (congrArg x0 (ix2_of _ e k rfl rfl)) (congrArg x16 (ix2_of _ k j rfl rfl))

/-- The accumulated rows at an entry: the projected row's entry plus the sum of the messages' entries that land on it. -/
theorem scat_v121 (i : S100000x128.Idx) :
    val_main_v121 (F := Ideal) x0 x1 x2 x3 x4 x5 x6 x7 x8 x9 x10 x11 x12 x13 x14 x15 x16 x22 x23 i = val_main_v114 (F := Ideal) x0 x16 i + ∑ u ∈ Finset.univ.filter (fun u => scatter_S100000x128_S500000x1_S500000x128_1_0_0_1.resultIdx? u (val_main_v120 (F := Ideal) x22) = some i), val_main_v113 (F := Ideal) x0 x1 x2 x3 x4 x5 x6 x7 x8 x9 x10 x11 x12 x13 x14 x15 x22 x23 u := by
  rfl

/-- The mean of row e of the accumulated rows: the sum of its 128 entries over the width. -/
theorem mean_v121 (e : Fin 100000) (i : S100000x1.Idx) (hi : i 0 = e) :
    val_main_v125 (F := Ideal) x0 x1 x2 x3 x4 x5 x6 x7 x8 x9 x10 x11 x12 x13 x14 x15 x16 x22 x23 i = rowMean (fun k => val_main_v121 (F := Ideal) x0 x1 x2 x3 x4 x5 x6 x7 x8 x9 x10 x11 x12 x13 x14 x15 x16 x22 x23 (ix2 e k)) := by
  rw [val_main_v125_apply, val_main_v123_apply, val_main_v122_apply, val_main_v124_apply, val_main_cst_24_apply,
    val_main_cst_23_apply]
  simp only [Ideal.hostDivf_def, Ideal.ofBits_def, Ideal.ofBits_zero_f32, zero_add]
  refine congrArg (Ideal.div · _) (Finset.sum_congr rfl fun k _ => ?_)
  exact congrArg (val_main_v121 (F := Ideal) x0 x1 x2 x3 x4 x5 x6 x7 x8 x9 x10 x11 x12 x13 x14 x15 x16 x22 x23) (ix2_of _ e k (by exact hi) rfl)

/-- The variance of row e of the accumulated rows: the mean of the squared deviations from the row's mean. -/
theorem var_v121 (e : Fin 100000) (i : S100000x1.Idx) (hi : i 0 = e) :
    val_main_v132 (F := Ideal) x0 x1 x2 x3 x4 x5 x6 x7 x8 x9 x10 x11 x12 x13 x14 x15 x16 x22 x23 i = rowVar (fun k => val_main_v121 (F := Ideal) x0 x1 x2 x3 x4 x5 x6 x7 x8 x9 x10 x11 x12 x13 x14 x15 x16 x22 x23 (ix2 e k)) := by
  rw [val_main_v132_apply, val_main_v130_apply, val_main_v129_apply, val_main_v131_apply, val_main_cst_26_apply,
    val_main_cst_25_apply]
  simp only [Ideal.hostDivf_def, Ideal.ofBits_def, Ideal.ofBits_zero_f32, zero_add]
  refine congrArg (Ideal.div · _) (Finset.sum_congr rfl fun k _ => ?_)
  rw [val_main_v128_apply, val_main_v127_apply, val_main_v126_apply, mean_v121 x0 x1 x2 x3 x4 x5 x6 x7 x8 x9 x10 x11 x12 x13 x14 x15 x16 x22 x23 e _ (by exact hi)]
  simp only [Ideal.mulf_def, Ideal.subf_def]
  rw [ix2_of (idx_main_v129 (idx_main_v130 i) k) e k (by exact hi) rfl]

/-- Row e of the accumulated rows, normalised, scaled and shifted, at channel j. -/
theorem norm_v121 (e : Fin 100000) (j : Fin 128) :
    val_main_v145 (F := Ideal) x0 x1 x2 x3 x4 x5 x6 x7 x8 x9 x10 x11 x12 x13 x14 x15 x16 x17 x18 x22 x23 (ix2 e j) = rowNorm (fun k => val_main_v121 (F := Ideal) x0 x1 x2 x3 x4 x5 x6 x7 x8 x9 x10 x11 x12 x13 x14 x15 x16 x22 x23 (ix2 e k)) (fun j => x17 (ix1 j)) (fun j => x18 (ix1 j)) j := by
  rw [val_main_v145_apply, val_main_v142_apply, val_main_v139_apply, val_main_v134_apply, val_main_v133_apply, val_main_v138_apply,
    val_main_v137_apply, val_main_v136_apply, val_main_v135_apply, val_main_cst_27_apply, val_main_v141_apply, val_main_v140_apply,
    val_main_v144_apply, val_main_v143_apply, mean_v121 x0 x1 x2 x3 x4 x5 x6 x7 x8 x9 x10 x11 x12 x13 x14 x15 x16 x22 x23 e _ (by exact rfl), var_v121 x0 x1 x2 x3 x4 x5 x6 x7 x8 x9 x10 x11 x12 x13 x14 x15 x16 x22 x23 e _ (by exact rfl),
    ix1_of (idx_main_v140 (idx_main_v141 (ix2 e j))) j rfl, ix1_of (idx_main_v143 (idx_main_v144 (ix2 e j))) j rfl]
  rfl

/-- The positive part, entry by entry. -/
theorem relu_v146 (i : S100000x128.Idx) :
    val_main_v146 (F := Ideal) x0 x1 x2 x3 x4 x5 x6 x7 x8 x9 x10 x11 x12 x13 x14 x15 x16 x17 x18 x22 x23 i = pos (val_main_v145 (F := Ideal) x0 x1 x2 x3 x4 x5 x6 x7 x8 x9 x10 x11 x12 x13 x14 x15 x16 x17 x18 x22 x23 i) := by
  rw [val_main_v146_apply, val_main_call4_v0_apply, val_main_call4_cst_apply]
  rfl

/-- The agents' second product at (n, j): the hidden row times the matrix. -/
theorem mat_v147 (e : Fin 100000) (j : Fin 128) :
    val_main_v147 (F := Ideal) x0 x1 x2 x3 x4 x5 x6 x7 x8 x9 x10 x11 x12 x13 x14 x15 x16 x17 x18 x19 x22 x23 (ix2 e j) = rowMat (fun k => val_main_v146 (F := Ideal) x0 x1 x2 x3 x4 x5 x6 x7 x8 x9 x10 x11 x12 x13 x14 x15 x16 x17 x18 x22 x23 (ix2 e k)) (fun k j => x19 (ix2 k j)) j := by
  rw [val_main_v147_apply]
  exact Finset.sum_congr rfl fun k _ => congrArg₂ (· * ·) (congrArg (val_main_v146 (F := Ideal) x0 x1 x2 x3 x4 x5 x6 x7 x8 x9 x10 x11 x12 x13 x14 x15 x16 x17 x18 x22 x23) (ix2_of _ e k rfl rfl)) (congrArg x19 (ix2_of _ k j rfl rfl))

/-- The mean of row e of the agents' second product: the sum of its 128 entries over the width. -/
theorem mean_v147 (e : Fin 100000) (i : S100000x1.Idx) (hi : i 0 = e) :
    val_main_v151 (F := Ideal) x0 x1 x2 x3 x4 x5 x6 x7 x8 x9 x10 x11 x12 x13 x14 x15 x16 x17 x18 x19 x22 x23 i = rowMean (fun k => val_main_v147 (F := Ideal) x0 x1 x2 x3 x4 x5 x6 x7 x8 x9 x10 x11 x12 x13 x14 x15 x16 x17 x18 x19 x22 x23 (ix2 e k)) := by
  rw [val_main_v151_apply, val_main_v149_apply, val_main_v148_apply, val_main_v150_apply, val_main_cst_29_apply,
    val_main_cst_28_apply]
  simp only [Ideal.hostDivf_def, Ideal.ofBits_def, Ideal.ofBits_zero_f32, zero_add]
  refine congrArg (Ideal.div · _) (Finset.sum_congr rfl fun k _ => ?_)
  exact congrArg (val_main_v147 (F := Ideal) x0 x1 x2 x3 x4 x5 x6 x7 x8 x9 x10 x11 x12 x13 x14 x15 x16 x17 x18 x19 x22 x23) (ix2_of _ e k (by exact hi) rfl)

/-- The variance of row e of the agents' second product: the mean of the squared deviations from the row's mean. -/
theorem var_v147 (e : Fin 100000) (i : S100000x1.Idx) (hi : i 0 = e) :
    val_main_v158 (F := Ideal) x0 x1 x2 x3 x4 x5 x6 x7 x8 x9 x10 x11 x12 x13 x14 x15 x16 x17 x18 x19 x22 x23 i = rowVar (fun k => val_main_v147 (F := Ideal) x0 x1 x2 x3 x4 x5 x6 x7 x8 x9 x10 x11 x12 x13 x14 x15 x16 x17 x18 x19 x22 x23 (ix2 e k)) := by
  rw [val_main_v158_apply, val_main_v156_apply, val_main_v155_apply, val_main_v157_apply, val_main_cst_31_apply,
    val_main_cst_30_apply]
  simp only [Ideal.hostDivf_def, Ideal.ofBits_def, Ideal.ofBits_zero_f32, zero_add]
  refine congrArg (Ideal.div · _) (Finset.sum_congr rfl fun k _ => ?_)
  rw [val_main_v154_apply, val_main_v153_apply, val_main_v152_apply, mean_v147 x0 x1 x2 x3 x4 x5 x6 x7 x8 x9 x10 x11 x12 x13 x14 x15 x16 x17 x18 x19 x22 x23 e _ (by exact hi)]
  simp only [Ideal.mulf_def, Ideal.subf_def]
  rw [ix2_of (idx_main_v155 (idx_main_v156 i) k) e k (by exact hi) rfl]

/-- Row e of the agents' second product, normalised, scaled and shifted, at channel j. -/
theorem norm_v147 (e : Fin 100000) (j : Fin 128) :
    val_main_v171 (F := Ideal) x0 x1 x2 x3 x4 x5 x6 x7 x8 x9 x10 x11 x12 x13 x14 x15 x16 x17 x18 x19 x20 x21 x22 x23 (ix2 e j) = rowNorm (fun k => val_main_v147 (F := Ideal) x0 x1 x2 x3 x4 x5 x6 x7 x8 x9 x10 x11 x12 x13 x14 x15 x16 x17 x18 x19 x22 x23 (ix2 e k)) (fun j => x20 (ix1 j)) (fun j => x21 (ix1 j)) j := by
  rw [val_main_v171_apply, val_main_v168_apply, val_main_v165_apply, val_main_v160_apply, val_main_v159_apply, val_main_v164_apply,
    val_main_v163_apply, val_main_v162_apply, val_main_v161_apply, val_main_cst_32_apply, val_main_v167_apply, val_main_v166_apply,
    val_main_v170_apply, val_main_v169_apply, mean_v147 x0 x1 x2 x3 x4 x5 x6 x7 x8 x9 x10 x11 x12 x13 x14 x15 x16 x17 x18 x19 x22 x23 e _ (by exact rfl), var_v147 x0 x1 x2 x3 x4 x5 x6 x7 x8 x9 x10 x11 x12 x13 x14 x15 x16 x17 x18 x19 x22 x23 e _ (by exact rfl),
    ix1_of (idx_main_v166 (idx_main_v167 (ix2 e j))) j rfl, ix1_of (idx_main_v169 (idx_main_v170 (ix2 e j))) j rfl]
  rfl

/-- The positive part, entry by entry. -/
theorem relu_v173 (i : S100000x128.Idx) :
    val_main_v173 (F := Ideal) x0 x1 x2 x3 x4 x5 x6 x7 x8 x9 x10 x11 x12 x13 x14 x15 x16 x17 x18 x19 x20 x21 x22 x23 i = pos (val_main_v172 (F := Ideal) x0 x1 x2 x3 x4 x5 x6 x7 x8 x9 x10 x11 x12 x13 x14 x15 x16 x17 x18 x19 x20 x21 x22 x23 i) := by
  rw [val_main_v173_apply, val_main_call5_v0_apply, val_main_call5_cst_apply]
  rfl

/-- (R2) One agent's new row at (n, j), from its old row and the sum of the messages that reach it. -/
theorem agentOut_v173 (n : Fin 100000) (j : Fin 128) :
    val_main_v173 (F := Ideal) x0 x1 x2 x3 x4 x5 x6 x7 x8 x9 x10 x11 x12 x13 x14 x15 x16 x17 x18 x19 x20 x21 x22 x23 (ix2 n j) = agentOut (fun k => x0 (ix2 n k)) (fun k => ∑ u ∈ Finset.univ.filter (fun u => scatter_S100000x128_S500000x1_S500000x128_1_0_0_1.resultIdx? u (val_main_v120 (F := Ideal) x22) = some (ix2 n k)), val_main_v113 (F := Ideal) x0 x1 x2 x3 x4 x5 x6 x7 x8 x9 x10 x11 x12 x13 x14 x15 x22 x23 u) (fun k j => x16 (ix2 k j)) (fun j => x17 (ix1 j)) (fun j => x18 (ix1 j)) (fun k j => x19 (ix2 k j)) (fun j => x20 (ix1 j)) (fun j => x21 (ix1 j)) j := by
  unfold agentOut
  rw [relu_v173 x0 x1 x2 x3 x4 x5 x6 x7 x8 x9 x10 x11 x12 x13 x14 x15 x16 x17 x18 x19 x20 x21 x22 x23, val_main_v172_apply, norm_v147 x0 x1 x2 x3 x4 x5 x6 x7 x8 x9 x10 x11 x12 x13 x14 x15 x16 x17 x18 x19 x20 x21 x22 x23 n j]
  simp only [Ideal.addf_def]
  refine congrArg (fun x => pos (rowNorm x (fun j => x20 (ix1 j)) (fun j => x21 (ix1 j)) j + x0 (ix2 n j))) (funext fun k => ?_)
  rw [mat_v147 x0 x1 x2 x3 x4 x5 x6 x7 x8 x9 x10 x11 x12 x13 x14 x15 x16 x17 x18 x19 x22 x23 n k]
  refine congrArg (fun f => rowMat f (fun k j => x19 (ix2 k j)) k) (funext fun i => ?_)
  rw [relu_v146 x0 x1 x2 x3 x4 x5 x6 x7 x8 x9 x10 x11 x12 x13 x14 x15 x16 x17 x18 x22 x23, norm_v121 x0 x1 x2 x3 x4 x5 x6 x7 x8 x9 x10 x11 x12 x13 x14 x15 x16 x17 x18 x22 x23 n i]
  refine congrArg (fun x => pos (rowNorm x (fun j => x17 (ix1 j)) (fun j => x18 (ix1 j)) i)) (funext fun i' => ?_)
  rw [scat_v121 x0 x1 x2 x3 x4 x5 x6 x7 x8 x9 x10 x11 x12 x13 x14 x15 x16 x22 x23, mat_v114 x0 x16 n i']

end Cert.RefRows

end
-- ==== Proof.Bridge.lean ====
/- The two idealized programs compute the same array.

   The idealized kernel's result, entry by entry, is the agent chain of the agent's row and of the sum of the edge
   messages that the normalised agent index sends to that row; so is the reference's. The gathered rows, the
   displacement and the normalised index are the same host operations of the same arguments on both sides. The one
   difference in arrangement — the kernel scatter-adds the messages into zeros and adds the agents' projection
   afterwards, the reference scatter-adds them onto the projection — has disappeared already: a zero in front of a sum
   changes nothing. -/
import proofs.«101233_j87411174408394_2_alg».proof.Proof.KernelHost
import proofs.«101233_j87411174408394_2_alg».proof.Proof.RefEdge
import proofs.«101233_j87411174408394_2_alg».proof.Proof.RefAgent

set_option maxRecDepth 16384

noncomputable section

namespace Cert.Bridge

open Idealize.ShloMosaic Idealize.ShloMosaic.TcCoe Idealize.SL.Sem Idealize.ShloMosaic.ValueIdx

/-- The displacement, the gathered rows and the normalised agent index are spelt alike in both programs. -/
theorem disp_eq (a2 : Cert.KernelIdeal.S100000x2.Idx → EReal) (a3 : Cert.KernelIdeal.S150000x2.Idx → EReal) (hi wi : Cert.KernelIdeal.S500000.Idx → BitVec 32) :
    Cert.ReferenceIdeal.Read.val_main_v14 (F := Ideal) a2 a3 hi wi = Cert.KernelHost.disp a2 a3 hi wi := rfl
theorem agt_eq (a0 : Cert.KernelIdeal.S100000x128.Idx → EReal) (hi : Cert.KernelIdeal.S500000.Idx → BitVec 32) :
    Cert.ReferenceIdeal.Read.val_main_v52 (F := Ideal) a0 hi = Cert.KernelHost.agtRows a0 hi := rfl
theorem ctx_eq (a1 : Cert.KernelIdeal.S150000x128.Idx → EReal) (wi : Cert.KernelIdeal.S500000.Idx → BitVec 32) :
    Cert.ReferenceIdeal.Read.val_main_v85 (F := Ideal) a1 wi = Cert.KernelHost.ctxRows a1 wi := rfl
theorem idx_eq (hi : Cert.KernelIdeal.S500000.Idx → BitVec 32) :
    Cert.ReferenceIdeal.Read.val_main_v120 (F := Ideal) hi = Cert.KernelHost.normIdx 100000#32 hi := rfl

variable (m : (ℓ : Loc Cert.KernelIdeal.nD Cert.KernelIdeal.τ Cert.KernelIdeal.sig) → Buf (Elt Ideal) ℓ) (ρ : Dev Cert.KernelIdeal.nD → PrngReg)

/-- The idealized kernel's result array is the reference's last stage applied to the kernel's own arguments. -/
theorem result_eq (c : Dev Cert.KernelIdeal.nD) :
    (Cert.KernelIdeal.Gen.W4 m ρ c (Proc.devRef .tc Cert.KernelIdeal.main_v58) : Cert.KernelIdeal.S100000x128.Idx → EReal)
    = Cert.ReferenceIdeal.Read.val_main_v173 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22)) (m ((c : Thread Cert.KernelIdeal.nD Cert.KernelIdeal.τ).loc Cert.KernelIdeal.main_arg23)) := by
  funext i
  obtain ⟨n, j, rfl⟩ : ∃ (n : Fin 100000) (j : Fin 128), i = ix2 n j := ⟨i 0, i 1, eq_ix2 i⟩
  rw [Cert.KernelHost.result_apply m ρ c n j, Cert.RefRows.agentOut_v173]
  refine congrArg (fun ms : Fin 128 → EReal => RowMath.agentOut (fun k => ((m ((c : Thread Cert.KernelIdeal.nD Cert.KernelIdeal.τ).loc Cert.KernelIdeal.main_arg0)) : Cert.KernelIdeal.S100000x128.Idx → EReal) (ix2 n k)) ms
      (fun k j => ((m ((c : Thread Cert.KernelIdeal.nD Cert.KernelIdeal.τ).loc Cert.KernelIdeal.main_arg16)) : Cert.KernelIdeal.S128x128.Idx → EReal) (ix2 k j)) (fun j => ((m ((c : Thread Cert.KernelIdeal.nD Cert.KernelIdeal.τ).loc Cert.KernelIdeal.main_arg17)) : Cert.KernelIdeal.S128.Idx → EReal) (ix1 j)) (fun j => ((m ((c : Thread Cert.KernelIdeal.nD Cert.KernelIdeal.τ).loc Cert.KernelIdeal.main_arg18)) : Cert.KernelIdeal.S128.Idx → EReal) (ix1 j))
      (fun k j => ((m ((c : Thread Cert.KernelIdeal.nD Cert.KernelIdeal.τ).loc Cert.KernelIdeal.main_arg19)) : Cert.KernelIdeal.S128x128.Idx → EReal) (ix2 k j)) (fun j => ((m ((c : Thread Cert.KernelIdeal.nD Cert.KernelIdeal.τ).loc Cert.KernelIdeal.main_arg20)) : Cert.KernelIdeal.S128.Idx → EReal) (ix1 j)) (fun j => ((m ((c : Thread Cert.KernelIdeal.nD Cert.KernelIdeal.τ).loc Cert.KernelIdeal.main_arg21)) : Cert.KernelIdeal.S128.Idx → EReal) (ix1 j)) j)
    (funext fun k => Finset.sum_congr rfl fun u _ => ?_)
  have h := Cert.RefRows.edgeMsg_v113 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg22)) (m ((c : Thread Cert.KernelIdeal.nD Cert.KernelIdeal.τ).loc Cert.KernelIdeal.main_arg23)) (u 0) (u 1)
  refine Eq.symm ?_
  conv_lhs => rw [eq_ix2 u]
  exact h

end Cert.Bridge

end
-- ==== Proof.lean ====
/- The certificate of a graph message-passing layer: a Pallas kernel pair against its jnp reference.

   Both programs take agents' and contexts' feature rows and centres, an edge list (hi, wi) and the weights of small
   row-wise networks. For each edge they build a message from the displacement of the two centres, the agent's row and
   the context's row (three matrix products, each followed by a row normalisation and a positive part, and a last
   matrix product); they sum the messages at each edge's agent; and they pass each agent's projected row plus that sum
   through two more normalised layers, adding the agent's old row back at the end.

   The kernel computes the messages in one kernel call over blocks of 10000 edges, scatter-adds them into an array of
   zeros on the host, and finishes in a second kernel call over blocks of 10000 agents; the reference does everything
   with host operations and scatter-adds onto the agents' projection directly. Over the extended reals the two
   arrangements give the same array (a zero in front of a sum changes nothing; a product with a two-row matrix is the
   sum of two products), entry by entry: the modules imported here prove it in steps —
   RowMath (the row functions), KernelOps / KernelEdge / KernelAgent (each kernel body is those functions of its
   blocks), EdgeArray / AgentArray (the blocks tile the arrays), KernelRun / KernelHost (the kernel's run and what its
   host operations leave), RefRead / RefRunLite (the reference's operations and run), RefEdge / RefAgent (the
   reference is those functions too), Bridge (the two results are one array).

   The three frame claims are the generated frame certificates (the reference's is its run with the result dropped);
   the ideal pass rewrote nothing, so the kernel's idealization is its own text. -/
import proofs.«101233_j87411174408394_2_alg».proof.Defs
import proofs.«101233_j87411174408394_2_alg».proof.Proof.Gen.Kernel
import proofs.«101233_j87411174408394_2_alg».proof.Proof.Gen.Kernel.Skeleton
import proofs.«101233_j87411174408394_2_alg».proof.Proof.Gen.Kernel.Launch
import proofs.«101233_j87411174408394_2_alg».proof.Proof.Gen.Kernel.Points
import proofs.«101233_j87411174408394_2_alg».proof.Proof.Gen.Kernel.Frame
import proofs.«101233_j87411174408394_2_alg».proof.Proof.Gen.KernelIdeal
import proofs.«101233_j87411174408394_2_alg».proof.Proof.Gen.KernelIdeal.Skeleton
import proofs.«101233_j87411174408394_2_alg».proof.Proof.Gen.KernelIdeal.Launch
import proofs.«101233_j87411174408394_2_alg».proof.Proof.Gen.KernelIdeal.Points
import proofs.«101233_j87411174408394_2_alg».proof.Proof.Gen.KernelIdeal.Frame
import proofs.«101233_j87411174408394_2_alg».proof.Proof.Gen.ReferenceIdeal
import proofs.«101233_j87411174408394_2_alg».proof.Proof.Gen.Pre_finite_inputs
import proofs.«101233_j87411174408394_2_alg».proof.Proof.KernelRun
import proofs.«101233_j87411174408394_2_alg».proof.Proof.RefRunLite
import proofs.«101233_j87411174408394_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments: the generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.RefRunLite.run (F := Ideal) m ρ)

/-- From memories that agree on the arguments both idealized programs end with the same result array: the kernel's
    run leaves the array the second kernel call's write-backs build, the reference's run leaves its last stage of its
    own arguments, and these are one array of the shared arguments. -/
theorem algebraic : Cert.algebraic_KernelIdeal_ReferenceIdeal := by
  intro m ρ m' ρ' _ hagree
  refine ⟨fun c => Cert.KernelIdeal.Gen.W4 m ρ c (Proc.devRef .tc Cert.KernelIdeal.main_v58), ?_, ?_⟩
  · exact (θ_run Cert.KernelIdeal.defs _ _).mono (fun r h c =>
      ⟨Cert.KernelIdeal.RunAll.result_at m ρ r h c,
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c),
       (h c _ (Cert.KernelIdeal.Gen.mem_uc Cert.KernelIdeal.main_arg8 (by decide))).trans (Cert.KernelIdeal.Gen.W4_main_arg8 m ρ c),
       (h c _ (Cert.KernelIdeal.Gen.mem_uc Cert.KernelIdeal.main_arg9 (by decide))).trans (Cert.KernelIdeal.Gen.W4_main_arg9 m ρ c),
       (h c _ (Cert.KernelIdeal.Gen.mem_uc Cert.KernelIdeal.main_arg10 (by decide))).trans (Cert.KernelIdeal.Gen.W4_main_arg10 m ρ c),
       (h c _ (Cert.KernelIdeal.Gen.mem_uc Cert.KernelIdeal.main_arg11 (by decide))).trans (Cert.KernelIdeal.Gen.W4_main_arg11 m ρ c),
       (h c _ (Cert.KernelIdeal.Gen.mem_uc Cert.KernelIdeal.main_arg12 (by decide))).trans (Cert.KernelIdeal.Gen.W4_main_arg12 m ρ c),
       (h c _ (Cert.KernelIdeal.Gen.mem_uc Cert.KernelIdeal.main_arg13 (by decide))).trans (Cert.KernelIdeal.Gen.W4_main_arg13 m ρ c),
       (h c _ (Cert.KernelIdeal.Gen.mem_uc Cert.KernelIdeal.main_arg14 (by decide))).trans (Cert.KernelIdeal.Gen.W4_main_arg14 m ρ c),
       (h c _ (Cert.KernelIdeal.Gen.mem_uc Cert.KernelIdeal.main_arg15 (by decide))).trans (Cert.KernelIdeal.Gen.W4_main_arg15 m ρ c),
       (h c _ (Cert.KernelIdeal.Gen.mem_uc Cert.KernelIdeal.main_arg16 (by decide))).trans (Cert.KernelIdeal.Gen.W4_main_arg16 m ρ c),
       (h c _ (Cert.KernelIdeal.Gen.mem_uc Cert.KernelIdeal.main_arg17 (by decide))).trans (Cert.KernelIdeal.Gen.W4_main_arg17 m ρ c),
       (h c _ (Cert.KernelIdeal.Gen.mem_uc Cert.KernelIdeal.main_arg18 (by decide))).trans (Cert.KernelIdeal.Gen.W4_main_arg18 m ρ c),
       (h c _ (Cert.KernelIdeal.Gen.mem_uc Cert.KernelIdeal.main_arg19 (by decide))).trans (Cert.KernelIdeal.Gen.W4_main_arg19 m ρ c),
       (h c _ (Cert.KernelIdeal.Gen.mem_uc Cert.KernelIdeal.main_arg20 (by decide))).trans (Cert.KernelIdeal.Gen.W4_main_arg20 m ρ c),
       (h c _ (Cert.KernelIdeal.Gen.mem_uc Cert.KernelIdeal.main_arg21 (by decide))).trans (Cert.KernelIdeal.Gen.W4_main_arg21 m ρ c),
       (h c _ (Cert.KernelIdeal.Gen.mem_uc Cert.KernelIdeal.main_arg22 (by decide))).trans (Cert.KernelIdeal.Gen.W4_main_arg22 m ρ c),
       (h c _ (Cert.KernelIdeal.Gen.mem_uc Cert.KernelIdeal.main_arg23 (by decide))).trans (Cert.KernelIdeal.Gen.W4_main_arg23 m ρ c)⟩)
      (Cert.KernelIdeal.RunAll.run_all m ρ)
  · refine (θ_run Cert.ReferenceIdeal.defs _ _).mono (fun _ h c => ⟨(h c).1.trans ?_, (h c).2⟩)
      (Cert.RefRunLite.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2]
    exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
